-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S5504x2048 : S_.BroadcastsInDim S5504x2048 (![] : Fin 0 → Fin S5504x2048.rank)
  reducesTo_S5504x2048_S_d0_1 : S5504x2048.ReducesTo [0, 1] S_
  bcast_S_S2048x5504 : S_.BroadcastsInDim S2048x5504 (![] : Fin 0 → Fin S2048x5504.rank)
  reducesTo_S2048x5504_S_d0_1 : S2048x5504.ReducesTo [0, 1] S_

variable [Facts]

def fn_part1 {F : FTy → Type} [FloatOps F] (main_v13 : IVec S_ 1) (main_v16 : IVec S2048x5504 1) : IVec S_ 1 :=
  let main_c_5 : IVec S_ 1 := constantI S_ 1 1#1
  let main_v17 : IVec S_ 1 := (fun x v => Host.reduce IntOp.andi x v reducesTo_S2048x5504_S_d0_1 h_S_) main_v16 main_c_5
  let main_v18 : IVec S_ 1 := andi main_v13 main_v17
  main_v18

def fn {F : FTy → Type} [FloatOps F] (main_arg0 : FVec F S4x2048x2048 .f32) (main_arg1 : FVec F S5504x2048 .f32) (main_arg2 : FVec F S5504x2048 .f32) (main_arg3 : FVec F S2048x5504 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S5504x2048 .f32 := Host.absf main_arg1
  let main_cst_0 : FVec F S_ .f32 := constant S_ .f32 0x7F800000#32
  let main_v5 : FVec F S5504x2048 .f32 := broadcastInDim S5504x2048 ![] bcast_S_S5504x2048 main_cst_0
  let main_v6 : IVec S5504x2048 1 := cmpf .olt main_v4 main_v5
  let main_c_1 : IVec S_ 1 := constantI S_ 1 1#1
  let main_v7 : IVec S_ 1 := (fun x v => Host.reduce IntOp.andi x v reducesTo_S5504x2048_S_d0_1 h_S_) main_v6 main_c_1
  let main_v8 : IVec S_ 1 := andi main_v3 main_v7
  let main_v9 : FVec F S5504x2048 .f32 := Host.absf main_arg2
  let main_cst_2 : FVec F S_ .f32 := constant S_ .f32 0x7F800000#32
  let main_v10 : FVec F S5504x2048 .f32 := broadcastInDim S5504x2048 ![] bcast_S_S5504x2048 main_cst_2
  let main_v11 : IVec S5504x2048 1 := cmpf .olt main_v9 main_v10
  let main_c_3 : IVec S_ 1 := constantI S_ 1 1#1
  let main_v12 : IVec S_ 1 := (fun x v => Host.reduce IntOp.andi x v reducesTo_S5504x2048_S_d0_1 h_S_) main_v11 main_c_3
  let main_v13 : IVec S_ 1 := andi main_v8 main_v12
  let main_v14 : FVec F S2048x5504 .f32 := Host.absf main_arg3
  let main_cst_4 : FVec F S_ .f32 := constant S_ .f32 0x7F800000#32
  let main_v15 : FVec F S2048x5504 .f32 := broadcastInDim S2048x5504 ![] bcast_S_S2048x5504 main_cst_4
  let main_v16 : IVec S2048x5504 1 := cmpf .olt main_v14 main_v15
  fn_part1 (F := F) main_v13 main_v16
-- ==== Kernel.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩
abbrev S5632x2048 : Shape := ⟨2, ![5632, 2048]⟩
abbrev S2048x5632 : Shape := ⟨2, ![2048, 5632]⟩
abbrev S4x2048x5632 : Shape := ⟨3, ![4, 2048, 5632]⟩
abbrev S4x5632 : Shape := ⟨2, ![4, 5632]⟩
abbrev S1x512x2048 : Shape := ⟨3, ![1, 512, 2048]⟩
abbrev S512x2048 : Shape := ⟨2, ![512, 2048]⟩
abbrev S1x512x512 : Shape := ⟨3, ![1, 512, 512]⟩
abbrev S4x512 : Shape := ⟨2, ![4, 512]⟩
abbrev S1x512 : Shape := ⟨2, ![1, 512]⟩
abbrev S512x512 : Shape := ⟨2, ![512, 512]⟩
abbrev S512 : Shape := ⟨1, ![512]⟩
abbrev S4x5504 : Shape := ⟨2, ![4, 5504]⟩
abbrev S8192x5632 : Shape := ⟨2, ![8192, 5632]⟩
abbrev S8192x2048 : Shape := ⟨2, ![8192, 2048]⟩

abbrev nBuf : Space → Nat
  | .hbm => 20
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S5504x2048, .f32⟩
  | .hbm, ⟨2, _⟩ => ⟨S5504x2048, .f32⟩
  | .hbm, ⟨3, _⟩ => ⟨S2048x5504, .f32⟩
  | .hbm, ⟨4, _⟩ => ⟨S_, .i32⟩
  | .hbm, ⟨5, _⟩ => ⟨S_, .f32⟩
  | .hbm, ⟨6, _⟩ => ⟨S5632x2048, .f32⟩
  | .hbm, ⟨7, _⟩ => ⟨S_, .i32⟩
  | .hbm, ⟨8, _⟩ => ⟨S_, .f32⟩
  | .hbm, ⟨9, _⟩ => ⟨S5632x2048, .f32⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S5632x2048, .f32⟩
  | .hbm, ⟨14, _⟩ => ⟨S4x2048x5632, .bf16⟩
  | .hbm, ⟨15, _⟩ => ⟨S4x5632, .f32⟩
  | .hbm, ⟨16, _⟩ => ⟨S4x5504, .f32⟩
  | .hbm, ⟨17, _⟩ => ⟨S8192x5632, .bf16⟩
  | .hbm, ⟨18, _⟩ => ⟨S8192x2048, .f32⟩
  | .hbm, ⟨19, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512x512, .bf16⟩
  | .local _ .vmem, ⟨7, _⟩ => ⟨S1x512x512, .bf16⟩
  | .local _ .vmem, ⟨8, _⟩ => ⟨S4x512, .f32⟩
  | .local _ .vmem, ⟨9, _⟩ => ⟨S4x512, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨3, ![11, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨2, ![16, 11], ![false, false]⟩

def k1_cond2 (i : grid1.Coords) : BitVec 1 :=
  let arg1 : BitVec 32 := BitVec.ofNat 32 (i 1).val
  let c10_i32 : BitVec 32 := 10#32
  let v14 : BitVec 1 := Scalar.cmpi .eq arg1 c10_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S5504x2048_S5632x2048_01280_000 : S5504x2048.Pads (![0, 0] : Fin 2 → Nat) ![128, 0] ![0, 0] S5632x2048
  h_S_ : 0 < S_.numel
  pads_S2048x5504_S2048x5632_000_01280 : S2048x5504.Pads (![0, 0] : Fin 2 → Nat) ![0, 128] ![0, 0] S2048x5632
  transposes_S2048x5632_S5632x2048_1_0 : S2048x5632.Transposes [1, 0] S5632x2048
  inb_S4x512_S4x512_0_0 : ∀ a, (![0, 0] : Fin 2 → Nat) a + S4x512.size a ≤ S4x512.size a
  h_S4x512 : 0 < S4x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  reduces_S512x512_S512 : S512x512.Reduces [0] S512
  shapeCasts_S512_S1x512 : S512.ShapeCasts S1x512
  reduces_S512x2048_S512 : S512x2048.Reduces [1] S512
  broadcasts_S1x512_S4x512 : S1x512.Broadcasts S4x512
  iota_S4x512_d0_w32 : S4x512.Iotas .tc 32 [0]
  shapeCasts_S4x512_S4x512 : S4x512.ShapeCasts S4x512
  slices_S4x5632_S4x5504_0_0 : S4x5632.Slices ![0, 0] S4x5504
  shapeCasts_S4x2048x5632_S8192x5632 : S4x2048x5632.ShapeCasts S8192x5632
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .f32 = 32 ∨ (Rect.block (s := S5632x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .f32 = 32 ∨ (Rect.block (s := S5632x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x2048x5632.size a
  hwx0_3 : ∀ i : grid0.Coords, EltTy.bits .bf16 = 32 ∨ (Rect.block (s := S4x2048x5632) S1x512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x5632.size a
  hwx0_4 : ∀ i : grid0.Coords, EltTy.bits .f32 = 32 ∨ (Rect.block (s := S4x5632) S4x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x5632.size a
  hwx1_0 : ∀ i : grid1.Coords, EltTy.bits .bf16 = 32 ∨ (Rect.block (s := S8192x5632) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S5632x2048.size a
  hwx1_1 : ∀ i : grid1.Coords, EltTy.bits .f32 = 32 ∨ (Rect.block (s := S5632x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond3 i == 1#1) | ⟨_ + 5, h⟩ => absurd h (Nat.not_lt.2 (Nat.le_add_left _ _))

abbrev win1_0 : Pipeline.Window sig grid1 :=
  Pipeline.Window.ofSpec (Memref.whole main_v6) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S5504x2048 : Shape := ⟨2, ![5504, 2048]⟩
abbrev S2048x5504 : Shape := ⟨2, ![2048, 5504]⟩
abbrev S4x2048x5504 : Shape := ⟨3, ![4, 2048, 5504]⟩
abbrev S_ : Shape := ⟨0, ![]⟩
abbrev S4x5504 : Shape := ⟨2, ![4, 5504]⟩
abbrev S5504 : Shape := ⟨1, ![5504]⟩
abbrev S1x5504 : Shape := ⟨2, ![1, 5504]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S5504x2048, .f32⟩
  | .hbm, ⟨2, _⟩ => ⟨S5504x2048, .f32⟩
  | .hbm, ⟨3, _⟩ => ⟨S2048x5504, .f32⟩
  | .hbm, ⟨4, _⟩ => ⟨S4x2048x5504, .f32⟩
  | .hbm, ⟨5, _⟩ => ⟨S4x2048x5504, .f32⟩
  | .hbm, ⟨6, _⟩ => ⟨S4x2048x5504, .f32⟩
  | .hbm, ⟨7, _⟩ => ⟨S_, .f32⟩
  | .hbm, ⟨8, _⟩ => ⟨S4x2048x5504, .f32⟩
  | .hbm, ⟨9, _⟩ => ⟨S4x2048x5504, .f32⟩
  | .hbm, ⟨10, _⟩ => ⟨S_, .f32⟩
  | .hbm, ⟨11, _⟩ => ⟨S4x2048x5504, .f32⟩
  | .hbm, ⟨12, _⟩ => ⟨S4x2048x5504, .f32⟩
  | .hbm, ⟨13, _⟩ => ⟨S4x2048x5504, .f32⟩
  | .hbm, ⟨14, _⟩ => ⟨S4x2048x5504, .f32⟩
  | .hbm, ⟨15, _⟩ => ⟨S4x2048x5504, .f32⟩
  | .hbm, ⟨16, _⟩ => ⟨S4x2048x5504, .f32⟩
  | .hbm, ⟨17, _⟩ => ⟨S_, .f32⟩
  | .hbm, ⟨18, _⟩ => ⟨S4x5504, .f32⟩
  | .hbm, ⟨19, _⟩ => ⟨S5504x2048, .f32⟩
  | .hbm, ⟨20, _⟩ => ⟨S_, .f32⟩
  | .hbm, ⟨21, _⟩ => ⟨S5504, .f32⟩
  | .hbm, ⟨22, _⟩ => ⟨S1x5504, .f32⟩
  | .hbm, ⟨23, _⟩ => ⟨S4x5504, .f32⟩
  | .hbm, ⟨24, _⟩ => ⟨S4x5504, .f32⟩
  | .hbm, ⟨25, _⟩ => ⟨S4x5504, .f32⟩
  | .hbm, ⟨26, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]

class Facts₀ : Prop where
  bcast_S_S4x2048x5504 : S_.BroadcastsInDim S4x2048x5504 (![] : Fin 0 → Fin S4x2048x5504.rank)
  reducesTo_S4x2048x5504_S4x5504_d1 : S4x2048x5504.ReducesTo [1] S4x5504
  h_S_ : 0 < S_.numel
  reducesTo_S5504x2048_S5504_d1 : S5504x2048.ReducesTo [1] S5504
  bcast_S5504_S1x5504_1 : S5504.BroadcastsInDim S1x5504 (![1] : Fin 1 → Fin S1x5504.rank)
  bcast_S1x5504_S4x5504_0_1 : S1x5504.BroadcastsInDim S4x5504 (![0, 1] : Fin 2 → Fin S4x5504.rank)
  dot_S4x2048x2048_S5504x2048_S4x2048x5504_2_1_01_0_n_n_wf : DotDims.WF S4x2048x2048 S5504x2048 S4x2048x5504 [2] [1] [0, 1] [0] [] []
  dot_S4x2048x5504_S2048x5504_S4x2048x2048_2_1_01_0_n_n_wf : DotDims.WF S4x2048x5504 S2048x5504 S4x2048x2048 [2] [1] [0, 1] [0] [] []

variable [Facts₀]

def dot_S4x2048x2048_S5504x2048_S4x2048x5504_2_1_01_0_n_n : DotDims S4x2048x2048 S5504x2048 S4x2048x5504 where
  lhsContracting := [2]
  rhsContracting := [1]
  lhsNonContracting := [0, 1]
  rhsNonContracting := [0]
  lhsBatch := []
  rhsBatch := []
  wf := dot_S4x2048x2048_S5504x2048_S4x2048x5504_2_1_01_0_n_n_wf
def dot_S4x2048x5504_S2048x5504_S4x2048x2048_2_1_01_0_n_n : DotDims S4x2048x5504 S2048x5504 S4x2048x2048 where
  lhsContracting := [2]
  rhsContracting := [1]
  lhsNonContracting := [0, 1]
  rhsNonContracting := [0]
  lhsBatch := []
  rhsBatch := []
  wf := dot_S4x2048x5504_S2048x5504_S4x2048x2048_2_1_01_0_n_n_wf

class Facts : Prop extends Facts₀ where

variable [Facts]
-- ==== Proof.K.R0Runs.lean ====
import proofs.«180569_j56959856279853_2_alg».proof.Proof.Gen.Kernel.Launch
import proofs.«180569_j56959856279853_2_alg».proof.Proof.Gen.Kernel.Skeleton
import proofs.«180569_j56959856279853_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 (the gate/up kernel): the body's branch conditions

Point `t` of the grid `[11, 4, 4]` has coordinates `(i, b, s)` with `t = 16 i + 4 b + s`. -/

/-- The first conditional (`b = 0 ∧ s = 0`: the impacts block is zeroed). -/
abbrev cond0_0 (i : grid0.Coords) : Prop := k0_cond1 i = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (`s = 0`: the accumulator is zeroed), from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 4). -/
theorem hcond0_1 : ∀ t : Fin cfg0.N, cond0_1 (grid0.coords t) ↔ t.val % 4 = 0 :=
  (by decide +kernel : ∀ t : Fin grid0.N, cond0_1 (grid0.coords t) ↔ t.val % 4 = 0)

/-- The third conditional (`s = 3`: row `b` of the impacts block is written). -/
abbrev cond0_2 (i : grid0.Coords) : Prop := k0_cond3 i = 1#1
/-- It holds at the points ≡ 3 (mod 4). -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

/-- Windows 0–3 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Window 4 is live where the first conditional holds (its block is zeroed there), -/
theorem liveAt0_4_A : ∀ t : Fin cfg0.N, cond0_0 (grid0.coords t) → cfg0.idle 4 (grid0.coords t) = false := by decide +kernel
/-- and where the third holds (a row is written); -/
theorem liveAt0_4_D : ∀ t : Fin cfg0.N, cond0_2 (grid0.coords t) → cfg0.idle 4 (grid0.coords t) = false := by decide +kernel
/-- elsewhere it is idle, -/
theorem idleAt0_4 : ∀ t : Fin cfg0.N, ¬cond0_0 (grid0.coords t) → ¬cond0_2 (grid0.coords t) → cfg0.idle 4 (grid0.coords t) = true := by decide +kernel
/-- and not written back. -/
theorem noFlush0_4 : ∀ t : Fin cfg0.N, ¬cond0_2 (grid0.coords t) → (cfg0.win 4).flush t = false := by decide +kernel

/-! ## The staging and scratch memrefs -/

/-- One staging buffer of each output window, through which its contents are stated. -/
abbrev VO0_3 : View sig .tc .vmem S1x512x512 .bf16 := (Memref.whole cc0_stg3_0 : Memref sig .tc .vmem S1x512x512 .bf16).view
abbrev VO0_4 : View sig .tc .vmem S4x512 .f32 := (Memref.whole cc0_stg4_0 : Memref sig .tc .vmem S4x512 .f32).view
/-- Each window's current staging memref at point `t`, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0 : Memref sig .tc .vmem S1x512 .f32 := Memref.whole cc0_scratch0
/-- The same as a view: what it holds is stated through it. -/
abbrev VS0 : View sig .tc .vmem S1x512 .f32 := scM0.view

/-- The core's scoped buffers that are neither a staging buffer of this region nor its accumulator (the other
    region's staging buffers and accumulator), each whole at some contents. -/
def PhiRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA0_eq (c : Dev nD) :
    (Pipeline.ΦA spec0 c : sProp 𝕄)
      = iprop(iprop((∃ d, owns (c : Thread nD τ) scM0 fullShare d) ∗ PhiRest0 c) ∗ (∃ r, prngReg c r)) := by
  unfold Pipeline.ΦA PhiRest0; rw [scopedRest0_eq]; simp only [scM0, owns_whole]; try rfl

end Cert.Kernel.Hand

end
-- ==== Proof.K.R0RunA.lean ====
import proofs.«180569_j56959856279853_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (all of `b = 0 ∧ s = 0`, `s = 0`, not `s = 3`: the points ≡ 0 mod 16). On whole memrefs — the inputs' at
    their contents, the two outputs' and the accumulator at anything — the body runs to the continuation holding the
    inputs' as they were and each output's buffer and the accumulator with the pieces its stores wrote (last first):
    the pieces are the witness the run finds. -/
noncomputable def kernelRun0_A (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) :
    Σ' (L3 : List (View.Piece (Elt F) S1x512x512 .bf16)) (L4 : List (View.Piece (Elt F) S4x512 .f32)), { LS0 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS0

end Cert.Kernel.Hand

end
-- ==== Proof.K.R0RunB.lean ====
import proofs.«180569_j56959856279853_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (`s = 0` but not `b = 0`: the points ≡ 0 mod 4 that are not ≡ 0 mod 16). The accumulator is reset, so it is taken at anything; the impacts buffer is not stored into: it is taken at contents `xi4` and handed back untouched. -/
noncomputable def kernelRun0_B (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) :
    Σ' (L3 : List (View.Piece (Elt F) S1x512x512 .bf16)), { LS0 : List (View.Piece (Elt F) S1x512 .f32) //
      ∀ (xi4 : Vec F S4x512 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xi4 E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS0

end Cert.Kernel.Hand

end
-- ==== Proof.K.R0RunC.lean ====
import proofs.«180569_j56959856279853_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (`s ∈ {1, 2}`: no conditional holds). The accumulator is taken at the contents `xs0` the point before left; the impacts buffer is taken at `xi4` and handed back untouched. -/
noncomputable def kernelRun0_C (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) :
    Σ' (L3 : List (View.Piece (Elt F) S1x512x512 .bf16)), { LS0 : List (View.Piece (Elt F) S1x512 .f32) //
      ∀ (xi4 : Vec F S4x512 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xi4 E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS0

end Cert.Kernel.Hand

end
-- ==== Proof.K.R0RunD.lean ====
import proofs.«180569_j56959856279853_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE D (`s = 3`). The accumulator is taken at the contents `xs0` the point before left, and the impacts buffer at the contents `x4` it then holds, which the body reads before storing the updated block. -/
noncomputable def kernelRun0_D (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) :
    Σ' (L3 : List (View.Piece (Elt F) S1x512x512 .bf16)) (L4 : List (View.Piece (Elt F) S4x512 .f32)), { LS0 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare x4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS0

end Cert.Kernel.Hand

end
-- ==== Proof.K.R0Outs.lean ====
import proofs.«180569_j56959856279853_2_alg».proof.Proof.K.R0RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the outputs' buffers and the accumulator -/

/-! ### Case A -/

/-- Case A's pieces for output 3 (the bf16 intermediate block) cover it. -/
theorem cover0_A_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S1x512x512.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1x512x512.size (by sl_kernel_rfl) y

/-- What case A leaves in output 3's staging buffer: its pieces read back over junk. -/
def out0_A_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S1x512x512 .bf16 :=
  VO0_3.read (Elt F) (VO0_3.writes (Elt F) VO0_3.junk (kernelRun0_A c i arg3 harg3 arg4 harg4 arg5 harg5 arg6 harg6 arg7 harg7 arg8 harg8 hc0 hc1 hc2 x0 x1 x2).1)

/-- Case A's pieces for output 4 (the impacts block) cover it. -/
theorem cover0_A_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S4x512.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S4x512.size (by sl_kernel_rfl) y

/-- What case A leaves in output 4's staging buffer: its pieces read back over junk. -/
def out0_A_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S4x512 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).2.1)

/-- Case A's pieces for the accumulator cover it. -/
theorem scover0_A_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S1x512.Idx) :
    ∃ pc ∈ (kernelRun0_A c i arg3 harg3 arg4 harg4 arg5 harg5 arg6 harg6 arg7 harg7 arg8 harg8 hc0 hc1 hc2 x0 x1 x2).2.2.1, y ∈ pc.1.set :=
  View.cover_of_tiledL (kernelRun0_A c i arg3 harg3 arg4 harg4 arg5 harg5 arg6 harg6 arg7 harg7 arg8 harg8 hc0 hc1 hc2 x0 x1 x2).2.2.1 S1x512.size (by sl_kernel_rfl) y

/-- What case A leaves in the accumulator: its pieces read back over junk. -/
def sout0_A_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S1x512 .f32 :=
  VS0.read (Elt F) (VS0.writes (Elt F) VS0.junk (kernelRun0_A c i arg3 harg3 arg4 harg4 arg5 harg5 arg6 harg6 arg7 harg7 arg8 harg8 hc0 hc1 hc2 x0 x1 x2).2.2.1)

/-! ### Case B -/

/-- Case B's pieces for output 3 (the bf16 intermediate block) cover it. -/
theorem cover0_B_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) (y : S1x512x512.Idx) :
    ∃ pc ∈ (kernelRun0_B c i arg3 harg3 arg4 harg4 arg5 harg5 arg6 harg6 arg7 harg7 arg8 harg8 hc0 hc1 hc2 x0 x1 x2).1, y ∈ pc.1.set :=
  View.cover_of_tiledL (kernelRun0_B c i arg3 harg3 arg4 harg4 arg5 harg5 arg6 harg6 arg7 harg7 arg8 harg8 hc0 hc1 hc2 x0 x1 x2).1 S1x512x512.size (by sl_kernel_rfl) y

/-- What case B leaves in output 3's staging buffer: its pieces read back over junk. -/
def out0_B_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) : Vec F S1x512x512 .bf16 :=
  VO0_3.read (Elt F) (VO0_3.writes (Elt F) VO0_3.junk (kernelRun0_B c i arg3 harg3 arg4 harg4 arg5 harg5 arg6 harg6 arg7 harg7 arg8 harg8 hc0 hc1 hc2 x0 x1 x2).1)

/-- Case B's pieces for the accumulator cover it. -/
theorem scover0_B_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) (y : S1x512.Idx) :
    ∃ pc ∈ (kernelRun0_B c i arg3 harg3 arg4 harg4 arg5 harg5 arg6 harg6 arg7 harg7 arg8 harg8 hc0 hc1 hc2 x0 x1 x2).2.1, y ∈ pc.1.set :=
  View.cover_of_tiledL (kernelRun0_B c i arg3 harg3 arg4 harg4 arg5 harg5 arg6 harg6 arg7 harg7 arg8 harg8 hc0 hc1 hc2 x0 x1 x2).2.1 S1x512.size (by sl_kernel_rfl) y

/-- What case B leaves in the accumulator: its pieces read back over junk. -/
def sout0_B_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) : Vec F S1x512 .f32 :=
  VS0.read (Elt F) (VS0.writes (Elt F) VS0.junk (kernelRun0_B c i arg3 harg3 arg4 harg4 arg5 harg5 arg6 harg6 arg7 harg7 arg8 harg8 hc0 hc1 hc2 x0 x1 x2).2.1)

/-! ### Case C -/

/-- Case C's pieces for output 3 (the bf16 intermediate block) cover it. -/
theorem cover0_C_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) (y : S1x512x512.Idx) :
    ∃ pc ∈ (kernelRun0_C c i arg3 harg3 arg4 harg4 arg5 harg5 arg6 harg6 arg7 harg7 arg8 harg8 hc0 hc1 hc2 x0 x1 x2 xs0).1, y ∈ pc.1.set :=
  View.cover_of_tiledL (kernelRun0_C c i arg3 harg3 arg4 harg4 arg5 harg5 arg6 harg6 arg7 harg7 arg8 harg8 hc0 hc1 hc2 x0 x1 x2 xs0).1 S1x512x512.size (by sl_kernel_rfl) y

/-- What case C leaves in output 3's staging buffer: its pieces read back over junk. -/
def out0_C_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) : Vec F S1x512x512 .bf16 :=
  VO0_3.read (Elt F) (VO0_3.writes (Elt F) VO0_3.junk (kernelRun0_C c i arg3 harg3 arg4 harg4 arg5 harg5 arg6 harg6 arg7 harg7 arg8 harg8 hc0 hc1 hc2 x0 x1 x2 xs0).1)

/-- Case C's pieces for the accumulator cover it. -/
theorem scover0_C_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) (y : S1x512.Idx) :
    ∃ pc ∈ (kernelRun0_C c i arg3 harg3 arg4 harg4 arg5 harg5 arg6 harg6 arg7 harg7 arg8 harg8 hc0 hc1 hc2 x0 x1 x2 xs0).2.1, y ∈ pc.1.set :=
  View.cover_of_tiledL (kernelRun0_C c i arg3 harg3 arg4 harg4 arg5 harg5 arg6 harg6 arg7 harg7 arg8 harg8 hc0 hc1 hc2 x0 x1 x2 xs0).2.1 S1x512.size (by sl_kernel_rfl) y

/-- What case C leaves in the accumulator: its pieces read back over junk. -/
def sout0_C_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) : Vec F S1x512 .f32 :=
  VS0.read (Elt F) (VS0.writes (Elt F) VS0.junk (kernelRun0_C c i arg3 harg3 arg4 harg4 arg5 harg5 arg6 harg6 arg7 harg7 arg8 harg8 hc0 hc1 hc2 x0 x1 x2 xs0).2.1)

/-! ### Case D -/

/-- Case D's pieces for output 3 (the bf16 intermediate block) cover it. -/
theorem cover0_D_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S1x512x512.Idx) :
    ∃ pc ∈ (kernelRun0_D c i arg3 harg3 arg4 harg4 arg5 harg5 arg6 harg6 arg7 harg7 arg8 harg8 hc0 hc1 hc2 x0 x1 x2 x4 xs0).1, y ∈ pc.1.set :=
  View.cover_of_tiledL (kernelRun0_D c i arg3 harg3 arg4 harg4 arg5 harg5 arg6 harg6 arg7 harg7 arg8 harg8 hc0 hc1 hc2 x0 x1 x2 x4 xs0).1 S1x512x512.size (by sl_kernel_rfl) y

/-- What case D leaves in output 3's staging buffer: its pieces read back over junk. -/
def out0_D_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S1x512x512 .bf16 :=
  VO0_3.read (Elt F) (VO0_3.writes (Elt F) VO0_3.junk (kernelRun0_D c i arg3 harg3 arg4 harg4 arg5 harg5 arg6 harg6 arg7 harg7 arg8 harg8 hc0 hc1 hc2 x0 x1 x2 x4 xs0).1)

/-- Case D's pieces for output 4 (the impacts block) cover it. -/
theorem cover0_D_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S4x512.Idx) :
    ∃ pc ∈ (kernelRun0_D c i arg3 harg3 arg4 harg4 arg5 harg5 arg6 harg6 arg7 harg7 arg8 harg8 hc0 hc1 hc2 x0 x1 x2 x4 xs0).2.1, y ∈ pc.1.set :=
  View.cover_of_tiledL (kernelRun0_D c i arg3 harg3 arg4 harg4 arg5 harg5 arg6 harg6 arg7 harg7 arg8 harg8 hc0 hc1 hc2 x0 x1 x2 x4 xs0).2.1 S4x512.size (by sl_kernel_rfl) y

/-- What case D leaves in output 4's staging buffer: its pieces read back over junk. -/
def out0_D_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S4x512 .f32 :=
  VO0_4.read (Elt F) (VO0_4.writes (Elt F) VO0_4.junk (kernelRun0_D c i arg3 harg3 arg4 harg4 arg5 harg5 arg6 harg6 arg7 harg7 arg8 harg8 hc0 hc1 hc2 x0 x1 x2 x4 xs0).2.1)

/-- Case D's pieces for the accumulator cover it. -/
theorem scover0_D_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S1x512.Idx) :
    ∃ pc ∈ (kernelRun0_D c i arg3 harg3 arg4 harg4 arg5 harg5 arg6 harg6 arg7 harg7 arg8 harg8 hc0 hc1 hc2 x0 x1 x2 x4 xs0).2.2.1, y ∈ pc.1.set :=
  View.cover_of_tiledL (kernelRun0_D c i arg3 harg3 arg4 harg4 arg5 harg5 arg6 harg6 arg7 harg7 arg8 harg8 hc0 hc1 hc2 x0 x1 x2 x4 xs0).2.2.1 S1x512.size (by sl_kernel_rfl) y

/-- What case D leaves in the accumulator: its pieces read back over junk. -/
def sout0_D_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S1x512 .f32 :=
  VS0.read (Elt F) (VS0.writes (Elt F) VS0.junk (kernelRun0_D c i arg3 harg3 arg4 harg4 arg5 harg5 arg6 harg6 arg7 harg7 arg8 harg8 hc0 hc1 hc2 x0 x1 x2 x4 xs0).2.2.1)

/-! ## The conditions at a point, from its residues -/

theorem r0_c1_of_c0 (t : Fin cfg0.N) (h0 : t.val % 16 = 0) : cond0_1 (grid0.coords t) := (hcond0_1 t).mpr (by omega)
theorem r0_nc2_of_c0 (t : Fin cfg0.N) (h0 : t.val % 16 = 0) : ¬cond0_2 (grid0.coords t) := fun h => by have := (hcond0_2 t).mp h; omega
theorem r0_nc0 (t : Fin cfg0.N) (h0 : ¬t.val % 16 = 0) : ¬cond0_0 (grid0.coords t) := fun h => h0 ((hcond0_0 t).mp h)
theorem r0_nc2_of_c1 (t : Fin cfg0.N) (h1 : t.val % 4 = 0) : ¬cond0_2 (grid0.coords t) := fun h => by have := (hcond0_2 t).mp h; omega
theorem r0_nc0_of_nc1 (t : Fin cfg0.N) (h1 : ¬t.val % 4 = 0) : ¬cond0_0 (grid0.coords t) := fun h => by have := (hcond0_0 t).mp h; omega
theorem r0_nc1 (t : Fin cfg0.N) (h1 : ¬t.val % 4 = 0) : ¬cond0_1 (grid0.coords t) := fun h => h1 ((hcond0_1 t).mp h)
theorem r0_nc2 (t : Fin cfg0.N) (h2 : ¬t.val % 4 = 3) : ¬cond0_2 (grid0.coords t) := fun h => h2 ((hcond0_2 t).mp h)
theorem r0_nc0_of_c2 (t : Fin cfg0.N) (h2 : t.val % 4 = 3) : ¬cond0_0 (grid0.coords t) := fun h => by have := (hcond0_0 t).mp h; omega
theorem r0_nc1_of_c2 (t : Fin cfg0.N) (h2 : t.val % 4 = 3) : ¬cond0_1 (grid0.coords t) := fun h => by have := (hcond0_1 t).mp h; omega

/-! ## What the outputs and the accumulator hold after each point -/

/-- The contents after a point: output 3's buffer, output 4's buffer, the accumulator. -/
abbrev Outs0 (F : FTy → Type) : Type := Vec F S1x512x512 .bf16 × Vec F S4x512 .f32 × Vec F S1x512 .f32

/-- After a point of case A: everything is stored afresh. -/
def ptA0 (c : Dev nD) (t : Fin cfg0.N) (h0 : t.val % 16 = 0) : Outs0 F :=
  (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t),
   out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t))
/-- After a point of case B: output 4's buffer as the point before left it (`w4`). -/
def ptB0 (c : Dev nD) (t : Fin cfg0.N) (h0 : ¬t.val % 16 = 0) (h1 : t.val % 4 = 0) (w4 : Vec F S4x512 .f32) : Outs0 F :=
  (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t),
   w4,
   sout0_B_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t))
/-- After a point of case C: output 4's buffer as the point before left it (`w4`), the accumulator from what it left (`xs`). -/
def ptC0 (c : Dev nD) (t : Fin cfg0.N) (h1 : ¬t.val % 4 = 0) (h2 : ¬t.val % 4 = 3) (w4 : Vec F S4x512 .f32) (xs : Vec F S1x512 .f32) : Outs0 F :=
  (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) xs,
   w4,
   sout0_C_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) xs)
/-- After a point of case D: output 4's buffer updated from what the point before left in it (`w4`) and in the accumulator (`xs`). -/
def ptD0 (c : Dev nD) (t : Fin cfg0.N) (h2 : t.val % 4 = 3) (w4 : Vec F S4x512 .f32) (xs : Vec F S1x512 .f32) : Outs0 F :=
  (out0_D_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs,
   out0_D_4 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs,
   sout0_D_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs)

/-- THE ACCUMULATION. What output 3's and output 4's staging buffers and the accumulator hold after the body at
    position `n`: the case the residues of `n` select, run at the point's memrefs and input blocks, over what position
    `n - 1` left in output 4's buffer and in the accumulator. Output 4's buffer is carried unchanged through the points
    that do not store into it (cases B and C): its block index does not move within one value of the grid's first
    coordinate, and it is written back only at the last of those sixteen points. -/
def outsAt0 (c : Dev nD) : (n : ℕ) → n < cfg0.N → Outs0 F
  | 0, hn => ptA0 V c ⟨0, hn⟩ (Nat.zero_mod _)
  | n + 1, hn =>
    if h0 : (n + 1) % 16 = 0 then ptA0 V c ⟨n + 1, hn⟩ h0
    else if h1 : (n + 1) % 4 = 0 then ptB0 V c ⟨n + 1, hn⟩ h0 h1 (outsAt0 c n (Nat.lt_of_succ_lt hn)).2.1
    else if h2 : (n + 1) % 4 = 3 then ptD0 V c ⟨n + 1, hn⟩ h2 (outsAt0 c n (Nat.lt_of_succ_lt hn)).2.1 (outsAt0 c n (Nat.lt_of_succ_lt hn)).2.2
    else ptC0 V c ⟨n + 1, hn⟩ h1 h2 (outsAt0 c n (Nat.lt_of_succ_lt hn)).2.1 (outsAt0 c n (Nat.lt_of_succ_lt hn)).2.2

/-- `outsAt0` at a point of case A. -/
theorem outsAt0_A (c : Dev nD) (t : Fin cfg0.N) (h0 : t.val % 16 = 0) :
    outsAt0 V c t.val t.isLt = ptA0 V c t h0 := by
  obtain ⟨n, hn⟩ := t
  cases n with
  | zero => rfl
  | succ n => exact (dif_pos h0).trans rfl

/-- `outsAt0` at a point of case B, over what the point before left. -/
theorem outsAt0_B (c : Dev nD) (t : Fin cfg0.N) (h0 : ¬t.val % 16 = 0) (h1 : t.val % 4 = 0) :
    outsAt0 V c t.val t.isLt = ptB0 V c t h0 h1 (outsAt0 V c (t.val - 1) (Nat.lt_of_le_of_lt (Nat.sub_le _ _) t.isLt)).2.1 := by
  obtain ⟨n, hn⟩ := t
  cases n with
  | zero => exact absurd (Nat.zero_mod _) h0
  | succ n => exact (dif_neg h0).trans ((dif_pos h1).trans rfl)

/-- `outsAt0` at a point of case C, over what the point before left. -/
theorem outsAt0_C (c : Dev nD) (t : Fin cfg0.N) (h1 : ¬t.val % 4 = 0) (h2 : ¬t.val % 4 = 3) :
    outsAt0 V c t.val t.isLt = ptC0 V c t h1 h2 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h1
  | succ n =>
    have h0 : ¬(n + 1) % 16 = 0 := fun h => h1 (by have h1' : ¬(n + 1) % 4 = 0 := h1; omega)
    exact (dif_neg h0).trans ((dif_neg h1).trans ((dif_neg h2).trans rfl))

/-- `outsAt0` at a point of case D, over what the point before left. -/
theorem outsAt0_D (c : Dev nD) (t : Fin cfg0.N) (h2 : t.val % 4 = 3) :
    outsAt0 V c t.val t.isLt = ptD0 V c t h2 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (show 0 % 4 = 3 from h2) (by decide)
  | succ n =>
    have h2' : (n + 1) % 4 = 3 := h2
    have h0 : ¬(n + 1) % 16 = 0 := by omega
    have h1 : ¬(n + 1) % 4 = 0 := by omega
    exact (dif_neg h0).trans ((dif_neg h1).trans ((dif_pos h2).trans rfl))

/-! ## The region's invariant, point by point -/

/-- Before the first point the launch's invariant (every scoped buffer at anything); afterwards the accumulator at what
    the point before left in it (`outsAt0`'s third component), the other scoped buffers at anything, and the generator
    register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ PhiRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ PhiRest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ PhiRest0 c) ∗ (∃ r, prngReg c r)) := by
  cases n with
  | zero => exact absurd rfl hz
  | succ n => rfl

/-! ## The pipeline's proof data -/

/-- The proof data of region 0 on core `c`: the arrays as the region finds them (`V`); after the body at point `t` each
    input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## What the body finds in output 4's buffer across the points that leave it alone -/

theorem outsAt0_congr (c : Dev nD) {n n' : ℕ} (h : n = n') (hn : n < cfg0.N) (hn' : n' < cfg0.N) :
    outsAt0 V c n hn = outsAt0 V c n' hn' := by subst h; rfl

/-- At a point `t` that is not the first of its sixteen, output 4's buffer was not written back at the point `t'`
    before it, so it holds what the body left there. -/
theorem before0_4_step (c : Dev nD) (t t' : Fin cfg0.N) (h : t.val = t'.val + 1) (ht : ¬t.val % 16 = 0) (d) :
    (dat0 V c).before 4 t d = (dat0 V c).left 4 t' d := by
  obtain rfl : t' = ⟨t.val - 1, Nat.lt_of_le_of_lt (Nat.sub_le _ _) t.isLt⟩ := Fin.ext (by show t'.val = t.val - 1; omega)
  have ht0 : t.val ≠ 0 := fun h0 => ht (by rw [h0])
  have hfl : (cfg0.win 4).flush ⟨t.val - 1, Nat.lt_of_le_of_lt (Nat.sub_le _ _) t.isLt⟩ = false := Bool.eq_false_iff.mpr fun hf => by
    have h' : (t.val - 1) % 16 = 15 := (flush0_4 _).mp hf
    omega
  rw [(dat0 V c).before_of_pos 4 t ht0 ((cfg0.win 4).fetch_out rfl t) d, hfl, if_neg Bool.false_ne_true]

/-- What the body leaves in output 4's buffer at a point that stores into it, as the next point finds it. -/
theorem kept0_4 (c : Dev nD) (t : Fin cfg0.N) (d) : (dat0 V c).kept 4 t d = (outsAt0 V c t.val t.isLt).2.1 := by
  unfold Dat.kept
  rw [Pipeline.fill_of_clip_none 4 _ (fun _ => rfl) d ((dat0 V c).after 4 t), Window.fill_cut, after0_4]

/-- The point after `t'`, if it is not the first of its sixteen, finds in output 4's buffer `outsAt0`'s component at `t'`:
    what case A or D stored at `t'`, or — `t'` a point of case B or C, which leave the buffer alone — what `t'` itself
    found, by induction. -/
theorem before0_4_of (c : Dev nD) : ∀ (n : ℕ) (t' : Fin cfg0.N), t'.val = n → ∀ t : Fin cfg0.N, t.val = t'.val + 1 → ¬t.val % 16 = 0 →
    ∀ d, (dat0 V c).before 4 t d = (outsAt0 V c t'.val t'.isLt).2.1 := by
  intro n
  induction n using Nat.strong_induction_on with
  | _ n ih =>
    intro t' hn t h ht d
    rw [before0_4_step V c t t' h ht d]; unfold Dat.left
    by_cases h0 : t'.val % 16 = 0
    · rw [liveAt0_4_A t' ((hcond0_0 t').mpr h0)]
      exact kept0_4 V c t' d
    · by_cases h2 : t'.val % 4 = 3
      · rw [liveAt0_4_D t' ((hcond0_2 t').mpr h2)]
        exact kept0_4 V c t' d
      · rw [idleAt0_4 t' (r0_nc0 t' h0) (r0_nc2 t' h2)]
        show (dat0 V c).before 4 t' d = _
        have hpos : t'.val ≠ 0 := fun hz => h0 (by rw [hz])
        have hlt : t'.val - 1 < cfg0.N := Nat.lt_of_le_of_lt (Nat.sub_le _ _) t'.isLt
        rw [ih (t'.val - 1) (by omega) ⟨t'.val - 1, hlt⟩ rfl t' (by show t'.val = t'.val - 1 + 1; omega) h0 d]
        by_cases h1 : t'.val % 4 = 0
        · rw [outsAt0_B V c t' h0 h1]; rfl
        · rw [outsAt0_C V c t' h1 h2]; rfl

/-- At a point that is not the first of its sixteen, output 4's current staging buffer holds `outsAt0`'s component at
    the point before: the buffer is written back only at the sixteenth point, and the points that do not store into it
    hand it on unchanged. -/
theorem before0_4 (c : Dev nD) (t : Fin cfg0.N) (ht : ¬t.val % 16 = 0) (d) :
    (dat0 V c).before 4 t d = (outsAt0 V c (t.val - 1) (Nat.lt_of_le_of_lt (Nat.sub_le _ _) t.isLt)).2.1 :=
  before0_4_of V c (t.val - 1) ⟨t.val - 1, Nat.lt_of_le_of_lt (Nat.sub_le _ _) t.isLt⟩ rfl t
    (by show t.val = t.val - 1 + 1; have : t.val ≠ 0 := fun h0 => ht (by rw [h0]); omega) ht d

end Cert.Kernel.Hand

end
-- ==== Proof.K.R0Dat.lean ====
import proofs.«180569_j56959856279853_2_alg».proof.Proof.K.R0Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body obligation of region 0, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- Windows 0–3 are live everywhere: the body leaves each at its stated contents. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare ((outsAt0 V c t.val t.isLt).1) := by
  rw [show (dat0 V c).leavesExact 3 t = owns (c : Thread nD τ) (ms0_3 t) fullShare ((dat0 V c).after 3 t) from by
    unfold Dat.leavesExact; rw [liveAt0_3 t], after0_3]
/-- Window 4 where it is live (cases A and D). -/
theorem leaves0_4_live (c : Dev nD) (t : Fin cfg0.N) (hl : cfg0.idle 4 (grid0.coords t) = false) :
    (dat0 V c).leavesExact 4 t = owns (c : Thread nD τ) (ms0_4 t) fullShare ((outsAt0 V c t.val t.isLt).2.1) := by
  rw [show (dat0 V c).leavesExact 4 t = owns (c : Thread nD τ) (ms0_4 t) fullShare ((dat0 V c).after 4 t) from by
    unfold Dat.leavesExact; rw [hl], after0_4]

set_option maxHeartbeats 2400000 in
/-- The body at a point of case A: every output and the accumulator are stored afresh, so the invariant hands the
    accumulator over at anything. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [leaves0_4_live V c t (liveAt0_4_A t ((hcond0_0 t).mpr h0))]
  rw [outsAt0_A V c t h0]
  unfold ptA0 out0_A_3 out0_A_4 sout0_A_0; (try dsimp only)
  by_cases hz : t.val = 0
  · rw [PhiS0_castSucc V c t, PhiS0_zero V c _ _ hz, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (r0_c1_of_c0 t h0) (r0_nc2_of_c0 t h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (r0_c1_of_c0 t h0) (r0_nc2_of_c0 t h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexists _; iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)

set_option maxHeartbeats 2400000 in
/-- The body at a point of case B: the accumulator is reset; output 4's buffer is handed back as found. -/
theorem sound_body0_B (c : Dev nD) (t : Fin cfg0.N) (h0 : ¬t.val % 16 = 0) (h1 : t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [Dat.leavesExact_idle (dat0 V c) 4 t (idleAt0_4 t (r0_nc0 t h0) (r0_nc2_of_c1 t h1)) (noFlush0_4 t (r0_nc2_of_c1 t h1))]
  rw [outsAt0_B V c t h0 h1]
  unfold ptB0 out0_B_3 sout0_B_0; (try dsimp only)
  have hz : t.val ≠ 0 := fun hz => h0 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (r0_nc0 t h0) ((hcond0_1 t).mpr h1) (r0_nc2_of_c1 t h1) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexists _; iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    iexists _; iexact H4

set_option maxHeartbeats 2400000 in
/-- The body at a point of case C: the accumulator continues from what the point before left; output 4's buffer is
    handed back as found. -/
theorem sound_body0_C (c : Dev nD) (t : Fin cfg0.N) (h1 : ¬t.val % 4 = 0) (h2 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [Dat.leavesExact_idle (dat0 V c) 4 t (idleAt0_4 t (r0_nc0_of_nc1 t h1) (r0_nc2 t h2)) (noFlush0_4 t (r0_nc2 t h2))]
  rw [outsAt0_C V c t h1 h2]
  unfold ptC0 out0_C_3 sout0_C_0; (try dsimp only)
  have hz : t.val ≠ 0 := fun hz => h1 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (r0_nc0_of_nc1 t h1) (r0_nc1 t h1) (r0_nc2 t h2) (iblk0 V c 0 t) (iblk0 V c 1 t) (iblk0 V c 2 t) _).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _)
    iexists _; iexact H4

set_option maxHeartbeats 2400000 in
/-- The body at a point of case D: the accumulator continues from what the point before left, and output 4's buffer
    holds what the last storing point left in it (`before0_4`), which the body reads and updates. -/
theorem sound_body0_D (c : Dev nD) (t : Fin cfg0.N) (h2 : t.val % 4 = 3) :
    bodyPre0 V c t ⊢ wp frame (wpE (defs₀ (F := F)) Variants.none c none) Set.univ (bodyAt0 t) (fun _ => bodyPost0 V c t) := by
  have h16 : ¬t.val % 16 = 0 := by omega
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  simp only [before0_4 V c t h16]
  rw [leaves0_4_live V c t (liveAt0_4_D t ((hcond0_2 t).mpr h2))]
  rw [outsAt0_D V c t h2]
  unfold ptD0 out0_D_3 out0_D_4 sout0_D_0; (try dsimp only)
  have hz : t.val ≠ 0 := fun hz => h16 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_D c (grid0.coords t) _ _ _ _ _ _ _ _ _ _ _ _ (r0_nc0_of_c2 t h2) (r0_nc1_of_c2 t h2) ((hcond0_2 t).mpr h2) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_D_0 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_D_3 c _ _ _ _ _ _ _ _ _ _ _ _ _ _ _ _ _ _ _ _ _)
    unfold owns; iexists _; isplitr
    swap; · iexact H4
    ipureintro; exact View.read_writes_of_cover _ _ _ _ _ (cover0_D_4 c _ _ _ _ _ _ _ _ _ _ _ _ _ _ _ _ _ _ _ _ _)

/-- The body at any point: the residues of the point select the case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 4 = 0
    · exact sound_body0_B V c t h0 h1
    · by_cases h2 : t.val % 4 = 3
      · exact sound_body0_D V c t h2
      · exact sound_body0_C V c t h1 h2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 176 := N_0; omega)

/-- The shares are full and nothing is owed. -/
example (c : Dev nD) := (dat0 V c).share_full fun _ => rfl
example (c : Dev nD) : ∀ t, (dat0 V c).owed t = 0 := fun _ => rfl

end Cert.Kernel.Hand

end
-- ==== Proof.K.R1Runs.lean ====
/- The second pallas_call (the down projection) as a pipeline: what its per-case runs share. The
   blocks of its windows read off the arrays the region finds, the two conditions of its body in
   closed form over the 176 grid points, where its output window is idle, the staging and scratch
   memrefs, and the region invariant with the accumulator scratch singled out. -/
import proofs.«180569_j56959856279853_2_alg».proof.Proof.Gen.Kernel.Launch
import proofs.«180569_j56959856279853_2_alg».proof.Proof.Gen.Kernel.Skeleton
import proofs.«180569_j56959856279853_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the bf16 intermediate) holds its block at every point, fetched there or not, for any
    proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the down-projection weights) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's branch conditions -/

/-- The condition under which the body zeroes the accumulator: the reduction coordinate is 0
    (the scalar chain of the body's first conditional, over the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)

/-- The condition under which the body stores the accumulator into the output block: the reduction
    coordinate is 10, the last. -/
abbrev cond1_1 (i : grid1.Coords) : Prop := k1_cond2 i = 1#1
/-- It holds at the points ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is zeroed and not stored out, the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Likewise at the interior points of the reduction. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the reduction's last point the output window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (the choice does not matter). -/
abbrev VO1_2 : View sig .tc .vmem S512x2048 .f32 := (Memref.whole cc1_stg2_0 : Memref sig .tc .vmem S512x2048 .f32).view
/-- Each window's current staging memref at point `t`, as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S512x2048 .f32 := Memref.whole cc1_scratch0
/-- The accumulator as a view: what it holds between points is stated through it. -/
abbrev VS1 : View sig .tc .vmem S512x2048 .f32 := scM1.view

/-! ## The region invariant -/

/-- The core's scoped buffers that are neither a staging buffer of this call nor its accumulator — the other
    call's staging buffers and its scratch —, each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant with the accumulator as a memref owned at some contents, the buffers the body never
    touches gathered, and the generator register at some state. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_eq]; simp only [scM1, owns_whole]; unfold others1
  apply Entails.antisymm
  · show (_ : sProp 𝕄) ⊢ _
    iintro ⟨⟨H1, H2, H3, H4, H5, H6, H7, H8, H9, H10, H11, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact Hg
  · show (_ : sProp 𝕄) ⊢ _
    iintro ⟨⟨HS, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg

end Cert.Kernel.Hand

end
-- ==== Proof.K.R1RunA.lean ====
/- The down-projection body at a point where the reduction coordinate is 0: the accumulator is zeroed,
   then the product of the two input blocks is added to it; the output block is not touched. -/
import proofs.«180569_j56959856279853_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is zeroed and not stored out
    (the reduction's first point), with the proof that on whole memrefs — the two inputs at their contents `x0`,
    `x1`, the output's buffer at contents `xi2` handed back untouched, the accumulator at anything — the body runs
    to the continuation holding the inputs as they were, the output's buffer as it was, and the accumulator with
    its pieces written. The pieces are the witness the run finds. -/
noncomputable def kernelRun1_A (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunB.lean ====
/- The down-projection body at an interior point of the reduction: the product of the two input blocks is
   added to the accumulator as the point before left it; the output block is not touched. -/
import proofs.«180569_j56959856279853_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is neither zeroed nor stored out
    (the reduction's interior points), with the proof that on whole memrefs — the two inputs at their contents
    `x0`, `x1`, the output's buffer at contents `xi2` handed back untouched, the accumulator at what the point before
    left, `xs0` — the body runs to the continuation holding the inputs as they were, the output's buffer as it was,
    and the accumulator with its pieces written. The pieces are the witness the run finds. -/
noncomputable def kernelRun1_B (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunC.lean ====
/- The down-projection body at the reduction's last point: the product of the two input blocks is added to
   the accumulator as the point before left it, and the sum is stored whole into the output block. -/
import proofs.«180569_j56959856279853_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is not zeroed and is stored out
    (the reduction's last point), with the proof that on whole memrefs — the two inputs at their contents `x0`,
    `x1`, the output's buffer at anything, the accumulator at what the point before left, `xs0` — the body runs to
    the continuation holding the inputs as they were, and the output's buffer and the accumulator each with its
    pieces written. The pieces are the witness the run finds. -/
noncomputable def kernelRun1_C (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) :
    Σ' (L2 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R1Dat.lean ====
/- The second pallas_call (the down projection) as a pipeline: what its output block and its accumulator
   hold after each of the 176 grid points, the proof data at any entry contents, and the body obligation. -/
import proofs.«180569_j56959856279853_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output block (the window is idle there and not written back): no pieces — a placeholder nothing consults. -/
def out1_A_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) : Vec F S512x2048 .f32 :=
  VO1_2.read (Elt F) (VO1_2.writes (Elt F) VO1_2.junk (kernelRun1_A c i arg2 harg2 arg3 harg3 arg4 harg4 arg5 harg5 hc0 hc1 x0 x1).1)

/-- Case A's pieces for the accumulator tile it, so they cover it. -/
theorem scover1_A_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) (y : S512x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S512x2048.size (by sl_kernel_rfl) y

/-- What case A leaves in the accumulator: its pieces read back. -/
def sout1_A_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) : Vec F S512x2048 .f32 :=
  VS1.read (Elt F) (VS1.writes (Elt F) VS1.junk (kernelRun1_A c i arg2 harg2 arg3 harg3 arg4 harg4 arg5 harg5 hc0 hc1 x0 x1).2.1)

/-- Case B stores nothing into the output block (the window is idle there and not written back): no pieces — a placeholder nothing consults. -/
def out1_B_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) : Vec F S512x2048 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator tile it, so they cover it. -/
theorem scover1_B_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) (y : S512x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S512x2048.size (by sl_kernel_rfl) y

/-- What case B leaves in the accumulator: its pieces read back. -/
def sout1_B_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) : Vec F S512x2048 .f32 :=
  VS1.read (Elt F) (VS1.writes (Elt F) VS1.junk (kernelRun1_B c i arg2 harg2 arg3 harg3 arg4 harg4 arg5 harg5 hc0 hc1 x0 x1 xs0).2.1)

/-- Case C's pieces for the output block tile it (one whole store), so they cover it. -/
theorem cover1_C_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) (y : S512x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x2048.size (by sl_kernel_rfl) y

/-- What case C leaves in the output's staging buffer: its pieces read back. -/
def out1_C_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) : Vec F S512x2048 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator tile it, so they cover it. -/
theorem scover1_C_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) (y : S512x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x2048.size (by sl_kernel_rfl) y

/-- What case C leaves in the accumulator: its pieces read back. -/
def sout1_C_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) : Vec F S512x2048 .f32 :=
  VS1.read (Elt F) (VS1.writes (Elt F) VS1.junk (kernelRun1_C c i arg2 harg2 arg3 harg3 arg4 harg4 arg5 harg5 hc0 hc1 x0 x1 xs0).2.1)

section Entry
-- the TensorCore's buffer contents when the region is entered
variable (V : (c : Dev nD) → (b : Ref sig .tc) → Buf (Elt F) ((c : Thread nD τ).loc b))

/-! ## What the output block and the accumulator hold after each point -/

/-- THE ACCUMULATION. What the output's staging buffer and the accumulator hold after the body at position `n`
    (a pair: the output, then the accumulator): the case the closed forms select at `n`, run at the point's memrefs
    and input blocks, the accumulator read at what this leaves at `n - 1`. Zeroing and storing out together meet no
    point. -/
def outsAt1 (c : Dev nD) : (n : ℕ) → n < cfg1.N → Vec F S512x2048 .f32 × Vec F S512x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 11 = 0 then
      if h1 : (n + 1) % 11 = 10 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 11 = 10 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 11 = 0) (h1 : ¬t.val % 11 = 10) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 11 = 0) (h1 : ¬t.val % 11 = 10) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 11 = 0) (h1 : t.val % 11 = 10) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the region's own (every scoped buffer that is no
    staging buffer of this call at anything, the generator register at some state); afterwards the accumulator at what
    the point before left in it, the buffers the body never touches at anything, the register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Entry

section Body
-- the TensorCore's buffer contents when the region is entered
variable (V : (c : Dev nD) → (b : Ref sig .tc) → Buf (Elt F) ((c : Thread nD τ).loc b))

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; where the output block is not stored it is handed back as found; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  by_cases h0 : t.val % 11 = 0
  · by_cases h1 : t.val % 11 = 10
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HO⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HO
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HO
          iexact Hg
        isplitl [Ho]; · iexact Ho
        isplitl [H0]; · iexact H0
        isplitl [H1]; · iexact H1
        iexists _; iexact H2
  · by_cases h1 : t.val % 11 = 10
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; rw [hz] at h0; exact h0 (Nat.zero_mod _)
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_C_0 c _ _ _ _ _ _ _ _ _ _ _ _ _ _)
            iexact HO
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; rw [hz] at h0; exact h0 (Nat.zero_mod _)
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_B_0 c _ _ _ _ _ _ _ _ _ _ _ _ _ _)
            iexact HO
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HO⟩, Hg⟩
  isplitr [Hg]
  · isplitl [HS0]
    · iexists _; iexact HS0
    iexact HO
  iexact Hg

/-- The same after the last point. -/
theorem hout1 (c : Dev nD) : (dat1 V c).Φ (Fin.last cfg1.N) ⊢ Pipeline.ΦA spec1 c :=
  Phi_out1 V c _ (by rw [Fin.val_last]; have : cfg1.N = 176 := N_1; omega)

/-- The two side facts the launch asks of the proof data: full shares, nothing owed. -/
example (c : Dev nD) : ∀ w, (dat1 V c).share w = fullShare := (dat1 V c).share_full fun _ => rfl
example (c : Dev nD) : ∀ t, (dat1 V c).owed t = 0 := fun _ => rfl

end Body

end Cert.Kernel.Hand

end
-- ==== Proof.K.Regions.lean ====
/-
  The whole program as a chain of segments: seven stretches of host operations (the three zero extensions of the weights
  and the transposition), the gate/up region, one stretch (the slice of the impacts and the flattening of the
  intermediate), the down-projection region, and the final reshape. Between two segments a core holds every unscoped
  buffer at a valuation `WJ`: the launch memory, then each stretch's operations applied, then — after a region — the
  arrays of its windows at what the write-backs of the proof data leave and every other buffer as it was.
  The run ends with every unscoped buffer at `W11`, from which both the unchanged arguments and the two results are read.
-/
import proofs.«180569_j56959856279853_2_alg».proof.Proof.K.R0Dat
import proofs.«180569_j56959856279853_2_alg».proof.Proof.K.R1Dat
import Idealize.ShloMosaic.Lib.Pipeline.RegionsLoop
import Idealize.ShloMosaic.Lib.Pipeline.FrameSuffix
import proofs.«180569_j56959856279853_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
/-- After the seven stretches before the first region: what the gate/up region is entered from. -/
abbrev W7 : Dev nD → Valuation τ sig (Elt F) := fun c => StableHlo.after hostOps0_6 (W6 m ρ c)
/-- The same read at the TensorCore's references. -/
abbrev V7 : (c : Dev nD) → (b : Ref sig .tc) → Buf (Elt F) ((c : Thread nD τ).loc b) := fun c b => W7 m ρ c b
/-- At the gate/up region's exit: its windows' arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After the slice and the flattening: what the down-projection region is entered from. -/
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
/-- At the down-projection region's exit. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- After the final reshape: the contents the run ends with. -/
abbrev W11 : Dev nD → Valuation τ sig (Elt F) := fun c => StableHlo.after hostOps2 (W10 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W7`, left with them at `W8`. Its
    windows' arrays are split out of the unscoped buffers and put back at what the write-backs leave; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : iprop((∃ r, prngReg c r) ∗ Pipeline.prefHeld (pcfgs (F := F) 0).pre c (fun _ => fullShare) (adm (F := F) 0).1 ∗ Pipeline.scopedRest (pcfgs (F := F) 0).spec c)
        ⊢ (Pipeline.ΦA spec0 c : sProp 𝕄) := by
      unfold Pipeline.ΦA
      iintro ⟨Hp, -, Hr⟩
      isplitl [Hr]; · iexact Hr
      iexact Hp
    exact hΦ.trans (hin0 (V7 m ρ) c)
  hout c := by
    rw [Pipeline.ownSems0_none]
    have hΦ : (Pipeline.ΦA spec0 c : sProp 𝕄)
        ⊢ iprop((∃ r, prngReg c r) ∗ emp ∗ Pipeline.scopedRest (pcfgs (F := F) 0).spec c) := by
      unfold Pipeline.ΦA
      iintro ⟨Hr, Hp⟩
      isplitl [Hp]; · iexact Hp
      isplitr; · iempintro
      iexact Hr
    exact (hout0 (V7 m ρ) c).trans hΦ
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W9`, left with them at `W10`. Its
    windows' arrays are split out of the unscoped buffers and put back at what the write-backs leave; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : iprop((∃ r, prngReg c r) ∗ Pipeline.prefHeld (pcfgs (F := F) 1).pre c (fun _ => fullShare) (adm (F := F) 1).1 ∗ Pipeline.scopedRest (pcfgs (F := F) 1).spec c)
        ⊢ (Pipeline.ΦA spec1 c : sProp 𝕄) := by
      unfold Pipeline.ΦA
      iintro ⟨Hp, -, Hr⟩
      isplitl [Hr]; · iexact Hr
      iexact Hp
    exact hΦ.trans (hin1 (V9 m ρ) c)
  hout c := by
    rw [Pipeline.ownSems0_none]
    have hΦ : (Pipeline.ΦA spec1 c : sProp 𝕄)
        ⊢ iprop((∃ r, prngReg c r) ∗ emp ∗ Pipeline.scopedRest (pcfgs (F := F) 1).spec c) := by
      unfold Pipeline.ΦA
      iintro ⟨Hr, Hp⟩
      isplitl [Hp]; · iexact Hp
      isplitr; · iempintro
      iexact Hr
    exact (hout1 (V9 m ρ) c).trans hΦ
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ),
    .host (hseg hostOps2 hostOps2_sub hostOps2_fresh (W10 m ρ)) ]

/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand

end
-- ==== Proof.K.Frame.lean ====
/-
  What the final contents `W11` hold at the buffers the claims speak of: each argument array is the launch memory's
  (no stretch of host operations writes an argument and no region changes one), and the frame follows.
-/
import proofs.«180569_j56959856279853_2_alg».proof.Proof.K.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no stretch writes it and no region changes it. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps2 _ hostOps2_writes (by decide)
    _ = W9 m ρ c (Proc.devRef .tc main_arg0) := W10_of_ne m ρ c main_arg0 (by decide)
    _ = W8 m ρ c (Proc.devRef .tc main_arg0) := StableHlo.after_of_writes_sub hostOps1 _ hostOps1_writes (by decide)
    _ = W7 m ρ c (Proc.devRef .tc main_arg0) := (W8_arr m ρ c 0).trans (((dat0 (V7 m ρ) c).arrAt_in 0 rfl _).trans (A_eq0 (V7 m ρ) c 0))
    _ = W6 m ρ c (Proc.devRef .tc main_arg0) := StableHlo.after_of_writes_sub hostOps0_6 _ hostOps0_6_writes (by decide)
    _ = W5 m ρ c (Proc.devRef .tc main_arg0) := StableHlo.after_of_writes_sub hostOps0_5 _ hostOps0_5_writes (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- `main_arg1` ends as launched: no stretch writes it and no region changes it. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps2 _ hostOps2_writes (by decide)
    _ = W9 m ρ c (Proc.devRef .tc main_arg1) := W10_of_ne m ρ c main_arg1 (by decide)
    _ = W8 m ρ c (Proc.devRef .tc main_arg1) := StableHlo.after_of_writes_sub hostOps1 _ hostOps1_writes (by decide)
    _ = W7 m ρ c (Proc.devRef .tc main_arg1) := W8_of_ne m ρ c main_arg1 (by decide)
    _ = W6 m ρ c (Proc.devRef .tc main_arg1) := StableHlo.after_of_writes_sub hostOps0_6 _ hostOps0_6_writes (by decide)
    _ = W5 m ρ c (Proc.devRef .tc main_arg1) := StableHlo.after_of_writes_sub hostOps0_5 _ hostOps0_5_writes (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- `main_arg2` ends as launched: no stretch writes it and no region changes it. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps2 _ hostOps2_writes (by decide)
    _ = W9 m ρ c (Proc.devRef .tc main_arg2) := W10_of_ne m ρ c main_arg2 (by decide)
    _ = W8 m ρ c (Proc.devRef .tc main_arg2) := StableHlo.after_of_writes_sub hostOps1 _ hostOps1_writes (by decide)
    _ = W7 m ρ c (Proc.devRef .tc main_arg2) := W8_of_ne m ρ c main_arg2 (by decide)
    _ = W6 m ρ c (Proc.devRef .tc main_arg2) := StableHlo.after_of_writes_sub hostOps0_6 _ hostOps0_6_writes (by decide)
    _ = W5 m ρ c (Proc.devRef .tc main_arg2) := StableHlo.after_of_writes_sub hostOps0_5 _ hostOps0_5_writes (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- `main_arg3` ends as launched: no stretch writes it and no region changes it. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps2 _ hostOps2_writes (by decide)
    _ = W9 m ρ c (Proc.devRef .tc main_arg3) := W10_of_ne m ρ c main_arg3 (by decide)
    _ = W8 m ρ c (Proc.devRef .tc main_arg3) := StableHlo.after_of_writes_sub hostOps1 _ hostOps1_writes (by decide)
    _ = W7 m ρ c (Proc.devRef .tc main_arg3) := W8_of_ne m ρ c main_arg3 (by decide)
    _ = W6 m ρ c (Proc.devRef .tc main_arg3) := StableHlo.after_of_writes_sub hostOps0_6 _ hostOps0_6_writes (by decide)
    _ = W5 m ρ c (Proc.devRef .tc main_arg3) := StableHlo.after_of_writes_sub hostOps0_5 _ hostOps0_5_writes (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- The frame: every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.Kernel.Hand

end
-- ==== Proof.KI.R0Runs.lean ====
import proofs.«180569_j56959856279853_2_alg».proof.Proof.Gen.KernelIdeal.Launch
import proofs.«180569_j56959856279853_2_alg».proof.Proof.Gen.KernelIdeal.Skeleton
import proofs.«180569_j56959856279853_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 (the gate/up kernel): the body's branch conditions

Point `t` of the grid `[11, 4, 4]` has coordinates `(i, b, s)` with `t = 16 i + 4 b + s`. -/

/-- The first conditional (`b = 0 ∧ s = 0`: the impacts block is zeroed). -/
abbrev cond0_0 (i : grid0.Coords) : Prop := k0_cond1 i = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (`s = 0`: the accumulator is zeroed), from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 4). -/
theorem hcond0_1 : ∀ t : Fin cfg0.N, cond0_1 (grid0.coords t) ↔ t.val % 4 = 0 :=
  (by decide +kernel : ∀ t : Fin grid0.N, cond0_1 (grid0.coords t) ↔ t.val % 4 = 0)

/-- The third conditional (`s = 3`: row `b` of the impacts block is written). -/
abbrev cond0_2 (i : grid0.Coords) : Prop := k0_cond3 i = 1#1
/-- It holds at the points ≡ 3 (mod 4). -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

/-- Windows 0–3 are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Window 4 is live where the first conditional holds (its block is zeroed there), -/
theorem liveAt0_4_A : ∀ t : Fin cfg0.N, cond0_0 (grid0.coords t) → cfg0.idle 4 (grid0.coords t) = false := by decide +kernel
/-- and where the third holds (a row is written); -/
theorem liveAt0_4_D : ∀ t : Fin cfg0.N, cond0_2 (grid0.coords t) → cfg0.idle 4 (grid0.coords t) = false := by decide +kernel
/-- elsewhere it is idle, -/
theorem idleAt0_4 : ∀ t : Fin cfg0.N, ¬cond0_0 (grid0.coords t) → ¬cond0_2 (grid0.coords t) → cfg0.idle 4 (grid0.coords t) = true := by decide +kernel
/-- and not written back. -/
theorem noFlush0_4 : ∀ t : Fin cfg0.N, ¬cond0_2 (grid0.coords t) → (cfg0.win 4).flush t = false := by decide +kernel

/-! ## The staging and scratch memrefs -/

/-- One staging buffer of each output window, through which its contents are stated. -/
abbrev VO0_3 : View sig .tc .vmem S1x512x512 .bf16 := (Memref.whole cc0_stg3_0 : Memref sig .tc .vmem S1x512x512 .bf16).view
abbrev VO0_4 : View sig .tc .vmem S4x512 .f32 := (Memref.whole cc0_stg4_0 : Memref sig .tc .vmem S4x512 .f32).view
/-- Each window's current staging memref at point `t`, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0 : Memref sig .tc .vmem S1x512 .f32 := Memref.whole cc0_scratch0
/-- The same as a view: what it holds is stated through it. -/
abbrev VS0 : View sig .tc .vmem S1x512 .f32 := scM0.view

/-- The core's scoped buffers that are neither a staging buffer of this region nor its accumulator (the other
    region's staging buffers and accumulator), each whole at some contents. -/
def PhiRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA0_eq (c : Dev nD) :
    (Pipeline.ΦA spec0 c : sProp 𝕄)
      = iprop(iprop((∃ d, owns (c : Thread nD τ) scM0 fullShare d) ∗ PhiRest0 c) ∗ (∃ r, prngReg c r)) := by
  unfold Pipeline.ΦA PhiRest0; rw [scopedRest0_eq]; simp only [scM0, owns_whole]; try rfl

end Cert.KernelIdeal.Hand

end
-- ==== Proof.KI.R0RunA.lean ====
import proofs.«180569_j56959856279853_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (all of `b = 0 ∧ s = 0`, `s = 0`, not `s = 3`: the points ≡ 0 mod 16). On whole memrefs — the inputs' at
    their contents, the two outputs' and the accumulator at anything — the body runs to the continuation holding the
    inputs' as they were and each output's buffer and the accumulator with the pieces its stores wrote (last first):
    the pieces are the witness the run finds. -/
noncomputable def kernelRun0_A (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) :
    Σ' (L3 : List (View.Piece (Elt F) S1x512x512 .bf16)) (L4 : List (View.Piece (Elt F) S4x512 .f32)), { LS0 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS0

end Cert.KernelIdeal.Hand

end
-- ==== Proof.KI.R0RunB.lean ====
import proofs.«180569_j56959856279853_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (`s = 0` but not `b = 0`: the points ≡ 0 mod 4 that are not ≡ 0 mod 16). The accumulator is reset, so it is taken at anything; the impacts buffer is not stored into: it is taken at contents `xi4` and handed back untouched. -/
noncomputable def kernelRun0_B (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) :
    Σ' (L3 : List (View.Piece (Elt F) S1x512x512 .bf16)), { LS0 : List (View.Piece (Elt F) S1x512 .f32) //
      ∀ (xi4 : Vec F S4x512 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xi4 E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS0

end Cert.KernelIdeal.Hand

end
-- ==== Proof.KI.R0RunC.lean ====
import proofs.«180569_j56959856279853_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (`s ∈ {1, 2}`: no conditional holds). The accumulator is taken at the contents `xs0` the point before left; the impacts buffer is taken at `xi4` and handed back untouched. -/
noncomputable def kernelRun0_C (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) :
    Σ' (L3 : List (View.Piece (Elt F) S1x512x512 .bf16)), { LS0 : List (View.Piece (Elt F) S1x512 .f32) //
      ∀ (xi4 : Vec F S4x512 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xi4 E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS0

end Cert.KernelIdeal.Hand

end
-- ==== Proof.KI.R0RunD.lean ====
import proofs.«180569_j56959856279853_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE D (`s = 3`). The accumulator is taken at the contents `xs0` the point before left, and the impacts buffer at the contents `x4` it then holds, which the body reads before storing the updated block. -/
noncomputable def kernelRun0_D (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) :
    Σ' (L3 : List (View.Piece (Elt F) S1x512x512 .bf16)) (L4 : List (View.Piece (Elt F) S4x512 .f32)), { LS0 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare x4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS0

end Cert.KernelIdeal.Hand

end
-- ==== Proof.KI.R0Outs.lean ====
import proofs.«180569_j56959856279853_2_alg».proof.Proof.KI.R0RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the outputs' buffers and the accumulator -/

/-! ### Case A -/

/-- Case A's pieces for output 3 (the bf16 intermediate block) cover it. -/
theorem cover0_A_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S1x512x512.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1x512x512.size (by sl_kernel_rfl) y

/-- What case A leaves in output 3's staging buffer: its pieces read back over junk. -/
def out0_A_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S1x512x512 .bf16 :=
  VO0_3.read (Elt F) (VO0_3.writes (Elt F) VO0_3.junk (kernelRun0_A c i arg3 harg3 arg4 harg4 arg5 harg5 arg6 harg6 arg7 harg7 arg8 harg8 hc0 hc1 hc2 x0 x1 x2).1)

/-- Case A's pieces for output 4 (the impacts block) cover it. -/
theorem cover0_A_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S4x512.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S4x512.size (by sl_kernel_rfl) y

/-- What case A leaves in output 4's staging buffer: its pieces read back over junk. -/
def out0_A_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S4x512 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).2.1)

/-- Case A's pieces for the accumulator cover it. -/
theorem scover0_A_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) (y : S1x512.Idx) :
    ∃ pc ∈ (kernelRun0_A c i arg3 harg3 arg4 harg4 arg5 harg5 arg6 harg6 arg7 harg7 arg8 harg8 hc0 hc1 hc2 x0 x1 x2).2.2.1, y ∈ pc.1.set :=
  View.cover_of_tiledL (kernelRun0_A c i arg3 harg3 arg4 harg4 arg5 harg5 arg6 harg6 arg7 harg7 arg8 harg8 hc0 hc1 hc2 x0 x1 x2).2.2.1 S1x512.size (by sl_kernel_rfl) y

/-- What case A leaves in the accumulator: its pieces read back over junk. -/
def sout0_A_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) : Vec F S1x512 .f32 :=
  VS0.read (Elt F) (VS0.writes (Elt F) VS0.junk (kernelRun0_A c i arg3 harg3 arg4 harg4 arg5 harg5 arg6 harg6 arg7 harg7 arg8 harg8 hc0 hc1 hc2 x0 x1 x2).2.2.1)

/-! ### Case B -/

/-- Case B's pieces for output 3 (the bf16 intermediate block) cover it. -/
theorem cover0_B_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) (y : S1x512x512.Idx) :
    ∃ pc ∈ (kernelRun0_B c i arg3 harg3 arg4 harg4 arg5 harg5 arg6 harg6 arg7 harg7 arg8 harg8 hc0 hc1 hc2 x0 x1 x2).1, y ∈ pc.1.set :=
  View.cover_of_tiledL (kernelRun0_B c i arg3 harg3 arg4 harg4 arg5 harg5 arg6 harg6 arg7 harg7 arg8 harg8 hc0 hc1 hc2 x0 x1 x2).1 S1x512x512.size (by sl_kernel_rfl) y

/-- What case B leaves in output 3's staging buffer: its pieces read back over junk. -/
def out0_B_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) : Vec F S1x512x512 .bf16 :=
  VO0_3.read (Elt F) (VO0_3.writes (Elt F) VO0_3.junk (kernelRun0_B c i arg3 harg3 arg4 harg4 arg5 harg5 arg6 harg6 arg7 harg7 arg8 harg8 hc0 hc1 hc2 x0 x1 x2).1)

/-- Case B's pieces for the accumulator cover it. -/
theorem scover0_B_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) (y : S1x512.Idx) :
    ∃ pc ∈ (kernelRun0_B c i arg3 harg3 arg4 harg4 arg5 harg5 arg6 harg6 arg7 harg7 arg8 harg8 hc0 hc1 hc2 x0 x1 x2).2.1, y ∈ pc.1.set :=
  View.cover_of_tiledL (kernelRun0_B c i arg3 harg3 arg4 harg4 arg5 harg5 arg6 harg6 arg7 harg7 arg8 harg8 hc0 hc1 hc2 x0 x1 x2).2.1 S1x512.size (by sl_kernel_rfl) y

/-- What case B leaves in the accumulator: its pieces read back over junk. -/
def sout0_B_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) : Vec F S1x512 .f32 :=
  VS0.read (Elt F) (VS0.writes (Elt F) VS0.junk (kernelRun0_B c i arg3 harg3 arg4 harg4 arg5 harg5 arg6 harg6 arg7 harg7 arg8 harg8 hc0 hc1 hc2 x0 x1 x2).2.1)

/-! ### Case C -/

/-- Case C's pieces for output 3 (the bf16 intermediate block) cover it. -/
theorem cover0_C_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) (y : S1x512x512.Idx) :
    ∃ pc ∈ (kernelRun0_C c i arg3 harg3 arg4 harg4 arg5 harg5 arg6 harg6 arg7 harg7 arg8 harg8 hc0 hc1 hc2 x0 x1 x2 xs0).1, y ∈ pc.1.set :=
  View.cover_of_tiledL (kernelRun0_C c i arg3 harg3 arg4 harg4 arg5 harg5 arg6 harg6 arg7 harg7 arg8 harg8 hc0 hc1 hc2 x0 x1 x2 xs0).1 S1x512x512.size (by sl_kernel_rfl) y

/-- What case C leaves in output 3's staging buffer: its pieces read back over junk. -/
def out0_C_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) : Vec F S1x512x512 .bf16 :=
  VO0_3.read (Elt F) (VO0_3.writes (Elt F) VO0_3.junk (kernelRun0_C c i arg3 harg3 arg4 harg4 arg5 harg5 arg6 harg6 arg7 harg7 arg8 harg8 hc0 hc1 hc2 x0 x1 x2 xs0).1)

/-- Case C's pieces for the accumulator cover it. -/
theorem scover0_C_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) (y : S1x512.Idx) :
    ∃ pc ∈ (kernelRun0_C c i arg3 harg3 arg4 harg4 arg5 harg5 arg6 harg6 arg7 harg7 arg8 harg8 hc0 hc1 hc2 x0 x1 x2 xs0).2.1, y ∈ pc.1.set :=
  View.cover_of_tiledL (kernelRun0_C c i arg3 harg3 arg4 harg4 arg5 harg5 arg6 harg6 arg7 harg7 arg8 harg8 hc0 hc1 hc2 x0 x1 x2 xs0).2.1 S1x512.size (by sl_kernel_rfl) y

/-- What case C leaves in the accumulator: its pieces read back over junk. -/
def sout0_C_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) : Vec F S1x512 .f32 :=
  VS0.read (Elt F) (VS0.writes (Elt F) VS0.junk (kernelRun0_C c i arg3 harg3 arg4 harg4 arg5 harg5 arg6 harg6 arg7 harg7 arg8 harg8 hc0 hc1 hc2 x0 x1 x2 xs0).2.1)

/-! ### Case D -/

/-- Case D's pieces for output 3 (the bf16 intermediate block) cover it. -/
theorem cover0_D_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S1x512x512.Idx) :
    ∃ pc ∈ (kernelRun0_D c i arg3 harg3 arg4 harg4 arg5 harg5 arg6 harg6 arg7 harg7 arg8 harg8 hc0 hc1 hc2 x0 x1 x2 x4 xs0).1, y ∈ pc.1.set :=
  View.cover_of_tiledL (kernelRun0_D c i arg3 harg3 arg4 harg4 arg5 harg5 arg6 harg6 arg7 harg7 arg8 harg8 hc0 hc1 hc2 x0 x1 x2 x4 xs0).1 S1x512x512.size (by sl_kernel_rfl) y

/-- What case D leaves in output 3's staging buffer: its pieces read back over junk. -/
def out0_D_3 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S1x512x512 .bf16 :=
  VO0_3.read (Elt F) (VO0_3.writes (Elt F) VO0_3.junk (kernelRun0_D c i arg3 harg3 arg4 harg4 arg5 harg5 arg6 harg6 arg7 harg7 arg8 harg8 hc0 hc1 hc2 x0 x1 x2 x4 xs0).1)

/-- Case D's pieces for output 4 (the impacts block) cover it. -/
theorem cover0_D_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S4x512.Idx) :
    ∃ pc ∈ (kernelRun0_D c i arg3 harg3 arg4 harg4 arg5 harg5 arg6 harg6 arg7 harg7 arg8 harg8 hc0 hc1 hc2 x0 x1 x2 x4 xs0).2.1, y ∈ pc.1.set :=
  View.cover_of_tiledL (kernelRun0_D c i arg3 harg3 arg4 harg4 arg5 harg5 arg6 harg6 arg7 harg7 arg8 harg8 hc0 hc1 hc2 x0 x1 x2 x4 xs0).2.1 S4x512.size (by sl_kernel_rfl) y

/-- What case D leaves in output 4's staging buffer: its pieces read back over junk. -/
def out0_D_4 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S4x512 .f32 :=
  VO0_4.read (Elt F) (VO0_4.writes (Elt F) VO0_4.junk (kernelRun0_D c i arg3 harg3 arg4 harg4 arg5 harg5 arg6 harg6 arg7 harg7 arg8 harg8 hc0 hc1 hc2 x0 x1 x2 x4 xs0).2.1)

/-- Case D's pieces for the accumulator cover it. -/
theorem scover0_D_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) (y : S1x512.Idx) :
    ∃ pc ∈ (kernelRun0_D c i arg3 harg3 arg4 harg4 arg5 harg5 arg6 harg6 arg7 harg7 arg8 harg8 hc0 hc1 hc2 x0 x1 x2 x4 xs0).2.2.1, y ∈ pc.1.set :=
  View.cover_of_tiledL (kernelRun0_D c i arg3 harg3 arg4 harg4 arg5 harg5 arg6 harg6 arg7 harg7 arg8 harg8 hc0 hc1 hc2 x0 x1 x2 x4 xs0).2.2.1 S1x512.size (by sl_kernel_rfl) y

/-- What case D leaves in the accumulator: its pieces read back over junk. -/
def sout0_D_0 (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) : Vec F S1x512 .f32 :=
  VS0.read (Elt F) (VS0.writes (Elt F) VS0.junk (kernelRun0_D c i arg3 harg3 arg4 harg4 arg5 harg5 arg6 harg6 arg7 harg7 arg8 harg8 hc0 hc1 hc2 x0 x1 x2 x4 xs0).2.2.1)

/-! ## The conditions at a point, from its residues -/

theorem r0_c1_of_c0 (t : Fin cfg0.N) (h0 : t.val % 16 = 0) : cond0_1 (grid0.coords t) := (hcond0_1 t).mpr (by omega)
theorem r0_nc2_of_c0 (t : Fin cfg0.N) (h0 : t.val % 16 = 0) : ¬cond0_2 (grid0.coords t) := fun h => by have := (hcond0_2 t).mp h; omega
theorem r0_nc0 (t : Fin cfg0.N) (h0 : ¬t.val % 16 = 0) : ¬cond0_0 (grid0.coords t) := fun h => h0 ((hcond0_0 t).mp h)
theorem r0_nc2_of_c1 (t : Fin cfg0.N) (h1 : t.val % 4 = 0) : ¬cond0_2 (grid0.coords t) := fun h => by have := (hcond0_2 t).mp h; omega
theorem r0_nc0_of_nc1 (t : Fin cfg0.N) (h1 : ¬t.val % 4 = 0) : ¬cond0_0 (grid0.coords t) := fun h => by have := (hcond0_0 t).mp h; omega
theorem r0_nc1 (t : Fin cfg0.N) (h1 : ¬t.val % 4 = 0) : ¬cond0_1 (grid0.coords t) := fun h => h1 ((hcond0_1 t).mp h)
theorem r0_nc2 (t : Fin cfg0.N) (h2 : ¬t.val % 4 = 3) : ¬cond0_2 (grid0.coords t) := fun h => h2 ((hcond0_2 t).mp h)
theorem r0_nc0_of_c2 (t : Fin cfg0.N) (h2 : t.val % 4 = 3) : ¬cond0_0 (grid0.coords t) := fun h => by have := (hcond0_0 t).mp h; omega
theorem r0_nc1_of_c2 (t : Fin cfg0.N) (h2 : t.val % 4 = 3) : ¬cond0_1 (grid0.coords t) := fun h => by have := (hcond0_1 t).mp h; omega

/-! ## What the outputs and the accumulator hold after each point -/

/-- The contents after a point: output 3's buffer, output 4's buffer, the accumulator. -/
abbrev Outs0 (F : FTy → Type) : Type := Vec F S1x512x512 .bf16 × Vec F S4x512 .f32 × Vec F S1x512 .f32

/-- After a point of case A: everything is stored afresh. -/
def ptA0 (c : Dev nD) (t : Fin cfg0.N) (h0 : t.val % 16 = 0) : Outs0 F :=
  (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t),
   out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t))
/-- After a point of case B: output 4's buffer as the point before left it (`w4`). -/
def ptB0 (c : Dev nD) (t : Fin cfg0.N) (h0 : ¬t.val % 16 = 0) (h1 : t.val % 4 = 0) (w4 : Vec F S4x512 .f32) : Outs0 F :=
  (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t),
   w4,
   sout0_B_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t))
/-- After a point of case C: output 4's buffer as the point before left it (`w4`), the accumulator from what it left (`xs`). -/
def ptC0 (c : Dev nD) (t : Fin cfg0.N) (h1 : ¬t.val % 4 = 0) (h2 : ¬t.val % 4 = 3) (w4 : Vec F S4x512 .f32) (xs : Vec F S1x512 .f32) : Outs0 F :=
  (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) xs,
   w4,
   sout0_C_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) xs)
/-- After a point of case D: output 4's buffer updated from what the point before left in it (`w4`) and in the accumulator (`xs`). -/
def ptD0 (c : Dev nD) (t : Fin cfg0.N) (h2 : t.val % 4 = 3) (w4 : Vec F S4x512 .f32) (xs : Vec F S1x512 .f32) : Outs0 F :=
  (out0_D_3 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs,
   out0_D_4 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs,
   sout0_D_0 c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) w4 xs)

/-- THE ACCUMULATION. What output 3's and output 4's staging buffers and the accumulator hold after the body at
    position `n`: the case the residues of `n` select, run at the point's memrefs and input blocks, over what position
    `n - 1` left in output 4's buffer and in the accumulator. Output 4's buffer is carried unchanged through the points
    that do not store into it (cases B and C): its block index does not move within one value of the grid's first
    coordinate, and it is written back only at the last of those sixteen points. -/
def outsAt0 (c : Dev nD) : (n : ℕ) → n < cfg0.N → Outs0 F
  | 0, hn => ptA0 V c ⟨0, hn⟩ (Nat.zero_mod _)
  | n + 1, hn =>
    if h0 : (n + 1) % 16 = 0 then ptA0 V c ⟨n + 1, hn⟩ h0
    else if h1 : (n + 1) % 4 = 0 then ptB0 V c ⟨n + 1, hn⟩ h0 h1 (outsAt0 c n (Nat.lt_of_succ_lt hn)).2.1
    else if h2 : (n + 1) % 4 = 3 then ptD0 V c ⟨n + 1, hn⟩ h2 (outsAt0 c n (Nat.lt_of_succ_lt hn)).2.1 (outsAt0 c n (Nat.lt_of_succ_lt hn)).2.2
    else ptC0 V c ⟨n + 1, hn⟩ h1 h2 (outsAt0 c n (Nat.lt_of_succ_lt hn)).2.1 (outsAt0 c n (Nat.lt_of_succ_lt hn)).2.2

/-- `outsAt0` at a point of case A. -/
theorem outsAt0_A (c : Dev nD) (t : Fin cfg0.N) (h0 : t.val % 16 = 0) :
    outsAt0 V c t.val t.isLt = ptA0 V c t h0 := by
  obtain ⟨n, hn⟩ := t
  cases n with
  | zero => rfl
  | succ n => exact (dif_pos h0).trans rfl

/-- `outsAt0` at a point of case B, over what the point before left. -/
theorem outsAt0_B (c : Dev nD) (t : Fin cfg0.N) (h0 : ¬t.val % 16 = 0) (h1 : t.val % 4 = 0) :
    outsAt0 V c t.val t.isLt = ptB0 V c t h0 h1 (outsAt0 V c (t.val - 1) (Nat.lt_of_le_of_lt (Nat.sub_le _ _) t.isLt)).2.1 := by
  obtain ⟨n, hn⟩ := t
  cases n with
  | zero => exact absurd (Nat.zero_mod _) h0
  | succ n => exact (dif_neg h0).trans ((dif_pos h1).trans rfl)

/-- `outsAt0` at a point of case C, over what the point before left. -/
theorem outsAt0_C (c : Dev nD) (t : Fin cfg0.N) (h1 : ¬t.val % 4 = 0) (h2 : ¬t.val % 4 = 3) :
    outsAt0 V c t.val t.isLt = ptC0 V c t h1 h2 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h1
  | succ n =>
    have h0 : ¬(n + 1) % 16 = 0 := fun h => h1 (by have h1' : ¬(n + 1) % 4 = 0 := h1; omega)
    exact (dif_neg h0).trans ((dif_neg h1).trans ((dif_neg h2).trans rfl))

/-- `outsAt0` at a point of case D, over what the point before left. -/
theorem outsAt0_D (c : Dev nD) (t : Fin cfg0.N) (h2 : t.val % 4 = 3) :
    outsAt0 V c t.val t.isLt = ptD0 V c t h2 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (show 0 % 4 = 3 from h2) (by decide)
  | succ n =>
    have h2' : (n + 1) % 4 = 3 := h2
    have h0 : ¬(n + 1) % 16 = 0 := by omega
    have h1 : ¬(n + 1) % 4 = 0 := by omega
    exact (dif_neg h0).trans ((dif_neg h1).trans ((dif_pos h2).trans rfl))

/-! ## The region's invariant, point by point -/

/-- Before the first point the launch's invariant (every scoped buffer at anything); afterwards the accumulator at what
    the point before left in it (`outsAt0`'s third component), the other scoped buffers at anything, and the generator
    register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ PhiRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2.2) ∗ PhiRest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ PhiRest0 c) ∗ (∃ r, prngReg c r)) := by
  cases n with
  | zero => exact absurd rfl hz
  | succ n => rfl

/-! ## The pipeline's proof data -/

/-- The proof data of region 0 on core `c`: the arrays as the region finds them (`V`); after the body at point `t` each
    input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## What the body finds in output 4's buffer across the points that leave it alone -/

theorem outsAt0_congr (c : Dev nD) {n n' : ℕ} (h : n = n') (hn : n < cfg0.N) (hn' : n' < cfg0.N) :
    outsAt0 V c n hn = outsAt0 V c n' hn' := by subst h; rfl

/-- At a point `t` that is not the first of its sixteen, output 4's buffer was not written back at the point `t'`
    before it, so it holds what the body left there. -/
theorem before0_4_step (c : Dev nD) (t t' : Fin cfg0.N) (h : t.val = t'.val + 1) (ht : ¬t.val % 16 = 0) (d) :
    (dat0 V c).before 4 t d = (dat0 V c).left 4 t' d := by
  obtain rfl : t' = ⟨t.val - 1, Nat.lt_of_le_of_lt (Nat.sub_le _ _) t.isLt⟩ := Fin.ext (by show t'.val = t.val - 1; omega)
  have ht0 : t.val ≠ 0 := fun h0 => ht (by rw [h0])
  have hfl : (cfg0.win 4).flush ⟨t.val - 1, Nat.lt_of_le_of_lt (Nat.sub_le _ _) t.isLt⟩ = false := Bool.eq_false_iff.mpr fun hf => by
    have h' : (t.val - 1) % 16 = 15 := (flush0_4 _).mp hf
    omega
  rw [(dat0 V c).before_of_pos 4 t ht0 ((cfg0.win 4).fetch_out rfl t) d, hfl, if_neg Bool.false_ne_true]

/-- What the body leaves in output 4's buffer at a point that stores into it, as the next point finds it. -/
theorem kept0_4 (c : Dev nD) (t : Fin cfg0.N) (d) : (dat0 V c).kept 4 t d = (outsAt0 V c t.val t.isLt).2.1 := by
  unfold Dat.kept
  rw [Pipeline.fill_of_clip_none 4 _ (fun _ => rfl) d ((dat0 V c).after 4 t), Window.fill_cut, after0_4]

/-- The point after `t'`, if it is not the first of its sixteen, finds in output 4's buffer `outsAt0`'s component at `t'`:
    what case A or D stored at `t'`, or — `t'` a point of case B or C, which leave the buffer alone — what `t'` itself
    found, by induction. -/
theorem before0_4_of (c : Dev nD) : ∀ (n : ℕ) (t' : Fin cfg0.N), t'.val = n → ∀ t : Fin cfg0.N, t.val = t'.val + 1 → ¬t.val % 16 = 0 →
    ∀ d, (dat0 V c).before 4 t d = (outsAt0 V c t'.val t'.isLt).2.1 := by
  intro n
  induction n using Nat.strong_induction_on with
  | _ n ih =>
    intro t' hn t h ht d
    rw [before0_4_step V c t t' h ht d]; unfold Dat.left
    by_cases h0 : t'.val % 16 = 0
    · rw [liveAt0_4_A t' ((hcond0_0 t').mpr h0)]
      exact kept0_4 V c t' d
    · by_cases h2 : t'.val % 4 = 3
      · rw [liveAt0_4_D t' ((hcond0_2 t').mpr h2)]
        exact kept0_4 V c t' d
      · rw [idleAt0_4 t' (r0_nc0 t' h0) (r0_nc2 t' h2)]
        show (dat0 V c).before 4 t' d = _
        have hpos : t'.val ≠ 0 := fun hz => h0 (by rw [hz])
        have hlt : t'.val - 1 < cfg0.N := Nat.lt_of_le_of_lt (Nat.sub_le _ _) t'.isLt
        rw [ih (t'.val - 1) (by omega) ⟨t'.val - 1, hlt⟩ rfl t' (by show t'.val = t'.val - 1 + 1; omega) h0 d]
        by_cases h1 : t'.val % 4 = 0
        · rw [outsAt0_B V c t' h0 h1]; rfl
        · rw [outsAt0_C V c t' h1 h2]; rfl

/-- At a point that is not the first of its sixteen, output 4's current staging buffer holds `outsAt0`'s component at
    the point before: the buffer is written back only at the sixteenth point, and the points that do not store into it
    hand it on unchanged. -/
theorem before0_4 (c : Dev nD) (t : Fin cfg0.N) (ht : ¬t.val % 16 = 0) (d) :
    (dat0 V c).before 4 t d = (outsAt0 V c (t.val - 1) (Nat.lt_of_le_of_lt (Nat.sub_le _ _) t.isLt)).2.1 :=
  before0_4_of V c (t.val - 1) ⟨t.val - 1, Nat.lt_of_le_of_lt (Nat.sub_le _ _) t.isLt⟩ rfl t
    (by show t.val = t.val - 1 + 1; have : t.val ≠ 0 := fun h0 => ht (by rw [h0]); omega) ht d

end Cert.KernelIdeal.Hand

end
-- ==== Proof.KI.R0Dat.lean ====
import proofs.«180569_j56959856279853_2_alg».proof.Proof.KI.R0Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body obligation of region 0, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- Windows 0–3 are live everywhere: the body leaves each at its stated contents. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare ((outsAt0 V c t.val t.isLt).1) := by
  rw [show (dat0 V c).leavesExact 3 t = owns (c : Thread nD τ) (ms0_3 t) fullShare ((dat0 V c).after 3 t) from by
    unfold Dat.leavesExact; rw [liveAt0_3 t], after0_3]
/-- Window 4 where it is live (cases A and D). -/
theorem leaves0_4_live (c : Dev nD) (t : Fin cfg0.N) (hl : cfg0.idle 4 (grid0.coords t) = false) :
    (dat0 V c).leavesExact 4 t = owns (c : Thread nD τ) (ms0_4 t) fullShare ((outsAt0 V c t.val t.isLt).2.1) := by
  rw [show (dat0 V c).leavesExact 4 t = owns (c : Thread nD τ) (ms0_4 t) fullShare ((dat0 V c).after 4 t) from by
    unfold Dat.leavesExact; rw [hl], after0_4]

set_option maxHeartbeats 2400000 in
/-- The body at a point of case A: every output and the accumulator are stored afresh, so the invariant hands the
    accumulator over at anything. -/
theorem sound_body0_A (c : Dev nD) (t : Fin cfg0.N) (h0 : t.val % 16 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [leaves0_4_live V c t (liveAt0_4_A t ((hcond0_0 t).mpr h0))]
  rw [outsAt0_A V c t h0]
  unfold ptA0 out0_A_3 out0_A_4 sout0_A_0; (try dsimp only)
  by_cases hz : t.val = 0
  · rw [PhiS0_castSucc V c t, PhiS0_zero V c _ _ hz, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (r0_c1_of_c0 t h0) (r0_nc2_of_c0 t h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (r0_c1_of_c0 t h0) (r0_nc2_of_c0 t h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexists _; iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)

set_option maxHeartbeats 2400000 in
/-- The body at a point of case B: the accumulator is reset; output 4's buffer is handed back as found. -/
theorem sound_body0_B (c : Dev nD) (t : Fin cfg0.N) (h0 : ¬t.val % 16 = 0) (h1 : t.val % 4 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [Dat.leavesExact_idle (dat0 V c) 4 t (idleAt0_4 t (r0_nc0 t h0) (r0_nc2_of_c1 t h1)) (noFlush0_4 t (r0_nc2_of_c1 t h1))]
  rw [outsAt0_B V c t h0 h1]
  unfold ptB0 out0_B_3 sout0_B_0; (try dsimp only)
  have hz : t.val ≠ 0 := fun hz => h0 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (r0_nc0 t h0) ((hcond0_1 t).mpr h1) (r0_nc2_of_c1 t h1) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexists _; iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    iexists _; iexact H4

set_option maxHeartbeats 2400000 in
/-- The body at a point of case C: the accumulator continues from what the point before left; output 4's buffer is
    handed back as found. -/
theorem sound_body0_C (c : Dev nD) (t : Fin cfg0.N) (h1 : ¬t.val % 4 = 0) (h2 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  rw [Dat.leavesExact_idle (dat0 V c) 4 t (idleAt0_4 t (r0_nc0_of_nc1 t h1) (r0_nc2 t h2)) (noFlush0_4 t (r0_nc2 t h2))]
  rw [outsAt0_C V c t h1 h2]
  unfold ptC0 out0_C_3 sout0_C_0; (try dsimp only)
  have hz : t.val ≠ 0 := fun hz => h1 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (r0_nc0_of_nc1 t h1) (r0_nc1 t h1) (r0_nc2 t h2) (iblk0 V c 0 t) (iblk0 V c 1 t) (iblk0 V c 2 t) _).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _)
    iexists _; iexact H4

set_option maxHeartbeats 2400000 in
/-- The body at a point of case D: the accumulator continues from what the point before left, and output 4's buffer
    holds what the last storing point left in it (`before0_4`), which the body reads and updates. -/
theorem sound_body0_D (c : Dev nD) (t : Fin cfg0.N) (h2 : t.val % 4 = 3) :
    bodyPre0 V c t ⊢ wp frame (wpE (defs₀ (F := F)) Variants.none c none) Set.univ (bodyAt0 t) (fun _ => bodyPost0 V c t) := by
  have h16 : ¬t.val % 16 = 0 := by omega
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  simp only [before0_4 V c t h16]
  rw [leaves0_4_live V c t (liveAt0_4_D t ((hcond0_2 t).mpr h2))]
  rw [outsAt0_D V c t h2]
  unfold ptD0 out0_D_3 out0_D_4 sout0_D_0; (try dsimp only)
  have hz : t.val ≠ 0 := fun hz => h16 (by rw [hz])
  · rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun0_D c (grid0.coords t) _ _ _ _ _ _ _ _ _ _ _ _ (r0_nc0_of_c2 t h2) (r0_nc1_of_c2 t h2) ((hcond0_2 t).mpr h2) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_D_0 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_D_3 c _ _ _ _ _ _ _ _ _ _ _ _ _ _ _ _ _ _ _ _ _)
    unfold owns; iexists _; isplitr
    swap; · iexact H4
    ipureintro; exact View.read_writes_of_cover _ _ _ _ _ (cover0_D_4 c _ _ _ _ _ _ _ _ _ _ _ _ _ _ _ _ _ _ _ _ _)

/-- The body at any point: the residues of the point select the case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 16 = 0
  · exact sound_body0_A V c t h0
  · by_cases h1 : t.val % 4 = 0
    · exact sound_body0_B V c t h0 h1
    · by_cases h2 : t.val % 4 = 3
      · exact sound_body0_D V c t h2
      · exact sound_body0_C V c t h1 h2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 176 := N_0; omega)

/-- The shares are full and nothing is owed. -/
example (c : Dev nD) := (dat0 V c).share_full fun _ => rfl
example (c : Dev nD) : ∀ t, (dat0 V c).owed t = 0 := fun _ => rfl

end Cert.KernelIdeal.Hand

end
-- ==== Proof.KI.R1Runs.lean ====
/- The second pallas_call (the down projection) as a pipeline: what its per-case runs share. The
   blocks of its windows read off the arrays the region finds, the two conditions of its body in
   closed form over the 176 grid points, where its output window is idle, the staging and scratch
   memrefs, and the region invariant with the accumulator scratch singled out. -/
import proofs.«180569_j56959856279853_2_alg».proof.Proof.Gen.KernelIdeal.Launch
import proofs.«180569_j56959856279853_2_alg».proof.Proof.Gen.KernelIdeal.Skeleton
import proofs.«180569_j56959856279853_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the bf16 intermediate) holds its block at every point, fetched there or not, for any
    proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the down-projection weights) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's branch conditions -/

/-- The condition under which the body zeroes the accumulator: the reduction coordinate is 0
    (the scalar chain of the body's first conditional, over the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)

/-- The condition under which the body stores the accumulator into the output block: the reduction
    coordinate is 10, the last. -/
abbrev cond1_1 (i : grid1.Coords) : Prop := k1_cond2 i = 1#1
/-- It holds at the points ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is zeroed and not stored out, the output window is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Likewise at the interior points of the reduction. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the reduction's last point the output window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (the choice does not matter). -/
abbrev VO1_2 : View sig .tc .vmem S512x2048 .f32 := (Memref.whole cc1_stg2_0 : Memref sig .tc .vmem S512x2048 .f32).view
/-- Each window's current staging memref at point `t`, as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S512x2048 .f32 := Memref.whole cc1_scratch0
/-- The accumulator as a view: what it holds between points is stated through it. -/
abbrev VS1 : View sig .tc .vmem S512x2048 .f32 := scM1.view

/-! ## The region invariant -/

/-- The core's scoped buffers that are neither a staging buffer of this call nor its accumulator — the other
    call's staging buffers and its scratch —, each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant with the accumulator as a memref owned at some contents, the buffers the body never
    touches gathered, and the generator register at some state. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_eq]; simp only [scM1, owns_whole]; unfold others1
  apply Entails.antisymm
  · show (_ : sProp 𝕄) ⊢ _
    iintro ⟨⟨H1, H2, H3, H4, H5, H6, H7, H8, H9, H10, H11, HS⟩, Hg⟩
    isplitr [Hg]
    · isplitl [HS]; · iexact HS
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact Hg
  · show (_ : sProp 𝕄) ⊢ _
    iintro ⟨⟨HS, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg

end Cert.KernelIdeal.Hand

end
-- ==== Proof.KI.R1RunA.lean ====
/- The down-projection body at a point where the reduction coordinate is 0: the accumulator is zeroed,
   then the product of the two input blocks is added to it; the output block is not touched. -/
import proofs.«180569_j56959856279853_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is zeroed and not stored out
    (the reduction's first point), with the proof that on whole memrefs — the two inputs at their contents `x0`,
    `x1`, the output's buffer at contents `xi2` handed back untouched, the accumulator at anything — the body runs
    to the continuation holding the inputs as they were, the output's buffer as it was, and the accumulator with
    its pieces written. The pieces are the witness the run finds. -/
noncomputable def kernelRun1_A (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
/- The down-projection body at an interior point of the reduction: the product of the two input blocks is
   added to the accumulator as the point before left it; the output block is not touched. -/
import proofs.«180569_j56959856279853_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is neither zeroed nor stored out
    (the reduction's interior points), with the proof that on whole memrefs — the two inputs at their contents
    `x0`, `x1`, the output's buffer at contents `xi2` handed back untouched, the accumulator at what the point before
    left, `xs0` — the body runs to the continuation holding the inputs as they were, the output's buffer as it was,
    and the accumulator with its pieces written. The pieces are the witness the run finds. -/
noncomputable def kernelRun1_B (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
/- The down-projection body at the reduction's last point: the product of the two input blocks is added to
   the accumulator as the point before left it, and the sum is stored whole into the output block. -/
import proofs.«180569_j56959856279853_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), where the accumulator is not zeroed and is stored out
    (the reduction's last point), with the proof that on whole memrefs — the two inputs at their contents `x0`,
    `x1`, the output's buffer at anything, the accumulator at what the point before left, `xs0` — the body runs to
    the continuation holding the inputs as they were, and the output's buffer and the accumulator each with its
    pieces written. The pieces are the witness the run finds. -/
noncomputable def kernelRun1_C (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) :
    Σ' (L2 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__down_kernel i arg2 harg2 arg3 harg3 arg4 harg4 arg5 harg5) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1Dat.lean ====
/- The second pallas_call (the down projection) as a pipeline: what its output block and its accumulator
   hold after each of the 176 grid points, the proof data at any entry contents, and the body obligation. -/
import proofs.«180569_j56959856279853_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output block (the window is idle there and not written back): no pieces — a placeholder nothing consults. -/
def out1_A_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) : Vec F S512x2048 .f32 :=
  VO1_2.read (Elt F) (VO1_2.writes (Elt F) VO1_2.junk (kernelRun1_A c i arg2 harg2 arg3 harg3 arg4 harg4 arg5 harg5 hc0 hc1 x0 x1).1)

/-- Case A's pieces for the accumulator tile it, so they cover it. -/
theorem scover1_A_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) (y : S512x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S512x2048.size (by sl_kernel_rfl) y

/-- What case A leaves in the accumulator: its pieces read back. -/
def sout1_A_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) : Vec F S512x2048 .f32 :=
  VS1.read (Elt F) (VS1.writes (Elt F) VS1.junk (kernelRun1_A c i arg2 harg2 arg3 harg3 arg4 harg4 arg5 harg5 hc0 hc1 x0 x1).2.1)

/-- Case B stores nothing into the output block (the window is idle there and not written back): no pieces — a placeholder nothing consults. -/
def out1_B_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) : Vec F S512x2048 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator tile it, so they cover it. -/
theorem scover1_B_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) (y : S512x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S512x2048.size (by sl_kernel_rfl) y

/-- What case B leaves in the accumulator: its pieces read back. -/
def sout1_B_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) : Vec F S512x2048 .f32 :=
  VS1.read (Elt F) (VS1.writes (Elt F) VS1.junk (kernelRun1_B c i arg2 harg2 arg3 harg3 arg4 harg4 arg5 harg5 hc0 hc1 x0 x1 xs0).2.1)

/-- Case C's pieces for the output block tile it (one whole store), so they cover it. -/
theorem cover1_C_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) (y : S512x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x2048.size (by sl_kernel_rfl) y

/-- What case C leaves in the output's staging buffer: its pieces read back. -/
def out1_C_2 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) : Vec F S512x2048 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator tile it, so they cover it. -/
theorem scover1_C_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) (y : S512x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x2048.size (by sl_kernel_rfl) y

/-- What case C leaves in the accumulator: its pieces read back. -/
def sout1_C_0 (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) : Vec F S512x2048 .f32 :=
  VS1.read (Elt F) (VS1.writes (Elt F) VS1.junk (kernelRun1_C c i arg2 harg2 arg3 harg3 arg4 harg4 arg5 harg5 hc0 hc1 x0 x1 xs0).2.1)

section Entry
-- the TensorCore's buffer contents when the region is entered
variable (V : (c : Dev nD) → (b : Ref sig .tc) → Buf (Elt F) ((c : Thread nD τ).loc b))

/-! ## What the output block and the accumulator hold after each point -/

/-- THE ACCUMULATION. What the output's staging buffer and the accumulator hold after the body at position `n`
    (a pair: the output, then the accumulator): the case the closed forms select at `n`, run at the point's memrefs
    and input blocks, the accumulator read at what this leaves at `n - 1`. Zeroing and storing out together meet no
    point. -/
def outsAt1 (c : Dev nD) : (n : ℕ) → n < cfg1.N → Vec F S512x2048 .f32 × Vec F S512x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 11 = 0 then
      if h1 : (n + 1) % 11 = 10 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 11 = 10 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 11 = 0) (h1 : ¬t.val % 11 = 10) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 11 = 0) (h1 : ¬t.val % 11 = 10) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 11 = 0) (h1 : t.val % 11 = 10) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the region's own (every scoped buffer that is no
    staging buffer of this call at anything, the generator register at some state); afterwards the accumulator at what
    the point before left in it, the buffers the body never touches at anything, the register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Entry

section Body
-- the TensorCore's buffer contents when the region is entered
variable (V : (c : Dev nD) → (b : Ref sig .tc) → Buf (Elt F) ((c : Thread nD τ).loc b))

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; where the output block is not stored it is handed back as found; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  by_cases h0 : t.val % 11 = 0
  · by_cases h1 : t.val % 11 = 10
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HO⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HO
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HO
          iexact Hg
        isplitl [Ho]; · iexact Ho
        isplitl [H0]; · iexact H0
        isplitl [H1]; · iexact H1
        iexists _; iexact H2
  · by_cases h1 : t.val % 11 = 10
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; rw [hz] at h0; exact h0 (Nat.zero_mod _)
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_C_0 c _ _ _ _ _ _ _ _ _ _ _ _ _ _)
            iexact HO
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; rw [hz] at h0; exact h0 (Nat.zero_mod _)
      · rw [PhiS1_castSucc V c t, PhiS1_pos V c _ _ hz]
        iintro ⟨⟨⟨HS0, HO⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HO Hg]
        · isplitr [Hg]
          · isplitl [HS0]
            · unfold owns; iexists _; isplitr
              swap; · iexact HS0
              ipureintro; exact View.read_writes_of_cover _ _ _ _ _ (scover1_B_0 c _ _ _ _ _ _ _ _ _ _ _ _ _ _)
            iexact HO
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HO⟩, Hg⟩
  isplitr [Hg]
  · isplitl [HS0]
    · iexists _; iexact HS0
    iexact HO
  iexact Hg

/-- The same after the last point. -/
theorem hout1 (c : Dev nD) : (dat1 V c).Φ (Fin.last cfg1.N) ⊢ Pipeline.ΦA spec1 c :=
  Phi_out1 V c _ (by rw [Fin.val_last]; have : cfg1.N = 176 := N_1; omega)

/-- The two side facts the launch asks of the proof data: full shares, nothing owed. -/
example (c : Dev nD) : ∀ w, (dat1 V c).share w = fullShare := (dat1 V c).share_full fun _ => rfl
example (c : Dev nD) : ∀ t, (dat1 V c).owed t = 0 := fun _ => rfl

end Body

end Cert.KernelIdeal.Hand

end
-- ==== Proof.KI.Regions.lean ====
/-
  The whole program as a chain of segments: seven stretches of host operations (the three zero extensions of the weights
  and the transposition), the gate/up region, one stretch (the slice of the impacts and the flattening of the
  intermediate), the down-projection region, and the final reshape. Between two segments a core holds every unscoped
  buffer at a valuation `WJ`: the launch memory, then each stretch's operations applied, then — after a region — the
  arrays of its windows at what the write-backs of the proof data leave and every other buffer as it was.
  The run ends with every unscoped buffer at `W11`, from which both the unchanged arguments and the two results are read.
-/
import proofs.«180569_j56959856279853_2_alg».proof.Proof.KI.R0Dat
import proofs.«180569_j56959856279853_2_alg».proof.Proof.KI.R1Dat
import Idealize.ShloMosaic.Lib.Pipeline.RegionsLoop
import Idealize.ShloMosaic.Lib.Pipeline.FrameSuffix
import proofs.«180569_j56959856279853_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
/-- After the seven stretches before the first region: what the gate/up region is entered from. -/
abbrev W7 : Dev nD → Valuation τ sig (Elt F) := fun c => StableHlo.after hostOps0_6 (W6 m ρ c)
/-- The same read at the TensorCore's references. -/
abbrev V7 : (c : Dev nD) → (b : Ref sig .tc) → Buf (Elt F) ((c : Thread nD τ).loc b) := fun c b => W7 m ρ c b
/-- At the gate/up region's exit: its windows' arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After the slice and the flattening: what the down-projection region is entered from. -/
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
/-- At the down-projection region's exit. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- After the final reshape: the contents the run ends with. -/
abbrev W11 : Dev nD → Valuation τ sig (Elt F) := fun c => StableHlo.after hostOps2 (W10 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W7`, left with them at `W8`. Its
    windows' arrays are split out of the unscoped buffers and put back at what the write-backs leave; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : iprop((∃ r, prngReg c r) ∗ Pipeline.prefHeld (pcfgs (F := F) 0).pre c (fun _ => fullShare) (adm (F := F) 0).1 ∗ Pipeline.scopedRest (pcfgs (F := F) 0).spec c)
        ⊢ (Pipeline.ΦA spec0 c : sProp 𝕄) := by
      unfold Pipeline.ΦA
      iintro ⟨Hp, -, Hr⟩
      isplitl [Hr]; · iexact Hr
      iexact Hp
    exact hΦ.trans (hin0 (V7 m ρ) c)
  hout c := by
    rw [Pipeline.ownSems0_none]
    have hΦ : (Pipeline.ΦA spec0 c : sProp 𝕄)
        ⊢ iprop((∃ r, prngReg c r) ∗ emp ∗ Pipeline.scopedRest (pcfgs (F := F) 0).spec c) := by
      unfold Pipeline.ΦA
      iintro ⟨Hr, Hp⟩
      isplitl [Hp]; · iexact Hp
      isplitr; · iempintro
      iexact Hr
    exact (hout0 (V7 m ρ) c).trans hΦ
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W9`, left with them at `W10`. Its
    windows' arrays are split out of the unscoped buffers and put back at what the write-backs leave; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : iprop((∃ r, prngReg c r) ∗ Pipeline.prefHeld (pcfgs (F := F) 1).pre c (fun _ => fullShare) (adm (F := F) 1).1 ∗ Pipeline.scopedRest (pcfgs (F := F) 1).spec c)
        ⊢ (Pipeline.ΦA spec1 c : sProp 𝕄) := by
      unfold Pipeline.ΦA
      iintro ⟨Hp, -, Hr⟩
      isplitl [Hr]; · iexact Hr
      iexact Hp
    exact hΦ.trans (hin1 (V9 m ρ) c)
  hout c := by
    rw [Pipeline.ownSems0_none]
    have hΦ : (Pipeline.ΦA spec1 c : sProp 𝕄)
        ⊢ iprop((∃ r, prngReg c r) ∗ emp ∗ Pipeline.scopedRest (pcfgs (F := F) 1).spec c) := by
      unfold Pipeline.ΦA
      iintro ⟨Hr, Hp⟩
      isplitl [Hp]; · iexact Hp
      isplitr; · iempintro
      iexact Hr
    exact (hout1 (V9 m ρ) c).trans hΦ
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ),
    .host (hseg hostOps2 hostOps2_sub hostOps2_fresh (W10 m ρ)) ]

/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.KI.Frame.lean ====
/-
  What the final contents `W11` hold at the buffers the claims speak of: each argument array is the launch memory's
  (no stretch of host operations writes an argument and no region changes one), and the frame follows.
-/
import proofs.«180569_j56959856279853_2_alg».proof.Proof.KI.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no stretch writes it and no region changes it. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps2 _ hostOps2_writes (by decide)
    _ = W9 m ρ c (Proc.devRef .tc main_arg0) := W10_of_ne m ρ c main_arg0 (by decide)
    _ = W8 m ρ c (Proc.devRef .tc main_arg0) := StableHlo.after_of_writes_sub hostOps1 _ hostOps1_writes (by decide)
    _ = W7 m ρ c (Proc.devRef .tc main_arg0) := (W8_arr m ρ c 0).trans (((dat0 (V7 m ρ) c).arrAt_in 0 rfl _).trans (A_eq0 (V7 m ρ) c 0))
    _ = W6 m ρ c (Proc.devRef .tc main_arg0) := StableHlo.after_of_writes_sub hostOps0_6 _ hostOps0_6_writes (by decide)
    _ = W5 m ρ c (Proc.devRef .tc main_arg0) := StableHlo.after_of_writes_sub hostOps0_5 _ hostOps0_5_writes (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- `main_arg1` ends as launched: no stretch writes it and no region changes it. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps2 _ hostOps2_writes (by decide)
    _ = W9 m ρ c (Proc.devRef .tc main_arg1) := W10_of_ne m ρ c main_arg1 (by decide)
    _ = W8 m ρ c (Proc.devRef .tc main_arg1) := StableHlo.after_of_writes_sub hostOps1 _ hostOps1_writes (by decide)
    _ = W7 m ρ c (Proc.devRef .tc main_arg1) := W8_of_ne m ρ c main_arg1 (by decide)
    _ = W6 m ρ c (Proc.devRef .tc main_arg1) := StableHlo.after_of_writes_sub hostOps0_6 _ hostOps0_6_writes (by decide)
    _ = W5 m ρ c (Proc.devRef .tc main_arg1) := StableHlo.after_of_writes_sub hostOps0_5 _ hostOps0_5_writes (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- `main_arg2` ends as launched: no stretch writes it and no region changes it. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps2 _ hostOps2_writes (by decide)
    _ = W9 m ρ c (Proc.devRef .tc main_arg2) := W10_of_ne m ρ c main_arg2 (by decide)
    _ = W8 m ρ c (Proc.devRef .tc main_arg2) := StableHlo.after_of_writes_sub hostOps1 _ hostOps1_writes (by decide)
    _ = W7 m ρ c (Proc.devRef .tc main_arg2) := W8_of_ne m ρ c main_arg2 (by decide)
    _ = W6 m ρ c (Proc.devRef .tc main_arg2) := StableHlo.after_of_writes_sub hostOps0_6 _ hostOps0_6_writes (by decide)
    _ = W5 m ρ c (Proc.devRef .tc main_arg2) := StableHlo.after_of_writes_sub hostOps0_5 _ hostOps0_5_writes (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- `main_arg3` ends as launched: no stretch writes it and no region changes it. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps2 _ hostOps2_writes (by decide)
    _ = W9 m ρ c (Proc.devRef .tc main_arg3) := W10_of_ne m ρ c main_arg3 (by decide)
    _ = W8 m ρ c (Proc.devRef .tc main_arg3) := StableHlo.after_of_writes_sub hostOps1 _ hostOps1_writes (by decide)
    _ = W7 m ρ c (Proc.devRef .tc main_arg3) := W8_of_ne m ρ c main_arg3 (by decide)
    _ = W6 m ρ c (Proc.devRef .tc main_arg3) := StableHlo.after_of_writes_sub hostOps0_6 _ hostOps0_6_writes (by decide)
    _ = W5 m ρ c (Proc.devRef .tc main_arg3) := StableHlo.after_of_writes_sub hostOps0_5 _ hostOps0_5_writes (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- The frame: every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.KernelIdeal.Hand

end
-- ==== Proof.KI.Values.lean ====
/-
  The two results, and the arrays each region is entered with, traced through the host operations: the down projection's
  result is the flat [8192, 2048] array of the second region reshaped; the impacts are the first 5504 columns of the
  first region's [4, 5632] array; the second region reads the first region's intermediate flattened to [8192, 5632]
  and the transposed, zero-extended down weights; the first region reads the activations and the zero-extended gate
  and up weights.
-/
import proofs.«180569_j56959856279853_2_alg».proof.Proof.KI.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The integer zero converted to a float: the value the zero extensions fill with. -/
abbrev padZero : (⟨S_, .f32⟩ : BufTy).Contents (Elt F) := sitofp .f32 (constantI S_ 32 0#32)

/-- The first result: the second region's output array, reshaped to [4, 2048, 2048]. -/
theorem W11_v8 (c : Dev nD) :
    (W11 m ρ c (Proc.devRef .tc main_v8) : S4x2048x2048.Idx → Elt F .f32)
      = shapeCast S4x2048x2048 ((dat1 (V9 m ρ) c).arrAt 2 cfg1.N : S8192x2048.Idx → Elt F .f32) shapeCasts_S8192x2048_S4x2048x2048 := by
  rw [← W10_arr m ρ c 2]
  show StableHlo.after hostOps2 (W10 m ρ c) (Proc.devRef .tc main_v8) = _
  after_results <;> rfl

/-- The second result: the first 5504 columns of the first region's impacts array. -/
theorem W11_v5 (c : Dev nD) :
    (W11 m ρ c (Proc.devRef .tc main_v5) : S4x5504.Idx → Elt F .f32)
      = extractStridedSlice S4x5504 ![0, 0] ((dat0 (V7 m ρ) c).arrAt 4 cfg0.N : S4x5632.Idx → Elt F .f32) slices_S4x5632_S4x5504_0_0 := by
  rw [← W8_arr m ρ c 4]
  have h1 : W11 m ρ c (Proc.devRef .tc main_v5) = W10 m ρ c (Proc.devRef .tc main_v5) := StableHlo.after_of_writes_sub hostOps2 _ hostOps2_writes (by decide)
  have h2 : W10 m ρ c (Proc.devRef .tc main_v5) = W9 m ρ c (Proc.devRef .tc main_v5) := W10_of_ne m ρ c main_v5 (by decide)
  rw [h1, h2]
  show StableHlo.after hostOps1 (W8 m ρ c) (Proc.devRef .tc main_v5) = _
  after_results <;> rfl

/-- The second region's left operand: the first region's intermediate, flattened to [8192, 5632]. -/
theorem V9_v6 (c : Dev nD) :
    (V9 m ρ c main_v6 : S8192x5632.Idx → Elt F .bf16)
      = shapeCast S8192x5632 ((dat0 (V7 m ρ) c).arrAt 3 cfg0.N : S4x2048x5632.Idx → Elt F .bf16) shapeCasts_S4x2048x5632_S8192x5632 := by
  rw [← W8_arr m ρ c 3]
  show StableHlo.after hostOps1 (W8 m ρ c) (Proc.devRef .tc main_v6) = _
  after_results <;> rfl

/-- The second region's right operand: the down weights, zero-extended to 5632 columns, transposed. -/
theorem V9_v3 (c : Dev nD) :
    (V9 m ρ c main_v3 : S5632x2048.Idx → Elt F .f32)
      = transpose S5632x2048 [1, 0] (pad S2048x5632 ![0, 0] ![0, 128] ![0, 0] (m ((c : Thread nD τ).loc main_arg3) : S2048x5504.Idx → Elt F .f32) padZero pads_S2048x5504_S2048x5632_000_01280 h_S_) transposes_S2048x5632_S5632x2048_1_0 := by
  have h1 : W9 m ρ c (Proc.devRef .tc main_v3) = W8 m ρ c (Proc.devRef .tc main_v3) := StableHlo.after_of_writes_sub hostOps1 _ hostOps1_writes (by decide)
  have h2 : W8 m ρ c (Proc.devRef .tc main_v3) = W7 m ρ c (Proc.devRef .tc main_v3) := W8_of_ne m ρ c main_v3 (by decide)
  have h3 : W5 m ρ c (Proc.devRef .tc main_arg3) = m ((c : Thread nD τ).loc main_arg3) :=
    (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
  show W9 m ρ c (Proc.devRef .tc main_v3) = _
  rw [h1, h2, ← h3]
  show StableHlo.after hostOps0_6 (StableHlo.after hostOps0_5 (W5 m ρ c)) (Proc.devRef .tc main_v3) = _
  after_results <;> rfl

/-- The first region's activations: the first argument. -/
theorem V7_arg0 (c : Dev nD) : V7 m ρ c main_arg0 = m ((c : Thread nD τ).loc main_arg0) :=
  (StableHlo.after_of_writes_sub hostOps0_6 _ hostOps0_6_writes (by decide)).trans <| (StableHlo.after_of_writes_sub hostOps0_5 _ hostOps0_5_writes (by decide)).trans <| (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl

/-- The first region's gate weights: the second argument extended by 128 zero rows. -/
theorem V7_v0 (c : Dev nD) :
    (V7 m ρ c main_v0 : S5632x2048.Idx → Elt F .f32)
      = pad S5632x2048 ![0, 0] ![128, 0] ![0, 0] (m ((c : Thread nD τ).loc main_arg1) : S5504x2048.Idx → Elt F .f32) padZero pads_S5504x2048_S5632x2048_01280_000 h_S_ := by
  have h1 : W7 m ρ c (Proc.devRef .tc main_v0) = W2 m ρ c (Proc.devRef .tc main_v0) :=
    (StableHlo.after_of_writes_sub hostOps0_6 _ hostOps0_6_writes (by decide)).trans <| (StableHlo.after_of_writes_sub hostOps0_5 _ hostOps0_5_writes (by decide)).trans <| (StableHlo.after_of_writes_sub hostOps0_4 _ hostOps0_4_writes (by decide)).trans <| (StableHlo.after_of_writes_sub hostOps0_3 _ hostOps0_3_writes (by decide)).trans <| (StableHlo.after_of_writes_sub hostOps0_2 _ hostOps0_2_writes (by decide))
  have h3 : W1 m ρ c (Proc.devRef .tc main_arg1) = m ((c : Thread nD τ).loc main_arg1) := (StableHlo.after_of_writes_sub hostOps0 _ hostOps0_writes (by decide)).trans rfl
  show W7 m ρ c (Proc.devRef .tc main_v0) = _
  rw [h1, ← h3]
  show StableHlo.after hostOps0_1 (StableHlo.after hostOps0 (W0 m ρ c)) (Proc.devRef .tc main_v0) = _
  after_results <;> rfl

/-- The first region's up weights: the third argument extended by 128 zero rows. -/
theorem V7_v1 (c : Dev nD) :
    (V7 m ρ c main_v1 : S5632x2048.Idx → Elt F .f32)
      = pad S5632x2048 ![0, 0] ![128, 0] ![0, 0] (m ((c : Thread nD τ).loc main_arg2) : S5504x2048.Idx → Elt F .f32) padZero pads_S5504x2048_S5632x2048_01280_000 h_S_ := by
  have h1 : W7 m ρ c (Proc.devRef .tc main_v1) = W4 m ρ c (Proc.devRef .tc main_v1) :=
    (StableHlo.after_of_writes_sub hostOps0_6 _ hostOps0_6_writes (by decide)).trans <| (StableHlo.after_of_writes_sub hostOps0_5 _ hostOps0_5_writes (by decide)).trans <| (StableHlo.after_of_writes_sub hostOps0_4 _ hostOps0_4_writes (by decide))
  have h3 : W3 m ρ c (Proc.devRef .tc main_arg2) = m ((c : Thread nD τ).loc main_arg2) :=
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
  show W7 m ρ c (Proc.devRef .tc main_v1) = _
  rw [h1, ← h3]
  show StableHlo.after hostOps0_3 (StableHlo.after hostOps0_2 (W2 m ρ c)) (Proc.devRef .tc main_v1) = _
  after_results <;> rfl

end Cert.KernelIdeal.Hand

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«180569_j56959856279853_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KI.Pay.lean ====
/-
  The values the two kernel bodies store, read at an index, over the extended reals.

  Body 0 takes a block X of 512 rows of the input (each of 2048 entries) and blocks G, U of 512 rows of the gate
  and up weights. Its products contract the last axis of both operands, so the entry (r, q) of X·Gᵀ is
  ∑ h, X (r, h) * G (q, h); the activation at (r, q) is that entry times its logistic times the same entry of
  X·Uᵀ. The body stores the activation, adds each column's sum of squared activations to a running row, and,
  in the row of a 4-row block that a counter selects, writes the square root of that running row times the sum of
  squares of the matching row of U. Body 1 adds to a running block the product of a 512×512 block of activations
  with a 512×2048 block of the down weights, ∑ k, A (r, k) * B (k, h). Changes of number format are the identity on
  the extended reals, and a zero word reads as 0.
-/
import proofs.«180569_j56959856279853_2_alg».proof.Proof.Gen.KernelIdeal.Skeleton
import proofs.«180569_j56959856279853_2_alg».proof.Proof.LibContractLast
import proofs.«180569_j56959856279853_2_alg».proof.Proof.LibDotRows
import proofs.«180569_j56959856279853_2_alg».proof.Proof.LibColSum
import proofs.«180569_j56959856279853_2_alg».proof.Proof.LibRowSum
import Idealize.ShloMosaic.Lib.ValueLayout

noncomputable section

namespace Cert.KernelIdeal.Pay

open Cert.KernelIdeal Cert.KernelIdeal.Gen Idealize.ShloMosaic Idealize.ShloMosaic.ValueIdx Cert.Hand

/-- Entry (r, q) of the product of a block of rows X with the transpose of a block of weight rows W. -/
def blin (X : Vec Ideal S1x512x2048 .f32) (W : Vec Ideal S512x2048 .f32) (r q : Fin 512) : EReal :=
  ∑ h : Fin 2048, X (ix3 0 r h) * W (ix2 q h)

/-- The gated activation at (r, q): the gate entry times its logistic, times the up entry. -/
def bact (X : Vec Ideal S1x512x2048 .f32) (G U : Vec Ideal S512x2048 .f32) (r q : Fin 512) : EReal :=
  (blin X G r q * Ideal.logistic (blin X G r q)) * blin X U r q

/-- The body's product of the input block with a weight block, into a zero accumulator, at (p, q). -/
theorem lin_apply (X : Vec Ideal S1x512x2048 .f32) (W : Vec Ideal S512x2048 .f32) (p q : Fin 512) :
    matmul (F := Ideal) dot_S512x2048_S512x2048_S512x512_1_1_0_0_n_n none
      (truncf .bf16 (shapeCast S512x2048 X shapeCasts_S1x512x2048_S512x2048) bitsLt_bf16_f32)
      (truncf .bf16 (shapeCast S512x2048 W shapeCasts_S512x2048_S512x2048) bitsLt_bf16_f32)
      (constant S512x512 .f32 0x00000000#32) (ix2 p q) = blin X W p q := by
  refine (Ideal.matmul_constant_zero_apply _ none _ _ _).trans ?_
  generalize hl : (truncf .bf16 (shapeCast S512x2048 X shapeCasts_S1x512x2048_S512x2048) bitsLt_bf16_f32 : FVec Ideal S512x2048 .bf16) = l
  generalize hr : (truncf .bf16 (shapeCast S512x2048 W shapeCasts_S512x2048_S512x2048) bitsLt_bf16_f32 : FVec Ideal S512x2048 .bf16) = r
  have key : ∑ c, l (dot_S512x2048_S512x2048_S512x512_1_1_0_0_n_n.lhsIdx (ix2 p q) c) * r (dot_S512x2048_S512x2048_S512x512_1_1_0_0_n_n.rhsIdx (ix2 p q) c)
      = ∑ k : Fin 2048, l (ix2 p k) * r (ix2 q k) := by
    contract_last dot_S512x2048_S512x2048_S512x512_1_1_0_0_n_n S512x2048 S512x2048 2048
  refine key.trans ?_
  subst hl hr
  unfold blin
  refine Finset.sum_congr rfl fun h _ => ?_
  exact congrArg₂ (· * ·) (shapeCast_1ab_ab_apply X shapeCasts_S1x512x2048_S512x2048 p h)
    (congrFun (shapeCast_self W shapeCasts_S512x2048_S512x2048) (ix2 q h))

/-- The activation the first body computes, at (r, q). -/
theorem pay5_apply (X : Vec Ideal S1x512x2048 .f32) (G U : Vec Ideal S512x2048 .f32) (r q : Fin 512) :
    k0_pay5 (F := Ideal) X G U (ix2 r q) = bact X G U r q := by
  unfold k0_pay5 bact
  refine (mulf_apply _ _ _).trans ?_
  refine congrArg₂ (· * ·) ((mulf_apply _ _ _).trans ?_) (lin_apply X U r q)
  exact congrArg₂ (· * ·) (lin_apply X G r q) (congrArg Ideal.logistic (lin_apply X G r q))

/-- The stored activation block: the same values under a leading unit axis. -/
theorem pay6_apply (X : Vec Ideal S1x512x2048 .f32) (G U : Vec Ideal S512x2048 .f32) (r q : Fin 512) :
    k0_pay6 (F := Ideal) X G U (ix3 0 r q) = bact X G U r q := by
  unfold k0_pay6
  refine (shapeCast_ab_1ab_apply _ shapeCasts_S512x512_S1x512x512 0 r q).trans ?_
  exact pay5_apply X G U r q

/-- The running row after the body: what it held plus each column's sum of squared activations. -/
theorem pay7_apply (X : Vec Ideal S1x512x2048 .f32) (G U : Vec Ideal S512x2048 .f32) (A : Vec Ideal S1x512 .f32)
    (q : Fin 512) :
    k0_pay7 (F := Ideal) X G U A (ix2 0 q) = A (ix2 0 q) + ∑ r : Fin 512, bact X G U r q * bact X G U r q := by
  unfold k0_pay7
  refine (addf_apply _ _ _).trans ?_
  refine congrArg (A (ix2 0 q) + ·) ?_
  refine (shapeCast_a_1a_apply _ shapeCasts_S512_S1x512 0 q).trans ?_
  refine (Cert.ColSum.multiReduction_add_col _ _ _ _ _ q).trans ?_
  refine Finset.sum_congr rfl fun r _ => ?_
  refine (mulf_apply _ _ _).trans ?_
  exact congrArg₂ (· * ·) (pay5_apply X G U r q) (pay5_apply X G U r q)

/-- A cast to the same shape stores the row it was given. -/
theorem pay1_eq (v : FVec Ideal S1x512 .f32) : k0_pay1 (F := Ideal) v = v := by
  unfold k0_pay1
  exact shapeCast_self v shapeCasts_S1x512_S1x512

/-- The 4-row block is first filled with zeros. -/
theorem pay3_apply (b' : Fin 4) (q : Fin 512) : k0_pay3 (F := Ideal) (ix2 b' q) = 0 := by
  unfold k0_pay3
  show Ideal.ofBits .f32 0x00000000#32 = 0
  exact Ideal.ofBits_zero_f32

/-- The running row is first filled with zeros. -/
theorem pay4_apply (q : Fin 512) : k0_pay4 (F := Ideal) (ix2 0 q) = 0 := by
  unfold k0_pay4
  refine (congrFun (shapeCast_self _ shapeCasts_S1x512_S1x512) _).trans ?_
  show Ideal.ofBits .f32 0x00000000#32 = 0
  exact Ideal.ofBits_zero_f32

/-- The 4-row block after the last step: in the row whose number is the counter, the square root of the running row
    times the sum of squares of the matching row of U; every other row as it was. -/
theorem pay2_apply (arg1 : BitVec 32) (U : Vec Ideal S512x2048 .f32) (A : Vec Ideal S1x512 .f32)
    (P : Vec Ideal S4x512 .f32) (b' : Fin 4) (q : Fin 512) :
    k0_pay2 (F := Ideal) arg1 U A P (ix2 b' q)
      = if BitVec.ofNat 32 b'.val = arg1
        then Ideal.sqrt (A (ix2 0 q) * ∑ h : Fin 2048, U (ix2 q h) * U (ix2 q h))
        else P (ix2 b' q) := by
  unfold k0_pay2
  refine (select_apply _ _ _ _).trans ?_
  have hi : iota .tc S4x512 32 [0] iota_S4x512_d0_w32 (ix2 b' q) = BitVec.ofNat 32 b'.val :=
    iota_single_apply .tc S4x512 32 0 iota_S4x512_d0_w32 (ix2 b' q)
  have hcw : cmpi .eq (iota .tc S4x512 32 [0] iota_S4x512_d0_w32) (broadcast S4x512 arg1) (ix2 b' q)
      = IntOp.cmpi .eq (BitVec.ofNat 32 b'.val) arg1 :=
    congrArg (fun w => IntOp.cmpi .eq w arg1) hi
  by_cases hc : BitVec.ofNat 32 b'.val = arg1
  · rw [if_pos hc]
    have h1 : cmpi .eq (iota .tc S4x512 32 [0] iota_S4x512_d0_w32) (broadcast S4x512 arg1) (ix2 b' q) = 1#1 :=
      hcw.trans (IntOp.cmpi_eq.mpr hc)
    refine (congrArg (fun c => Scalar.select c _ _) h1).trans ?_
    refine (select_one _ _).trans ?_
    refine (broadcastTo_1b_ab_apply _ broadcasts_S1x512_S4x512 b' q).trans ?_
    refine (congrFun (shapeCast_self _ shapeCasts_S1x512_S1x512) _).trans ?_
    show Ideal.sqrt (A (ix2 0 q) * _) = _
    refine congrArg (fun t => Ideal.sqrt (A (ix2 0 q) * t)) ?_
    refine (shapeCast_a_1a_apply _ shapeCasts_S512_S1x512 0 q).trans ?_
    refine (Cert.RowSum.multiReduction_add_row _ _ _ _ _ q).trans ?_
    refine Finset.sum_congr rfl fun h _ => ?_
    refine (mulf_apply _ _ _).trans ?_
    exact congrArg₂ (· * ·) (congrFun (shapeCast_self U shapeCasts_S512x2048_S512x2048) (ix2 q h))
      (congrFun (shapeCast_self U shapeCasts_S512x2048_S512x2048) (ix2 q h))
  · rw [if_neg hc]
    have h0 : cmpi .eq (iota .tc S4x512 32 [0] iota_S4x512_d0_w32) (broadcast S4x512 arg1) (ix2 b' q) = 0#1 :=
      eq_zero_of_ne_one fun h => hc (IntOp.cmpi_eq.mp (hcw.symm.trans h))
    refine (congrArg (fun c => Scalar.select c _ _) h0).trans ?_
    refine (select_zero _ _).trans ?_
    exact congrFun (shapeCast_self P shapeCasts_S4x512_S4x512) (ix2 b' q)

/-- The second body's product of an activation block with a down-weight block, into a zero accumulator, at (p, q). -/
theorem down_apply (A : Vec Ideal S512x512 .bf16) (B : Vec Ideal S512x2048 .f32) (p : Fin 512) (q : Fin 2048) :
    matmul (F := Ideal) dot_S512x512_S512x2048_S512x2048_1_0_0_1_n_n none
      (shapeCast S512x512 A shapeCasts_S512x512_S512x512 : FVec Ideal S512x512 .bf16)
      (truncf .bf16 (shapeCast S512x2048 B shapeCasts_S512x2048_S512x2048) bitsLt_bf16_f32)
      (constant S512x2048 .f32 0x00000000#32) (ix2 p q) = ∑ k : Fin 512, A (ix2 p k) * B (ix2 k q) := by
  refine (Ideal.matmul_constant_zero_apply _ none _ _ _).trans ?_
  generalize hl : (shapeCast S512x512 A shapeCasts_S512x512_S512x512 : FVec Ideal S512x512 .bf16) = l
  generalize hr : (truncf .bf16 (shapeCast S512x2048 B shapeCasts_S512x2048_S512x2048) bitsLt_bf16_f32 : FVec Ideal S512x2048 .bf16) = r
  have key : ∑ c, l (dot_S512x512_S512x2048_S512x2048_1_0_0_1_n_n.lhsIdx (ix2 p q) c) * r (dot_S512x512_S512x2048_S512x2048_1_0_0_1_n_n.rhsIdx (ix2 p q) c)
      = ∑ k : Fin 512, l (ix2 p k) * r (ix2 k q) := by
    dot_rows dot_S512x512_S512x2048_S512x2048_1_0_0_1_n_n S512x512 S512x2048 512
  refine key.trans ?_
  subst hl hr
  refine Finset.sum_congr rfl fun k _ => ?_
  exact congrArg₂ (· * ·) (congrFun (shapeCast_self A shapeCasts_S512x512_S512x512) (ix2 p k))
    (congrFun (shapeCast_self B shapeCasts_S512x2048_S512x2048) (ix2 k q))

/-- The running output block is first filled with zeros. -/
theorem k1pay1_apply (r : Fin 512) (h : Fin 2048) : k1_pay1 (F := Ideal) (ix2 r h) = 0 := by
  unfold k1_pay1
  refine (congrFun (shapeCast_self _ shapeCasts_S512x2048_S512x2048) _).trans ?_
  show Ideal.ofBits .f32 0x00000000#32 = 0
  exact Ideal.ofBits_zero_f32

/-- The running output block after the body: what it held plus the block product. -/
theorem k1pay2_apply (A : Vec Ideal S512x512 .bf16) (B C : Vec Ideal S512x2048 .f32) (r : Fin 512) (h : Fin 2048) :
    k1_pay2 (F := Ideal) A B C (ix2 r h) = C (ix2 r h) + ∑ k : Fin 512, A (ix2 r k) * B (ix2 k h) := by
  unfold k1_pay2
  refine (congrFun (shapeCast_self _ shapeCasts_S512x2048_S512x2048) _).trans ?_
  refine (addf_apply _ _ _).trans ?_
  exact congrArg (C (ix2 r h) + ·) (down_apply A B r h)

end Cert.KernelIdeal.Pay

end
-- ==== Proof.Spec.lean ====
/-
  The mathematics of the SwiGLU block, as whole-array functions on the extended reals.

  For an activation array x[b,s,h] and weight rows wg[j,h], wu[j,h] (n rows each), the linear projections are
  lin x w b s j = Σ_h x[b,s,h] · w[j,h]; the gated intermediate is
  act x wg wu b s j = (g · logistic g) · u with g = lin x wg b s j, u = lin x wu b s j;
  the down projection contracts the neuron axis against wd[h,j]: down … b s h = Σ_j act b s j · wd[h,j];
  and the neuron impact is sqrt ((Σ_s act b s j ²) · (Σ_h wu[j,h]²)).
  The number of neurons n is a parameter: the tiled program works at n = 5632 on weights extended by zero rows,
  the plain program at n = 5504; that the extension changes neither result is `down_pad` and `impact_pad` of Pad.lean.
-/
import Idealize.ShloMosaic.PureOps.Ideal
import Idealize.ShloMosaic.Lib.ValueIdx

noncomputable section

namespace Cert.Swiglu

open Idealize.ShloMosaic Idealize.ShloMosaic.ValueIdx
open scoped BigOperators

/-- Activations [4, 2048, 2048], weight rows [n, 2048], down-projection rows [2048, n]. -/
abbrev SX : Shape := ⟨3, ![4, 2048, 2048]⟩
abbrev SWn (n : ℕ) : Shape := ⟨2, ![n, 2048]⟩
abbrev SDn (n : ℕ) : Shape := ⟨2, ![2048, n]⟩

variable {n : ℕ}

/-- Row (b, s) of the activations against row j of a weight matrix. -/
def lin (x : SX.Idx → EReal) (w : (SWn n).Idx → EReal) (b : Fin 4) (s : Fin 2048) (j : Fin n) : EReal :=
  ∑ h : Fin 2048, x (ix3 b s h) * w (ix2 j h)

/-- The gated intermediate: silu of the gate projection times the up projection. -/
def act (x : SX.Idx → EReal) (wg wu : (SWn n).Idx → EReal) (b : Fin 4) (s : Fin 2048) (j : Fin n) : EReal :=
  (lin x wg b s j * Ideal.logistic (lin x wg b s j)) * lin x wu b s j

/-- The down projection at (b, s, h): the intermediate contracted over the neurons against row h of wd. -/
def down (x : SX.Idx → EReal) (wg wu : (SWn n).Idx → EReal) (wd : (SDn n).Idx → EReal)
    (b : Fin 4) (s : Fin 2048) (h : Fin 2048) : EReal :=
  ∑ j : Fin n, act x wg wu b s j * wd (ix2 h j)

/-- The squared norm of row j of a weight matrix. -/
def rowSq (w : (SWn n).Idx → EReal) (j : Fin n) : EReal := ∑ h : Fin 2048, w (ix2 j h) * w (ix2 j h)

/-- The energy of neuron j over the sequence of batch element b. -/
def energy (x : SX.Idx → EReal) (wg wu : (SWn n).Idx → EReal) (b : Fin 4) (j : Fin n) : EReal :=
  ∑ s : Fin 2048, act x wg wu b s j * act x wg wu b s j

/-- The neuron impact. -/
def impact (x : SX.Idx → EReal) (wg wu : (SWn n).Idx → EReal) (b : Fin 4) (j : Fin n) : EReal :=
  Ideal.sqrt (energy x wg wu b j * rowSq wu j)

/-- The flat contraction of the down projection: row r of an [8192, n] array against column h of an [n, 2048] array. -/
def flat (A : (⟨2, ![8192, n]⟩ : Shape).Idx → EReal) (B : (SWn n).Idx → EReal) (r : Fin 8192) (h : Fin 2048) : EReal :=
  ∑ j : Fin n, A (ix2 r j) * B (ix2 j h)

end Cert.Swiglu

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Pad.lean ====
/-
  Extending the weights by zero rows changes neither result, and sums regrouped by tiles.

  The tiled program works on 5632 = 11 · 512 neurons: the gate and up weight matrices extended by 128 zero rows, the
  down-projection matrix by 128 zero columns. A neuron below 5504 sees the same weight rows, so its projections, its
  intermediate, its energy and its impact are unchanged (`lin_pad`, `act_pad`, `impact_pad`); a neuron from 5504 on meets
  a zero entry of the down projection, and a · 0 = 0 for every extended real a, so the contraction over 5632 neurons is
  the contraction over the first 5504 (`down_pad`). No finiteness is needed.
-/
import proofs.«180569_j56959856279853_2_alg».proof.Proof.Spec
import proofs.«180569_j56959856279853_2_alg».proof.Proof.LibSumSplit
import Mathlib.Algebra.BigOperators.Fin

noncomputable section

namespace Cert.Swiglu

open Idealize.ShloMosaic Idealize.ShloMosaic.ValueIdx
open scoped BigOperators

/-! ## Sums: a vanishing tail, and tiles -/

/-- A sum over `m = n + d` entries whose terms vanish from `n` on is the sum over the first `n`. -/
theorem sum_zero_tail {M : Type*} [AddCommMonoid M] {n d m : ℕ} (h : n + d = m) (f : Fin m → M)
    (h0 : ∀ j : Fin m, n ≤ j.val → f j = 0) :
    ∑ j, f j = ∑ j : Fin n, f ⟨j.val, by have := j.isLt; omega⟩ := by
  subst h
  have hz : ∑ i : Fin d, f (Fin.natAdd n i) = 0 := Finset.sum_eq_zero fun i _ => h0 _ (Nat.le_add_right n i.val)
  rw [Fin.sum_univ_add, hz, add_zero]
  rfl

/-- The 5632 neurons as 11 tiles of 512. -/
theorem sum_neuron_tiles {M : Type*} [AddCommMonoid M] (f : Fin 5632 → M) :
    ∑ j, f j = ∑ i : Fin 11, ∑ k : Fin 512, f ⟨i.val * 512 + k.val, by have := i.isLt; have := k.isLt; omega⟩ :=
  Cert.PointDist.sum_tiles (a := 11) (b := 512) rfl f

/-- The 2048 sequence positions as 4 tiles of 512. -/
theorem sum_seq_tiles {M : Type*} [AddCommMonoid M] (f : Fin 2048 → M) :
    ∑ s, f s = ∑ t : Fin 4, ∑ r : Fin 512, f ⟨t.val * 512 + r.val, by have := t.isLt; have := r.isLt; omega⟩ :=
  Cert.PointDist.sum_tiles (a := 4) (b := 512) rfl f

/-! ## A neuron below 5504 sees the same rows -/

theorem lin_pad (x : SX.Idx → EReal) (w : (SWn 5504).Idx → EReal) (wP : (SWn 5632).Idx → EReal)
    (hw : ∀ (j : Fin 5632) (hj : j.val < 5504) (h : Fin 2048), wP (ix2 j h) = w (ix2 ⟨j.val, hj⟩ h))
    (b : Fin 4) (s : Fin 2048) (j : Fin 5632) (hj : j.val < 5504) :
    lin x wP b s j = lin x w b s ⟨j.val, hj⟩ := by
  unfold lin
  exact Finset.sum_congr rfl fun h _ => by rw [hw j hj h]

theorem act_pad (x : SX.Idx → EReal) (wg wu : (SWn 5504).Idx → EReal) (wgP wuP : (SWn 5632).Idx → EReal)
    (hg : ∀ (j : Fin 5632) (hj : j.val < 5504) (h : Fin 2048), wgP (ix2 j h) = wg (ix2 ⟨j.val, hj⟩ h))
    (hu : ∀ (j : Fin 5632) (hj : j.val < 5504) (h : Fin 2048), wuP (ix2 j h) = wu (ix2 ⟨j.val, hj⟩ h))
    (b : Fin 4) (s : Fin 2048) (j : Fin 5632) (hj : j.val < 5504) :
    act x wgP wuP b s j = act x wg wu b s ⟨j.val, hj⟩ := by
  unfold act
  rw [lin_pad x wg wgP hg b s j hj, lin_pad x wu wuP hu b s j hj]

/-! ## The two results -/

/-- The down projection over the extended weights is the down projection over the original ones: the added neurons
    meet a zero entry of the extended down-projection matrix. -/
theorem down_pad (x : SX.Idx → EReal) (wg wu : (SWn 5504).Idx → EReal) (wd : (SDn 5504).Idx → EReal)
    (wgP wuP : (SWn 5632).Idx → EReal) (wdP : (SDn 5632).Idx → EReal)
    (hg : ∀ (j : Fin 5632) (hj : j.val < 5504) (h : Fin 2048), wgP (ix2 j h) = wg (ix2 ⟨j.val, hj⟩ h))
    (hu : ∀ (j : Fin 5632) (hj : j.val < 5504) (h : Fin 2048), wuP (ix2 j h) = wu (ix2 ⟨j.val, hj⟩ h))
    (hd : ∀ (h : Fin 2048) (j : Fin 5632) (hj : j.val < 5504), wdP (ix2 h j) = wd (ix2 h ⟨j.val, hj⟩))
    (hd0 : ∀ (h : Fin 2048) (j : Fin 5632), 5504 ≤ j.val → wdP (ix2 h j) = 0)
    (b : Fin 4) (s h : Fin 2048) :
    down x wgP wuP wdP b s h = down x wg wu wd b s h := by
  unfold down
  rw [sum_zero_tail (n := 5504) (d := 128) rfl _ (fun j hj => by rw [hd0 h j hj, mul_zero])]
  refine Finset.sum_congr rfl fun j _ => ?_
  rw [act_pad x wg wu wgP wuP hg hu b s ⟨j.val, _⟩ j.isLt, hd h ⟨j.val, _⟩ j.isLt]

/-- The impact of a neuron below 5504 over the extended weights is its impact over the original ones. -/
theorem impact_pad (x : SX.Idx → EReal) (wg wu : (SWn 5504).Idx → EReal) (wgP wuP : (SWn 5632).Idx → EReal)
    (hg : ∀ (j : Fin 5632) (hj : j.val < 5504) (h : Fin 2048), wgP (ix2 j h) = wg (ix2 ⟨j.val, hj⟩ h))
    (hu : ∀ (j : Fin 5632) (hj : j.val < 5504) (h : Fin 2048), wuP (ix2 j h) = wu (ix2 ⟨j.val, hj⟩ h))
    (b : Fin 4) (j : Fin 5632) (hj : j.val < 5504) :
    impact x wgP wuP b j = impact x wg wu b ⟨j.val, hj⟩ := by
  have he : ∀ s : Fin 2048, act x wgP wuP b s j = act x wg wu b s ⟨j.val, hj⟩ :=
    fun s => act_pad x wg wu wgP wuP hg hu b s j hj
  unfold impact energy rowSq
  simp only [he, hu j hj]

end Cert.Swiglu

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.KI.TileMath.lean ====
/-
  The tiled program's blocks against the whole arrays: pure lemmas.

  A block of 512 sequence rows (tile st of 4) of batch element b, against blocks of 512 weight rows (tile it of 11),
  gives the whole-array projections and gated intermediate at sequence position st · 512 + r and neuron it · 512 + q
  (`blin_eq_lin`, `bact_eq_act`); a block row's squared norm is the whole matrix's (`rowSq_block`); the energy of a
  neuron is the sum over the four sequence tiles of the tiles' sums of squares (`energy_tiles`) and the flat product
  over 5632 neurons is the sum over the eleven neuron tiles of the tiles' products (`flat_tiles`); and an accumulator
  that is zeroed, then added to once per step, ends at the sum of what was added (`total_of_chain`).
-/
import proofs.«180569_j56959856279853_2_alg».proof.Proof.Spec
import proofs.«180569_j56959856279853_2_alg».proof.Proof.Pad
import proofs.«180569_j56959856279853_2_alg».proof.Proof.KI.Pay
import proofs.«180569_j56959856279853_2_alg».proof.Proof.LibChainSum

noncomputable section

namespace Cert.KernelIdeal.TileMath

open Cert.KernelIdeal Cert.KernelIdeal.Gen Cert.KernelIdeal.Pay
open Idealize.ShloMosaic Idealize.ShloMosaic.ValueIdx Cert.Swiglu
open scoped BigOperators

/-! ## A block against the whole arrays -/

/-- A block product entry is the whole-array projection at the block's place. -/
theorem blin_eq_lin (x : SX.Idx → EReal) (w : (SWn 5632).Idx → EReal)
    (X : Vec Ideal S1x512x2048 .f32) (W : Vec Ideal S512x2048 .f32) (b : Fin 4) (st : Fin 4) (it : Fin 11)
    (hX : ∀ (r : Fin 512) (h : Fin 2048),
      X (ix3 0 r h) = x (ix3 b ⟨st.val * 512 + r.val, by have := st.isLt; have := r.isLt; omega⟩ h))
    (hW : ∀ (q : Fin 512) (h : Fin 2048),
      W (ix2 q h) = w (ix2 ⟨it.val * 512 + q.val, by have := it.isLt; have := q.isLt; omega⟩ h))
    (r q : Fin 512) :
    blin X W r q = lin (n := 5632) x w b ⟨st.val * 512 + r.val, by have := st.isLt; have := r.isLt; omega⟩
      ⟨it.val * 512 + q.val, by have := it.isLt; have := q.isLt; omega⟩ := by
  unfold blin lin
  exact Finset.sum_congr rfl fun h _ => by rw [hX r h, hW q h]

/-- A block's gated activation is the whole-array intermediate at the block's place. -/
theorem bact_eq_act (x : SX.Idx → EReal) (wg wu : (SWn 5632).Idx → EReal)
    (X : Vec Ideal S1x512x2048 .f32) (G U : Vec Ideal S512x2048 .f32) (b : Fin 4) (st : Fin 4) (it : Fin 11)
    (hX : ∀ (r : Fin 512) (h : Fin 2048),
      X (ix3 0 r h) = x (ix3 b ⟨st.val * 512 + r.val, by have := st.isLt; have := r.isLt; omega⟩ h))
    (hG : ∀ (q : Fin 512) (h : Fin 2048),
      G (ix2 q h) = wg (ix2 ⟨it.val * 512 + q.val, by have := it.isLt; have := q.isLt; omega⟩ h))
    (hU : ∀ (q : Fin 512) (h : Fin 2048),
      U (ix2 q h) = wu (ix2 ⟨it.val * 512 + q.val, by have := it.isLt; have := q.isLt; omega⟩ h))
    (r q : Fin 512) :
    bact X G U r q = act (n := 5632) x wg wu b ⟨st.val * 512 + r.val, by have := st.isLt; have := r.isLt; omega⟩
      ⟨it.val * 512 + q.val, by have := it.isLt; have := q.isLt; omega⟩ := by
  unfold bact act
  rw [blin_eq_lin x wg X G b st it hX hG r q, blin_eq_lin x wu X U b st it hX hU r q]

/-- The squared norm of a block row of the up weights is the whole matrix's row's. -/
theorem rowSq_block (wu : (SWn 5632).Idx → EReal) (U : Vec Ideal S512x2048 .f32) (it : Fin 11)
    (hU : ∀ (q : Fin 512) (h : Fin 2048),
      U (ix2 q h) = wu (ix2 ⟨it.val * 512 + q.val, by have := it.isLt; have := q.isLt; omega⟩ h))
    (q : Fin 512) :
    (∑ h : Fin 2048, U (ix2 q h) * U (ix2 q h))
      = rowSq (n := 5632) wu ⟨it.val * 512 + q.val, by have := it.isLt; have := q.isLt; omega⟩ := by
  unfold rowSq
  exact Finset.sum_congr rfl fun h _ => by rw [hU q h]

/-! ## Whole-axis sums by tiles -/

/-- The energy of a neuron: the four sequence tiles' sums of squared intermediates. -/
theorem energy_tiles (x : SX.Idx → EReal) (wg wu : (SWn 5632).Idx → EReal) (b : Fin 4) (j : Fin 5632) :
    (∑ st : Fin 4, ∑ r : Fin 512,
        act (n := 5632) x wg wu b ⟨st.val * 512 + r.val, by have := st.isLt; have := r.isLt; omega⟩ j
          * act (n := 5632) x wg wu b ⟨st.val * 512 + r.val, by have := st.isLt; have := r.isLt; omega⟩ j)
      = energy (n := 5632) x wg wu b j := by
  unfold energy
  exact (sum_seq_tiles fun s => act (n := 5632) x wg wu b s j * act (n := 5632) x wg wu b s j).symm

/-- The flat product over 5632 neurons: the eleven neuron tiles' products. -/
theorem flat_tiles (A : (⟨2, ![8192, 5632]⟩ : Shape).Idx → EReal) (B : (SWn 5632).Idx → EReal) (r : Fin 8192) (h : Fin 2048) :
    (∑ it : Fin 11, ∑ k : Fin 512,
        A (ix2 r ⟨it.val * 512 + k.val, by have := it.isLt; have := k.isLt; omega⟩)
          * B (ix2 ⟨it.val * 512 + k.val, by have := it.isLt; have := k.isLt; omega⟩ h))
      = flat (n := 5632) A B r h := by
  unfold flat
  exact (sum_neuron_tiles fun j => A (ix2 r j) * B (ix2 j h)).symm

/-! ## An accumulator zeroed at the first step -/

/-- A running total that is zero plus the first term at step 0 and adds one term per later step is, at the last of
    `N` steps, the sum of all `N` terms. -/
theorem total_of_chain {M : Type*} [AddCommMonoid M] {N : ℕ} (f : Fin N → M) (g : (n : ℕ) → n < N → M)
    (h0 : ∀ h, g 0 h = 0 + f ⟨0, h⟩)
    (hs : ∀ n (h : n + 1 < N), g (n + 1) h = g n (Nat.lt_of_succ_lt h) + f ⟨n + 1, h⟩)
    (n : ℕ) (hn : n + 1 = N) : g n (by omega) = ∑ i, f i := by
  subst hn
  rw [Cert.ChainSum.chain_eq_sum f g (fun h => (h0 h).trans (zero_add _)) hs n (Nat.lt_succ_self n)]

/-- Four steps: the sequence tiles. -/
theorem total_seq {M : Type*} [AddCommMonoid M] (f : Fin 4 → M) (g : (n : ℕ) → n < 4 → M)
    (h0 : ∀ h, g 0 h = 0 + f ⟨0, h⟩)
    (hs : ∀ n (h : n + 1 < 4), g (n + 1) h = g n (Nat.lt_of_succ_lt h) + f ⟨n + 1, h⟩) :
    g 3 (by decide) = ∑ st, f st :=
  total_of_chain f g h0 hs 3 rfl

/-- Eleven steps: the neuron tiles. -/
theorem total_neuron {M : Type*} [AddCommMonoid M] (f : Fin 11 → M) (g : (n : ℕ) → n < 11 → M)
    (h0 : ∀ h, g 0 h = 0 + f ⟨0, h⟩)
    (hs : ∀ n (h : n + 1 < 11), g (n + 1) h = g n (Nat.lt_of_succ_lt h) + f ⟨n + 1, h⟩) :
    g 10 (by decide) = ∑ it, f it :=
  total_of_chain f g h0 hs 10 rfl

end Cert.KernelIdeal.TileMath

end
-- ==== Proof.KI.R0Val3.lean ====
/-
  The intermediate array after the first region, as one function of the region's input arrays.

  The first region runs over tiles: for each neuron tile it, batch element b and row tile st it takes 512 rows of the
  input (rows st * 512 + r of batch element b) and 512 rows each of the gate and up weights (rows it * 512 + q), and
  stores the 512 × 512 block of gated activations act (b, st * 512 + r, it * 512 + q) at place (b, st, it) of the
  [4, 2048, 5632] intermediate array. Whatever else a point does (it may reset or update the running sums), it stores
  the same block, so in each of the four control cases the block's buffer holds that value; each point writes its
  block back, and the blocks tile the array: index (b, s, j) lies in the block with tile numbers (b, s / 512, j / 512).
  Hence the array ends holding act at every index.
-/
import proofs.«180569_j56959856279853_2_alg».proof.Proof.KI.R0Dat
import proofs.«180569_j56959856279853_2_alg».proof.Proof.KI.Pay
import proofs.«180569_j56959856279853_2_alg».proof.Proof.Spec
import proofs.«180569_j56959856279853_2_alg».proof.Proof.KI.TileMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem v3_hz : (![0, 0, 0] : Fin 3 → Nat) = fun _ => 0 := funext fun a => by fin_cases a <;> rfl
theorem v3_hz2 : (![0, 0] : Fin 2 → Nat) = fun _ => 0 := funext fun a => by fin_cases a <;> rfl

section Generic

set_option maxHeartbeats 400000 in
/-- What the body leaves in the activation block's buffer in this control case: its one store's value, of the three
    loaded blocks. -/
theorem v3_out_A (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) :
    out0_A_3 c i arg3 harg3 arg4 harg4 arg5 harg5 arg6 harg6 arg7 harg7 arg8 harg8 hc0 hc1 hc2 x0 x1 x2 = k0_pay6 x0 x1 x2 := by
  unfold out0_A_3
  rw [View.read_writes_eq_canon _ _ _ (cover0_A_3 c i arg3 harg3 arg4 harg4 arg5 harg5 arg6 harg6 arg7 harg7 arg8 harg8 hc0 hc1 hc2 x0 x1 x2)]
  unfold kernelRun0_A
  dsimp only
  rw [View.canon_unit_zero v3_hz]
  simp only [View.readAt_eq_ld, harg3.read_unread, harg4.read_unread, harg5.read_unread,
    View.ld_unit_zero (S := S1x512x2048) v3_hz, View.ld_unit_zero (S := S512x2048) v3_hz2]

set_option maxHeartbeats 400000 in
/-- What the body leaves in the activation block's buffer in this control case: its one store's value, of the three
    loaded blocks. -/
theorem v3_out_B (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) :
    out0_B_3 c i arg3 harg3 arg4 harg4 arg5 harg5 arg6 harg6 arg7 harg7 arg8 harg8 hc0 hc1 hc2 x0 x1 x2 = k0_pay6 x0 x1 x2 := by
  unfold out0_B_3
  rw [View.read_writes_eq_canon _ _ _ (cover0_B_3 c i arg3 harg3 arg4 harg4 arg5 harg5 arg6 harg6 arg7 harg7 arg8 harg8 hc0 hc1 hc2 x0 x1 x2)]
  unfold kernelRun0_B
  dsimp only
  rw [View.canon_unit_zero v3_hz]
  simp only [View.readAt_eq_ld, harg3.read_unread, harg4.read_unread, harg5.read_unread,
    View.ld_unit_zero (S := S1x512x2048) v3_hz, View.ld_unit_zero (S := S512x2048) v3_hz2]

set_option maxHeartbeats 400000 in
/-- What the body leaves in the activation block's buffer in this control case: its one store's value, of the three
    loaded blocks. -/
theorem v3_out_C (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) :
    out0_C_3 c i arg3 harg3 arg4 harg4 arg5 harg5 arg6 harg6 arg7 harg7 arg8 harg8 hc0 hc1 hc2 x0 x1 x2 xs0 = k0_pay6 x0 x1 x2 := by
  unfold out0_C_3
  rw [View.read_writes_eq_canon _ _ _ (cover0_C_3 c i arg3 harg3 arg4 harg4 arg5 harg5 arg6 harg6 arg7 harg7 arg8 harg8 hc0 hc1 hc2 x0 x1 x2 xs0)]
  unfold kernelRun0_C
  dsimp only
  rw [View.canon_unit_zero v3_hz]
  simp only [View.readAt_eq_ld, harg3.read_unread, harg4.read_unread, harg5.read_unread,
    View.ld_unit_zero (S := S1x512x2048) v3_hz, View.ld_unit_zero (S := S512x2048) v3_hz2]

set_option maxHeartbeats 400000 in
/-- What the body leaves in the activation block's buffer in this control case: its one store's value, of the three
    loaded blocks. -/
theorem v3_out_D (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) :
    out0_D_3 c i arg3 harg3 arg4 harg4 arg5 harg5 arg6 harg6 arg7 harg7 arg8 harg8 hc0 hc1 hc2 x0 x1 x2 x4 xs0 = k0_pay6 x0 x1 x2 := by
  unfold out0_D_3
  rw [View.read_writes_eq_canon _ _ _ (cover0_D_3 c i arg3 harg3 arg4 harg4 arg5 harg5 arg6 harg6 arg7 harg7 arg8 harg8 hc0 hc1 hc2 x0 x1 x2 x4 xs0)]
  unfold kernelRun0_D
  dsimp only
  rw [View.canon_unit_zero v3_hz]
  simp only [View.readAt_eq_ld, harg3.read_unread, harg4.read_unread, harg5.read_unread,
    View.ld_unit_zero (S := S1x512x2048) v3_hz, View.ld_unit_zero (S := S512x2048) v3_hz2]

variable (V : (c : Dev nD) → (b : Ref sig .tc) → Buf (Elt F) ((c : Thread nD τ).loc b))

set_option maxHeartbeats 400000 in
/-- After the body at any point the activation block's buffer holds the stored value of that point's three input
    blocks: the four control cases leave the same. -/
theorem v3_after (c : Dev nD) (t : Fin cfg0.N) :
    (dat0 V c).after 3 t = k0_pay6 (iblk0 V c 0 t) (iblk0 V c 1 t) (iblk0 V c 2 t) := by
  rw [after0_3]
  by_cases h0 : t.val % 16 = 0
  · rw [outsAt0_A V c t h0]; unfold ptA0; dsimp only
    exact v3_out_A (F := F) c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t)
  · by_cases h1 : t.val % 4 = 0
    · rw [outsAt0_B V c t h0 h1]; unfold ptB0; dsimp only
      exact v3_out_B (F := F) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t)
    · by_cases h2 : t.val % 4 = 3
      · rw [outsAt0_D V c t h2]; unfold ptD0; dsimp only
        exact v3_out_D (F := F) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) _ _
      · rw [outsAt0_C V c t h1 h2]; unfold ptC0; dsimp only
        exact v3_out_C (F := F) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) _

end Generic

/-! ## What each point writes back, at the extended reals -/

open Idealize.ShloMosaic.ValueIdx in
/-- One entry of a stored activation block is the whole-array intermediate at the entry's place: batch element b,
    sequence position st * 512 + r, neuron it * 512 + q, for the block of row tile st and neuron tile it. -/
theorem v3_point (x : Cert.Swiglu.SX.Idx → EReal) (wg wu : (Cert.Swiglu.SWn 5632).Idx → EReal)
    (X : Vec Ideal S1x512x2048 .f32) (G U : Vec Ideal S512x2048 .f32) (b : Fin 4) (st : Fin 4) (it : Fin 11)
    (hX : ∀ (r : Fin 512) (h : Fin 2048),
      X (ix3 0 r h) = x (ix3 b ⟨st.val * 512 + r.val, by have := st.isLt; have := r.isLt; omega⟩ h))
    (hG : ∀ (q : Fin 512) (h : Fin 2048),
      G (ix2 q h) = wg (ix2 ⟨it.val * 512 + q.val, by have := it.isLt; have := q.isLt; omega⟩ h))
    (hU : ∀ (q : Fin 512) (h : Fin 2048),
      U (ix2 q h) = wu (ix2 ⟨it.val * 512 + q.val, by have := it.isLt; have := q.isLt; omega⟩ h))
    (j : S1x512x512.Idx) (ib : Fin 4) (is : Fin 2048) (ij : Fin 5632)
    (h0 : ib.val = b.val) (h1 : is.val = st.val * 512 + (j 1).val) (h2 : ij.val = it.val * 512 + (j 2).val) :
    k0_pay6 (F := Ideal) X G U j = Cert.Swiglu.act (n := 5632) x wg wu ib is ij := by
  obtain ⟨u, r, q, rfl⟩ : ∃ (u : Fin 1) (r q : Fin 512), j = ix3 u r q := ⟨j 0, j 1, j 2, eq_ix3 j⟩
  obtain rfl : u = 0 := Subsingleton.elim _ _
  refine (Cert.KernelIdeal.Pay.pay6_apply X G U r q).trans ?_
  refine (Cert.KernelIdeal.TileMath.bact_eq_act x wg wu X G U b st it hX hG hU r q).trans ?_
  exact congr (congr (congrArg (Cert.Swiglu.act (n := 5632) x wg wu) (Fin.ext h0.symm)) (Fin.ext h1.symm)) (Fin.ext h2.symm)

/-- The printed index maps, decided over the grid: the input blocks a point reads sit at the tiles of the activation
    block it writes, and the tile numbers stay in range. -/
theorem v3_idx : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = win0_3.index t (2 : Fin 3) ∧ win0_1.index t (1 : Fin 2) = 0
    ∧ win0_2.index t (0 : Fin 2) = win0_3.index t (2 : Fin 3) ∧ win0_2.index t (1 : Fin 2) = 0
    ∧ win0_3.index t (0 : Fin 3) < 4 ∧ win0_3.index t (1 : Fin 3) < 4 ∧ win0_3.index t (2 : Fin 3) < 11 :=
  (by decide +kernel : ∀ t : Fin grid0.N, _)

/-- The whole-array intermediate of the arrays the region finds: the input, the gate rows and the up rows. -/
abbrev v3_G (V : (c : Dev nD) → (b : Ref sig .tc) → Buf (Elt Ideal) ((c : Thread nD τ).loc b)) (c : Dev nD) : S4x2048x5632.Idx → EReal :=
  fun i => Cert.Swiglu.act (n := 5632) (V c main_arg0) (V c main_v0) (V c main_v1) (i 0) (i 1) (i 2)

set_option maxHeartbeats 800000 in
open Idealize.ShloMosaic.ValueIdx in
/-- What point t writes back is block t of the whole-array intermediate. -/
theorem v3_flushed (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (v3_G V c) := by
  show (cfg0.win 3).cut (grid0.coords t) ((dat0 V c).after 3 t) = _
  rw [v3_after]
  obtain ⟨e0, e1, e2, e3, e4, e5, e6, b0, b1, b2⟩ := v3_idx t
  funext j
  show k0_pay6 (F := Ideal) (iblk0 V c 0 t) (iblk0 V c 1 t) (iblk0 V c 2 t) j
    = Cert.Swiglu.act (n := 5632) (V c main_arg0) (V c main_v0) (V c main_v1)
        ((((cfg0.win 3).blk t).view.emb j) 0) ((((cfg0.win 3).blk t).view.emb j) 1) ((((cfg0.win 3).blk t).view.emb j) 2)
  have hj0 : (j 0).val < 1 := (j 0).isLt
  refine v3_point (V c main_arg0) (V c main_v0) (V c main_v1) (iblk0 V c 0 t) (iblk0 V c 1 t) (iblk0 V c 2 t)
    ⟨win0_3.index t (0 : Fin 3), b0⟩ ⟨win0_3.index t (1 : Fin 3), b1⟩ ⟨win0_3.index t (2 : Fin 3), b2⟩
    (fun r h => ?hX) (fun q h => ?hG) (fun q h => ?hU) j _ _ _ ?h0 ?h1 ?h2
  case hX =>
    show V c main_arg0 (((cfg0.win 0).blk t).view.emb (ix3 (0 : Fin 1) r h)) = _
    refine congrArg (V c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * r.val = win0_3.index t (1 : Fin 3) * 512 + r.val; omega
    | ⟨2, _⟩ => show win0_0.index t (2 : Fin 3) * 2048 + 1 * h.val = h.val; omega
  case hG =>
    show V c main_v0 (((cfg0.win 1).blk t).view.emb (ix2 q h)) = _
    refine congrArg (V c main_v0) (funext fun a => Fin.ext ?_)
    match a with
    | ⟨0, _⟩ => show win0_1.index t (0 : Fin 2) * 512 + 1 * q.val = win0_3.index t (2 : Fin 3) * 512 + q.val; omega
    | ⟨1, _⟩ => show win0_1.index t (1 : Fin 2) * 2048 + 1 * h.val = h.val; omega
  case hU =>
    show V c main_v1 (((cfg0.win 2).blk t).view.emb (ix2 q h)) = _
    refine congrArg (V c main_v1) (funext fun a => Fin.ext ?_)
    match a with
    | ⟨0, _⟩ => show win0_2.index t (0 : Fin 2) * 512 + 1 * q.val = win0_3.index t (2 : Fin 3) * 512 + q.val; omega
    | ⟨1, _⟩ => show win0_2.index t (1 : Fin 2) * 2048 + 1 * h.val = h.val; omega
  case h0 => show win0_3.index t (0 : Fin 3) * 1 + 1 * (j 0).val = win0_3.index t (0 : Fin 3); omega
  case h1 => show win0_3.index t (1 : Fin 3) * 512 + 1 * (j 1).val = win0_3.index t (1 : Fin 3) * 512 + (j 1).val; omega
  case h2 => show win0_3.index t (2 : Fin 3) * 512 + 1 * (j 2).val = win0_3.index t (2 : Fin 3) * 512 + (j 2).val; omega

/-! ## The blocks tile the array -/

/-- Every triple of tile numbers (batch element, row tile, neuron tile) is some point's. -/
theorem v3_onto : ∀ (q0 : Fin 4) (q1 : Fin 4) (q2 : Fin 11), ∃ t : Fin cfg0.N, win0_3.index t = ![q0.val, q1.val, q2.val] :=
  (by decide +kernel : ∀ (q0 : Fin 4) (q1 : Fin 4) (q2 : Fin 11), ∃ t : Fin grid0.N, win0_3.index t = ![q0.val, q1.val, q2.val])

/-- An index of the array is in point t's block iff each coordinate is in the block's range on its axis. -/
theorem v3_mem_blk (t : Fin cfg0.N) (i : S4x2048x5632.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v4_0).slice (win0_3.rect t)).set ↔ _
  rw [View.set_slice_whole, Rect.mem_set_unit]
  exact Iff.rfl

/-- Every index (b, s, j) of the array lies in the block of the point with tile numbers (b, s / 512, j / 512), and
    every point writes its block back. -/
theorem v3_cover (i : S4x2048x5632.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 5632 := (i 2).isLt
  obtain ⟨t, ht⟩ := v3_onto ⟨(i 0).val, hi0⟩ ⟨(i 1).val / 512, by omega⟩ ⟨(i 2).val / 512, by omega⟩
  have q0 : win0_3.index t (0 : Fin 3) = (i 0).val := congrFun ht 0
  have q1 : win0_3.index t (1 : Fin 3) = (i 1).val / 512 := congrFun ht 1
  have q2 : win0_3.index t (2 : Fin 3) = (i 2).val / 512 := congrFun ht 2
  refine ⟨t, flush0_3 t, ?_⟩
  rw [v3_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-! ## The array after the region -/

/-- After the region the intermediate array holds, at (b, s, j), the gated activation of row (b, s) of the input
    against rows j of the gate and up weights as the region found them. -/
theorem arrAt0_3 (V : (c : Dev nD) → (b : Ref sig .tc) → Buf (Elt Ideal) ((c : Thread nD τ).loc b)) (c : Dev nD) :
    ((dat0 (F := Ideal) V c).arrAt 3 cfg0.N : S4x2048x5632.Idx → EReal)
      = fun i => Cert.Swiglu.act (n := 5632) (V c main_arg0) (V c main_v0) (V c main_v1) (i 0) (i 1) (i 2) :=
  (dat0 (F := Ideal) V c).arrAt_eq_of_cover 3 (v3_G V c) (fun t _ => v3_flushed V c t) v3_cover

end Cert.KernelIdeal.Hand

end
-- ==== Proof.KI.R0Pieces4.lean ====
import proofs.«180569_j56959856279853_2_alg».proof.Proof.KI.R0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulator's and the impacts block's found pieces, as payloads of the buffers read

Each list of pieces the run found for the accumulator or for the impacts block is one covering store at offset zero
(over an earlier covering store, where the accumulator was first zeroed), so reading it back gives the last store's
payload; the payloads' arguments are the whole buffers the loads read, and a load of the accumulator after a covering
store reads that store's payload. -/

theorem v4_hz2 : (![0, 0] : Fin 2 → Nat) = fun _ => 0 := funext fun a => by fin_cases a <;> rfl
theorem v4_hz3 : (![0, 0, 0] : Fin 3 → Nat) = fun _ => 0 := funext fun a => by fin_cases a <;> rfl

set_option maxHeartbeats 800000 in
theorem v4_out0_A_4_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) :
    out0_A_4 c i arg3 harg3 arg4 harg4 arg5 harg5 arg6 harg6 arg7 harg7 arg8 harg8 hc0 hc1 hc2 x0 x1 x2 = k0_pay3 := by
  unfold out0_A_4
  rw [View.read_writes_eq_canon _ _ _ (cover0_A_4 c i arg3 harg3 arg4 harg4 arg5 harg5 arg6 harg6 arg7 harg7 arg8 harg8 hc0 hc1 hc2 x0 x1 x2)]
  unfold kernelRun0_A
  dsimp only
  sl_unfold_words
  rw [View.canon_unit_zero v4_hz2]

set_option maxHeartbeats 800000 in
theorem v4_out0_D_4_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) :
    out0_D_4 c i arg3 harg3 arg4 harg4 arg5 harg5 arg6 harg6 arg7 harg7 arg8 harg8 hc0 hc1 hc2 x0 x1 x2 x4 xs0 = k0_pay2 (BitVec.ofNat 32 (i 1).val) x2 (k0_pay1 (k0_pay7 x0 x1 x2 xs0)) x4 := by
  unfold out0_D_4
  rw [View.read_writes_eq_canon _ _ _ (cover0_D_4 c i arg3 harg3 arg4 harg4 arg5 harg5 arg6 harg6 arg7 harg7 arg8 harg8 hc0 hc1 hc2 x0 x1 x2 x4 xs0)]
  unfold kernelRun0_D
  dsimp only
  sl_unfold_words
  rw [View.canon_unit_zero v4_hz2]
  simp only [View.readAt_eq_ld, harg3.read_unread, harg4.read_unread, harg5.read_unread, harg7.read_unread, harg8.read_unread, View.readCov_unit_zero (S := S1x512) _ v4_hz2, View.readCov_unit_zero (S := S4x512) _ v4_hz2, View.ld_unit_zero (S := S1x512x2048) v4_hz3, View.ld_unit_zero (S := S512x2048) v4_hz2, View.ld_unit_zero (S := S1x512) v4_hz2, View.ld_unit_zero (S := S4x512) v4_hz2]

set_option maxHeartbeats 800000 in
theorem v4_sout0_A_0_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : cond0_0 i) (hc1 : cond0_1 i) (hc2 : ¬cond0_2 i)
    (x0 : Vec F S1x512x2048 .f32) (x1 : Vec F S512x2048 .f32) (x2 : Vec F S512x2048 .f32) :
    sout0_A_0 c i arg3 harg3 arg4 harg4 arg5 harg5 arg6 harg6 arg7 harg7 arg8 harg8 hc0 hc1 hc2 x0 x1 x2 = k0_pay1 (k0_pay7 x0 x1 x2 k0_pay4) := by
  unfold sout0_A_0
  rw [View.read_writes_eq_canon _ _ _ (scover0_A_0 c i arg3 harg3 arg4 harg4 arg5 harg5 arg6 harg6 arg7 harg7 arg8 harg8 hc0 hc1 hc2 x0 x1 x2)]
  unfold kernelRun0_A
  dsimp only
  sl_unfold_words
  rw [View.canon_cons_unit_zero (S := S1x512) v4_hz2]
  simp only [View.readAt_eq_ld, harg3.read_unread, harg4.read_unread, harg5.read_unread, harg7.read_unread, harg8.read_unread, View.readCov_unit_zero (S := S1x512) _ v4_hz2, View.readCov_unit_zero (S := S4x512) _ v4_hz2, View.ld_unit_zero (S := S1x512x2048) v4_hz3, View.ld_unit_zero (S := S512x2048) v4_hz2, View.ld_unit_zero (S := S1x512) v4_hz2, View.ld_unit_zero (S := S4x512) v4_hz2]

set_option maxHeartbeats 800000 in
theorem v4_sout0_B_0_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : cond0_1 i) (hc2 : ¬cond0_2 i)
    (x0 : Vec F S1x512x2048 .f32) (x1 : Vec F S512x2048 .f32) (x2 : Vec F S512x2048 .f32) :
    sout0_B_0 c i arg3 harg3 arg4 harg4 arg5 harg5 arg6 harg6 arg7 harg7 arg8 harg8 hc0 hc1 hc2 x0 x1 x2 = k0_pay1 (k0_pay7 x0 x1 x2 k0_pay4) := by
  unfold sout0_B_0
  rw [View.read_writes_eq_canon _ _ _ (scover0_B_0 c i arg3 harg3 arg4 harg4 arg5 harg5 arg6 harg6 arg7 harg7 arg8 harg8 hc0 hc1 hc2 x0 x1 x2)]
  unfold kernelRun0_B
  dsimp only
  sl_unfold_words
  rw [View.canon_cons_unit_zero (S := S1x512) v4_hz2]
  simp only [View.readAt_eq_ld, harg3.read_unread, harg4.read_unread, harg5.read_unread, harg7.read_unread, harg8.read_unread, View.readCov_unit_zero (S := S1x512) _ v4_hz2, View.readCov_unit_zero (S := S4x512) _ v4_hz2, View.ld_unit_zero (S := S1x512x2048) v4_hz3, View.ld_unit_zero (S := S512x2048) v4_hz2, View.ld_unit_zero (S := S1x512) v4_hz2, View.ld_unit_zero (S := S4x512) v4_hz2]

set_option maxHeartbeats 800000 in
theorem v4_sout0_C_0_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : ¬cond0_2 i)
    (x0 : Vec F S1x512x2048 .f32) (x1 : Vec F S512x2048 .f32) (x2 : Vec F S512x2048 .f32) (xs0 : Vec F S1x512 .f32) :
    sout0_C_0 c i arg3 harg3 arg4 harg4 arg5 harg5 arg6 harg6 arg7 harg7 arg8 harg8 hc0 hc1 hc2 x0 x1 x2 xs0 = k0_pay1 (k0_pay7 x0 x1 x2 xs0) := by
  unfold sout0_C_0
  rw [View.read_writes_eq_canon _ _ _ (scover0_C_0 c i arg3 harg3 arg4 harg4 arg5 harg5 arg6 harg6 arg7 harg7 arg8 harg8 hc0 hc1 hc2 x0 x1 x2 xs0)]
  unfold kernelRun0_C
  dsimp only
  sl_unfold_words
  rw [View.canon_unit_zero v4_hz2]
  simp only [View.readAt_eq_ld, harg3.read_unread, harg4.read_unread, harg5.read_unread, harg7.read_unread, harg8.read_unread, View.readCov_unit_zero (S := S1x512) _ v4_hz2, View.readCov_unit_zero (S := S4x512) _ v4_hz2, View.ld_unit_zero (S := S1x512x2048) v4_hz3, View.ld_unit_zero (S := S512x2048) v4_hz2, View.ld_unit_zero (S := S1x512) v4_hz2, View.ld_unit_zero (S := S4x512) v4_hz2]

set_option maxHeartbeats 800000 in
theorem v4_sout0_D_0_eq (c : Dev nD) (i : grid0.Coords) (arg3 : Memref sig .tc .vmem S1x512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512x512 .bf16) (harg6 : arg6.IsWhole) (arg7 : Memref sig .tc .vmem S4x512 .f32) (harg7 : arg7.IsWhole) (arg8 : Memref sig .tc .vmem S1x512 .f32) (harg8 : arg8.IsWhole) (hc0 : ¬cond0_0 i) (hc1 : ¬cond0_1 i) (hc2 : cond0_2 i)
    (x0 : Vec F S1x512x2048 .f32) (x1 : Vec F S512x2048 .f32) (x2 : Vec F S512x2048 .f32) (x4 : Vec F S4x512 .f32) (xs0 : Vec F S1x512 .f32) :
    sout0_D_0 c i arg3 harg3 arg4 harg4 arg5 harg5 arg6 harg6 arg7 harg7 arg8 harg8 hc0 hc1 hc2 x0 x1 x2 x4 xs0 = k0_pay1 (k0_pay7 x0 x1 x2 xs0) := by
  unfold sout0_D_0
  rw [View.read_writes_eq_canon _ _ _ (scover0_D_0 c i arg3 harg3 arg4 harg4 arg5 harg5 arg6 harg6 arg7 harg7 arg8 harg8 hc0 hc1 hc2 x0 x1 x2 x4 xs0)]
  unfold kernelRun0_D
  dsimp only
  sl_unfold_words
  rw [View.canon_unit_zero v4_hz2]
  simp only [View.readAt_eq_ld, harg3.read_unread, harg4.read_unread, harg5.read_unread, harg7.read_unread, harg8.read_unread, View.readCov_unit_zero (S := S1x512) _ v4_hz2, View.readCov_unit_zero (S := S4x512) _ v4_hz2, View.ld_unit_zero (S := S1x512x2048) v4_hz3, View.ld_unit_zero (S := S512x2048) v4_hz2, View.ld_unit_zero (S := S1x512) v4_hz2, View.ld_unit_zero (S := S4x512) v4_hz2]

end Cert.KernelIdeal.Hand

end
-- ==== Proof.KI.R0Val4.lean ====
import proofs.«180569_j56959856279853_2_alg».proof.Proof.KI.R0Pieces4
import proofs.«180569_j56959856279853_2_alg».proof.Proof.KI.TileMath

set_option maxRecDepth 16384

noncomputable section

namespace Cert.KernelIdeal.Hand

open Cert.KernelIdeal Cert.KernelIdeal.Gen Cert.KernelIdeal.Pay Cert.Swiglu
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

open Cert.KernelIdeal.TileMath

/-! ## The blocks the body reads at a point

Point `t` of the grid has coordinates `(t / 16, (t / 4) % 4, t % 4)`: the neuron tile, the batch element, the
sequence tile. -/

/-- The windows' block indices, decided over the grid. -/
theorem v4_idx : ∀ t : Fin cfg0.N,
    win0_0.index t (0 : Fin 3) = (t.val / 4) % 4 ∧ win0_0.index t (1 : Fin 3) = t.val % 4 ∧ win0_0.index t (2 : Fin 3) = 0
    ∧ win0_1.index t (0 : Fin 2) = t.val / 16 ∧ win0_1.index t (1 : Fin 2) = 0
    ∧ win0_2.index t (0 : Fin 2) = t.val / 16 ∧ win0_2.index t (1 : Fin 2) = 0
    ∧ win0_4.index t (0 : Fin 2) = 0 ∧ win0_4.index t (1 : Fin 2) = t.val / 16
    ∧ (grid0.coords t 1).val = (t.val / 4) % 4 :=
  (by decide +kernel : ∀ t : Fin grid0.N, _)

/-- The coordinates of position `n`: batch element, sequence tile, neuron tile. -/
abbrev v4_bt (n : ℕ) : Fin 4 := ⟨(n / 4) % 4, Nat.mod_lt _ (by decide)⟩
abbrev v4_st (n : ℕ) : Fin 4 := ⟨n % 4, Nat.mod_lt _ (by decide)⟩
abbrev v4_it (n : ℕ) : Fin 11 := ⟨(n / 16) % 11, Nat.mod_lt _ (by decide)⟩
/-- Row `r` of sequence tile `st`; neuron `q` of tile `it`. -/
abbrev v4_row (st : Fin 4) (r : Fin 512) : Fin 2048 := ⟨st.val * 512 + r.val, by have := st.isLt; have := r.isLt; omega⟩
abbrev v4_neu (it : Fin 11) (q : Fin 512) : Fin 5632 := ⟨it.val * 512 + q.val, by have := it.isLt; have := q.isLt; omega⟩

/-- The input block at point `t` is the rows of sequence tile `t % 4` of batch element `(t / 4) % 4`. -/
theorem v4_blk0 (c : Dev nD) (t : Fin cfg0.N) (r : Fin 512) (h : Fin 2048) :
    (iblk0 V c 0 t : Vec Ideal S1x512x2048 .f32) (ix3 0 r h)
      = (V c main_arg0 : SX.Idx → EReal) (ix3 (v4_bt t.val) (v4_row (v4_st t.val) r) h) := by
  obtain ⟨e0, e1, e2, -⟩ := v4_idx t
  unfold iblk0
  rw [View.read_apply]
  show V c main_arg0 _ = V c main_arg0 _
  congr 1
  funext a
  apply Fin.ext
  match a with
  | ⟨0, _⟩ => show win0_0.index t (0 : Fin 3) * 1 + 1 * 0 = (t.val / 4) % 4; omega
  | ⟨1, _⟩ => show win0_0.index t (1 : Fin 3) * 512 + 1 * r.val = (t.val % 4) * 512 + r.val; omega
  | ⟨2, _⟩ => show win0_0.index t (2 : Fin 3) * 2048 + 1 * h.val = h.val; omega

/-- The gate-weight block at point `t` is the rows of neuron tile `t / 16` of the gate weights. -/
theorem v4_blk1 (c : Dev nD) (t : Fin cfg0.N) (q : Fin 512) (h : Fin 2048) :
    (iblk0 V c 1 t : Vec Ideal S512x2048 .f32) (ix2 q h)
      = (V c main_v0 : (SWn 5632).Idx → EReal) (ix2 (v4_neu (v4_it t.val) q) h) := by
  obtain ⟨-, -, -, e3, e4, -⟩ := v4_idx t
  have hN : t.val < 176 := lt_of_lt_of_eq t.isLt N_0
  unfold iblk0
  rw [View.read_apply]
  show V c main_v0 _ = V c main_v0 _
  congr 1
  funext a
  apply Fin.ext
  match a with
  | ⟨0, _⟩ => show win0_1.index t (0 : Fin 2) * 512 + 1 * q.val = (t.val / 16 % 11) * 512 + q.val; omega
  | ⟨1, _⟩ => show win0_1.index t (1 : Fin 2) * 2048 + 1 * h.val = h.val; omega

/-- The up-weight block at point `t` is the same rows of the up weights. -/
theorem v4_blk2 (c : Dev nD) (t : Fin cfg0.N) (q : Fin 512) (h : Fin 2048) :
    (iblk0 V c 2 t : Vec Ideal S512x2048 .f32) (ix2 q h)
      = (V c main_v1 : (SWn 5632).Idx → EReal) (ix2 (v4_neu (v4_it t.val) q) h) := by
  obtain ⟨-, -, -, -, -, e5, e6, -⟩ := v4_idx t
  have hN : t.val < 176 := lt_of_lt_of_eq t.isLt N_0
  unfold iblk0
  rw [View.read_apply]
  show V c main_v1 _ = V c main_v1 _
  congr 1
  funext a
  apply Fin.ext
  match a with
  | ⟨0, _⟩ => show win0_2.index t (0 : Fin 2) * 512 + 1 * q.val = (t.val / 16 % 11) * 512 + q.val; omega
  | ⟨1, _⟩ => show win0_2.index t (1 : Fin 2) * 2048 + 1 * h.val = h.val; omega

/-- The activation of the whole arrays at batch element `b`, row `r` of sequence tile `st`, neuron `q` of tile `it`. -/
def v4_act (c : Dev nD) (it : Fin 11) (b st : Fin 4) (r q : Fin 512) : EReal :=
  act (n := 5632) (V c main_arg0) (V c main_v0) (V c main_v1) b (v4_row st r) (v4_neu it q)

/-- The body's activation entry `(r, q)` at point `t` is the activation of the whole arrays at the point's place. -/
theorem v4_bact (c : Dev nD) (t : Fin cfg0.N) (r q : Fin 512) :
    bact (iblk0 V c 0 t) (iblk0 V c 1 t) (iblk0 V c 2 t) r q = v4_act V c (v4_it t.val) (v4_bt t.val) (v4_st t.val) r q :=
  bact_eq_act (V c main_arg0) (V c main_v0) (V c main_v1) (iblk0 V c 0 t) (iblk0 V c 1 t) (iblk0 V c 2 t)
    (v4_bt t.val) (v4_st t.val) (v4_it t.val) (v4_blk0 V c t) (v4_blk1 V c t) (v4_blk2 V c t) r q

/-- The squared norm of row `q` of the up-weight block is that of the neuron's row of the up weights. -/
theorem v4_rowsq (c : Dev nD) (t : Fin cfg0.N) (U : Vec Ideal S512x2048 .f32) (hU : U = iblk0 V c 2 t) (q : Fin 512) :
    (∑ h : Fin 2048, U (ix2 q h) * U (ix2 q h)) = rowSq (n := 5632) (V c main_v1) (v4_neu (v4_it t.val) q) :=
  rowSq_block (V c main_v1) U (v4_it t.val) (fun q h => by rw [hU]; exact v4_blk2 V c t q h) q

/-! ## The accumulator and the impacts block after each point -/

/-- Neuron `q` of tile `it`: the sum of its squared activations over the 512 rows of sequence tile `st` of batch element `b`. -/
def v4_f (c : Dev nD) (it : Fin 11) (b : Fin 4) (q : Fin 512) (st : Fin 4) : EReal :=
  ∑ r : Fin 512, v4_act V c it b st r q * v4_act V c it b st r q

/-- A running total from zero over the four sequence tiles: after step `k` it has added the terms `0 … k`, in order. -/
def v4_run (g : Fin 4 → EReal) : ℕ → EReal
  | 0 => 0 + g 0
  | 1 => 0 + g 0 + g 1
  | 2 => 0 + g 0 + g 1 + g 2
  | _ + 3 => 0 + g 0 + g 1 + g 2 + g 3

theorem v4_run_succ (g : Fin 4 → EReal) (k : ℕ) (hk : k + 1 < 4) : v4_run g (k + 1) = v4_run g k + g ⟨k + 1, hk⟩ :=
  match k, hk with
  | 0, _ => rfl
  | 1, _ => rfl
  | 2, _ => rfl

/-- The impact of neuron `q` of tile `it` for batch element `b'`, as the body computes it: the square root of the running
    total over the four sequence tiles times the squared norm of the neuron's up-weight row. -/
def v4_imp (c : Dev nD) (it : Fin 11) (b' : Fin 4) (q : Fin 512) : EReal :=
  Ideal.sqrt (v4_run (v4_f V c it b' q) 3 * rowSq (n := 5632) (V c main_v1) (v4_neu it q))

/-- It is the neuron's impact: the running total over the four tiles is the energy over the whole sequence. -/
theorem v4_imp_eq (c : Dev nD) (it : Fin 11) (b' : Fin 4) (q : Fin 512) :
    v4_imp V c it b' q = impact (n := 5632) (V c main_arg0) (V c main_v0) (V c main_v1) b' (v4_neu it q) := by
  unfold v4_imp impact
  congr 2
  show 0 + v4_f V c it b' q 0 + v4_f V c it b' q 1 + v4_f V c it b' q 2 + v4_f V c it b' q 3 = _
  rw [zero_add, ← energy_tiles, Fin.sum_univ_four]
  rfl

/-- THE INVARIANT after the body at position `n`, a point `(it, b, st)`: the accumulator holds at neuron `q` the running
    total of the squared activations over the sequence tiles `0 … st` of batch element `b`; the impacts block holds, in the
    rows already finished (those below `b`, and row `b` itself once `st = 3`), the impacts, and zero in the others. -/
def v4_Inv (c : Dev nD) (n : ℕ) (hn : n < cfg0.N) : Prop :=
  (∀ q : Fin 512, (outsAt0 V c n hn).2.2 (ix2 0 q) = v4_run (v4_f V c (v4_it n) (v4_bt n) q) (n % 4))
  ∧ (∀ (b' : Fin 4) (q : Fin 512), (outsAt0 V c n hn).2.1 (ix2 b' q)
        = if b'.val < (n / 4) % 4 ∨ (b'.val = (n / 4) % 4 ∧ n % 4 = 3) then v4_imp V c (v4_it n) b' q else 0)

/-- Two row numbers below four are equal exactly when their 32-bit words are. -/
theorem v4_bv : ∀ a b : Fin 4, BitVec.ofNat 32 a.val = BitVec.ofNat 32 b.val ↔ a = b := by decide

/-- At a point of case A (the first of its sixteen): the accumulator restarts from zero, the impacts block is zeroed. -/
theorem v4_stepA (c : Dev nD) (t : Fin cfg0.N) (h0 : t.val % 16 = 0) : v4_Inv V c t.val t.isLt := by
  have hs : t.val % 4 = 0 := by omega
  constructor
  · intro q
    rw [outsAt0_A V c t h0]; unfold ptA0; dsimp only
    rw [v4_sout0_A_0_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t), pay1_eq]
    refine (pay7_apply (iblk0 V c 0 t) (iblk0 V c 1 t) (iblk0 V c 2 t) (k0_pay4 (F := Ideal)) q).trans ?_
    rw [pay4_apply q, hs]
    show 0 + _ = 0 + v4_f V c _ _ q 0
    refine congrArg (_ + ·) ?_
    unfold v4_f
    refine Finset.sum_congr rfl fun r _ => ?_
    rw [v4_bact V c t r q, show v4_st t.val = 0 from Fin.ext hs]
  · intro b' q
    rw [outsAt0_A V c t h0]; unfold ptA0; dsimp only
    rw [v4_out0_A_4_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (r0_c1_of_c0 t h0) (r0_nc2_of_c0 t h0) (iblk0 V c 0 t) (iblk0 V c 1 t) (iblk0 V c 2 t), pay3_apply b' q, if_neg (by omega)]

/-- At a point of case B (a new batch element): the accumulator restarts from zero; the impacts block is as it was, and the
    row finished at the point before is now one of those below the batch element. -/
theorem v4_stepB (c : Dev nD) (t : Fin cfg0.N) (h0 : ¬t.val % 16 = 0) (h1 : t.val % 4 = 0)
    (ih : v4_Inv V c (t.val - 1) (Nat.lt_of_le_of_lt (Nat.sub_le _ _) t.isLt)) : v4_Inv V c t.val t.isLt := by
  obtain ⟨ihS, ihW⟩ := ih
  have e_it : v4_it (t.val - 1) = v4_it t.val := Fin.ext (by show (t.val - 1) / 16 % 11 = t.val / 16 % 11; omega)
  constructor
  · intro q
    rw [outsAt0_B V c t h0 h1]; unfold ptB0; dsimp only
    rw [v4_sout0_B_0_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0 t h0) ((hcond0_1 t).mpr h1) (r0_nc2_of_c1 t h1) (iblk0 V c 0 t) (iblk0 V c 1 t) (iblk0 V c 2 t), pay1_eq]
    refine (pay7_apply (iblk0 V c 0 t) (iblk0 V c 1 t) (iblk0 V c 2 t) (k0_pay4 (F := Ideal)) q).trans ?_
    rw [pay4_apply q, h1]
    show 0 + _ = 0 + v4_f V c _ _ q 0
    refine congrArg (_ + ·) ?_
    unfold v4_f
    refine Finset.sum_congr rfl fun r _ => ?_
    rw [v4_bact V c t r q, show v4_st t.val = 0 from Fin.ext h1]
  · intro b' q
    rw [outsAt0_B V c t h0 h1]; unfold ptB0; dsimp only
    rw [ihW b' q, e_it]
    refine if_congr ?_ rfl rfl
    omega

/-- At a point of case C: the accumulator adds this sequence tile's squares; the impacts block is as it was. -/
theorem v4_stepC (c : Dev nD) (t : Fin cfg0.N) (h1 : ¬t.val % 4 = 0) (h2 : ¬t.val % 4 = 3)
    (ih : v4_Inv V c (t.val - 1) (Nat.lt_of_le_of_lt (Nat.sub_le _ _) t.isLt)) : v4_Inv V c t.val t.isLt := by
  obtain ⟨ihS, ihW⟩ := ih
  have e_it : v4_it (t.val - 1) = v4_it t.val := Fin.ext (by show (t.val - 1) / 16 % 11 = t.val / 16 % 11; omega)
  have e_bt : v4_bt (t.val - 1) = v4_bt t.val := Fin.ext (by show (t.val - 1) / 4 % 4 = t.val / 4 % 4; omega)
  constructor
  · intro q
    rw [outsAt0_C V c t h1 h2]; unfold ptC0; dsimp only
    rw [v4_sout0_C_0_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_nc1 t h1) (r0_nc1 t h1) (r0_nc2 t h2) (iblk0 V c 0 t) (iblk0 V c 1 t) (iblk0 V c 2 t) (outsAt0 V c (t.val - 1) (Nat.lt_of_le_of_lt (Nat.sub_le _ _) t.isLt)).2.2, pay1_eq]
    refine (pay7_apply (iblk0 V c 0 t) (iblk0 V c 1 t) (iblk0 V c 2 t) (outsAt0 V c (t.val - 1) (Nat.lt_of_le_of_lt (Nat.sub_le _ _) t.isLt)).2.2 q).trans ?_
    rw [ihS q, e_it, e_bt]
    obtain ⟨k, hk1, hk2⟩ : ∃ k, (t.val - 1) % 4 = k ∧ t.val % 4 = k + 1 := ⟨(t.val - 1) % 4, rfl, by omega⟩
    rw [hk1, hk2, v4_run_succ _ k (by omega)]
    refine congrArg (_ + ·) ?_
    unfold v4_f
    refine Finset.sum_congr rfl fun r _ => ?_
    rw [v4_bact V c t r q, show v4_st t.val = ⟨k + 1, by omega⟩ from Fin.ext hk2]
  · intro b' q
    rw [outsAt0_C V c t h1 h2]; unfold ptC0; dsimp only
    rw [ihW b' q, e_it]
    refine if_congr ?_ rfl rfl
    omega

/-- At a point of case D (the last sequence tile): the accumulator completes the energy, and row `b` of the impacts block
    takes the square root of the energy times the squared norm of the up-weight row; the other rows are as they were. -/
theorem v4_stepD (c : Dev nD) (t : Fin cfg0.N) (h2 : t.val % 4 = 3)
    (ih : v4_Inv V c (t.val - 1) (Nat.lt_of_le_of_lt (Nat.sub_le _ _) t.isLt)) : v4_Inv V c t.val t.isLt := by
  obtain ⟨ihS, ihW⟩ := ih
  obtain ⟨-, -, -, -, -, -, -, -, -, e9⟩ := v4_idx t
  have e_it : v4_it (t.val - 1) = v4_it t.val := Fin.ext (by show (t.val - 1) / 16 % 11 = t.val / 16 % 11; omega)
  have e_bt : v4_bt (t.val - 1) = v4_bt t.val := Fin.ext (by show (t.val - 1) / 4 % 4 = t.val / 4 % 4; omega)
  have hS : ∀ q : Fin 512, k0_pay7 (F := Ideal) (iblk0 V c 0 t) (iblk0 V c 1 t) (iblk0 V c 2 t) (outsAt0 V c (t.val - 1) (Nat.lt_of_le_of_lt (Nat.sub_le _ _) t.isLt)).2.2 (ix2 0 q)
      = v4_run (v4_f V c (v4_it t.val) (v4_bt t.val) q) 3 := by
    intro q
    refine (pay7_apply (iblk0 V c 0 t) (iblk0 V c 1 t) (iblk0 V c 2 t) (outsAt0 V c (t.val - 1) (Nat.lt_of_le_of_lt (Nat.sub_le _ _) t.isLt)).2.2 q).trans ?_
    rw [ihS q, e_it, e_bt, show (t.val - 1) % 4 = 2 from by omega, v4_run_succ _ 2 (by omega)]
    refine congrArg (_ + ·) ?_
    unfold v4_f
    refine Finset.sum_congr rfl fun r _ => ?_
    rw [v4_bact V c t r q, show v4_st t.val = ⟨2 + 1, by omega⟩ from Fin.ext h2]
  constructor
  · intro q
    rw [outsAt0_D V c t h2]; unfold ptD0; dsimp only
    rw [v4_sout0_D_0_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, pay1_eq, hS q, h2]
  · intro b' q
    rw [outsAt0_D V c t h2]; unfold ptD0; dsimp only
    rw [v4_out0_D_4_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (r0_nc0_of_c2 t h2) (r0_nc1_of_c2 t h2) ((hcond0_2 t).mpr h2) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, pay1_eq]
    refine (pay2_apply (BitVec.ofNat 32 (grid0.coords t 1).val) (iblk0 V c 2 t) (k0_pay7 (F := Ideal) (iblk0 V c 0 t) (iblk0 V c 1 t) (iblk0 V c 2 t) (outsAt0 V c (t.val - 1) (Nat.lt_of_le_of_lt (Nat.sub_le _ _) t.isLt)).2.2) (outsAt0 V c (t.val - 1) (Nat.lt_of_le_of_lt (Nat.sub_le _ _) t.isLt)).2.1 b' q).trans ?_
    rw [show (grid0.coords t 1).val = (v4_bt t.val).val from e9, hS q]
    by_cases hb : b' = v4_bt t.val
    · rw [if_pos ((v4_bv b' _).mpr hb), if_pos (Or.inr ⟨congrArg Fin.val hb, h2⟩)]
      unfold v4_imp
      rw [v4_rowsq V c t (iblk0 V c 2 t) rfl q, hb]
    · rw [if_neg (mt (v4_bv b' _).mp hb), ihW b' q, e_it]
      refine if_congr ?_ rfl rfl
      have hne : b'.val ≠ (t.val / 4) % 4 := fun h => hb (Fin.ext h)
      omega

/-- The invariant holds after every point. -/
theorem v4_inv (c : Dev nD) : ∀ (n : ℕ) (hn : n < cfg0.N), v4_Inv V c n hn
  | 0, hn => v4_stepA V c ⟨0, hn⟩ (Nat.zero_mod _)
  | n + 1, hn => by
    have ih := v4_inv c n (Nat.lt_of_succ_lt hn)
    by_cases h0 : (n + 1) % 16 = 0
    · exact v4_stepA V c ⟨n + 1, hn⟩ h0
    · by_cases h1 : (n + 1) % 4 = 0
      · exact v4_stepB V c ⟨n + 1, hn⟩ h0 h1 ih
      · by_cases h2 : (n + 1) % 4 = 3
        · exact v4_stepD V c ⟨n + 1, hn⟩ h2 ih
        · exact v4_stepC V c ⟨n + 1, hn⟩ h1 h2 ih

/-- At the last point of a neuron tile all four rows of the impacts block are finished. -/
theorem v4_last (c : Dev nD) (t : Fin cfg0.N) (ht : t.val % 16 = 15) (b' : Fin 4) (q : Fin 512) :
    (dat0 (F := Ideal) V c).after 4 t (ix2 b' q)
      = impact (n := 5632) (V c main_arg0) (V c main_v0) (V c main_v1) b'
          ⟨(t.val / 16) * 512 + q.val, by have := lt_of_lt_of_eq t.isLt N_0; have := q.isLt; omega⟩ := by
  have hN : t.val < 176 := lt_of_lt_of_eq t.isLt N_0
  rw [after0_4, (v4_inv V c t.val t.isLt).2 b' q, if_pos (by have := b'.isLt; omega), v4_imp_eq]
  exact congrArg _ (Fin.ext (by show (t.val / 16 % 11) * 512 + q.val = (t.val / 16) * 512 + q.val; omega))

/-! ## From the blocks to the array -/

/-- The impacts as one function of the whole arrays. -/
abbrev v4_G (c : Dev nD) : S4x5632.Idx → EReal :=
  fun i => impact (n := 5632) (V c main_arg0) (V c main_v0) (V c main_v1) (i 0) (i 1)

/-- What a point that writes the impacts block back writes: by then all four rows are finished, and the block is the
    block of the impacts at neuron tile `t / 16`. -/
theorem v4_flushed (c : Dev nD) (t : Fin cfg0.N) (hf : (cfg0.win 4).flush t = true) :
    (dat0 V c).flushed 4 t = ((cfg0.win 4).blk t).view.read (Elt Ideal) (v4_G V c) := by
  have h15 : t.val % 16 = 15 := (flush0_4 t).mp hf
  have hN : t.val < 176 := lt_of_lt_of_eq t.isLt N_0
  obtain ⟨-, -, -, -, -, -, -, e7, e8, -⟩ := v4_idx t
  show (cfg0.win 4).cut (grid0.coords t) ((dat0 V c).after 4 t) = _
  rw [after0_4]
  funext y
  obtain ⟨b', q, rfl⟩ : ∃ (b' : Fin 4) (q : Fin 512), y = ix2 b' q := ⟨y 0, y 1, eq_ix2 y⟩
  rw [View.read_apply]
  show (outsAt0 V c t.val t.isLt).2.1 (ix2 b' q) = _
  rw [(v4_inv V c t.val t.isLt).2 b' q, if_pos (by have := b'.isLt; omega), v4_imp_eq]
  show _ = impact (n := 5632) (V c main_arg0) (V c main_v0) (V c main_v1) _ _
  refine congrArg₂ (impact (n := 5632) (V c main_arg0) (V c main_v0) (V c main_v1)) (Fin.ext ?_) (Fin.ext ?_)
  · show b'.val = win0_4.index t (0 : Fin 2) * 4 + 1 * b'.val; omega
  · show (t.val / 16 % 11) * 512 + q.val = win0_4.index t (1 : Fin 2) * 512 + 1 * q.val; omega

/-- Every entry of the impacts array lies in the block of a point that writes back: the last point of its neuron tile. -/
theorem v4_cover (i : S4x5632.Idx) :
    ∃ t : Fin cfg0.N, (cfg0.win 4).flush t = true ∧ i ∈ ((cfg0.win 4).blk t).view.set := by
  have h0 : (i 0).val < 4 := (i 0).isLt
  have h1 : (i 1).val < 5632 := (i 1).isLt
  obtain ⟨t, ht⟩ : ∃ t : Fin cfg0.N, t.val = (i 1).val / 512 * 16 + 15 :=
    ⟨⟨(i 1).val / 512 * 16 + 15, lt_of_lt_of_eq (by omega) N_0.symm⟩, rfl⟩
  obtain ⟨-, -, -, -, -, -, -, e7, e8, -⟩ := v4_idx t
  refine ⟨t, (flush0_4 t).mpr (by omega), ?_⟩
  show i ∈ ((View.whole main_v4_1).slice (win0_4.rect t)).set
  rw [View.set_slice_whole, Rect.mem_set_unit]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 512 ≤ (i 1).val ∧ (i 1).val < win0_4.index t (1 : Fin 2) * 512 + 512; omega

/-- THE IMPACTS ARRAY after region 0: every entry is the impact of its batch element and neuron. -/
theorem arrAt0_4 (c : Dev nD) :
    ((dat0 (F := Ideal) V c).arrAt 4 cfg0.N : S4x5632.Idx → EReal)
      = fun i => impact (n := 5632) (V c main_arg0) (V c main_v0) (V c main_v1) (i 0) (i 1) :=
  (dat0 V c).arrAt_eq_of_cover 4 (v4_G V c) (fun t hf => v4_flushed V c t hf) v4_cover

end Cert.KernelIdeal.Hand

end
-- ==== Proof.KI.R1Pieces.lean ====
/- The down-projection body's stores read back as values: what each control case leaves in the accumulator
   and in the output block is one matmul-accumulate payload of the two input blocks and of what the accumulator
   held — the zero block where the case has just zeroed it. -/
import proofs.«180569_j56959856279853_2_alg».proof.Proof.KI.R1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles start at the origin. -/
theorem hz1 : (![0, 0] : Fin 2 → Nat) = fun _ => 0 := funext fun a => by fin_cases a <;> rfl

/-- At an interior point the accumulator ends at the product of the input blocks added to what it held. -/
theorem sout1_B_0_eq (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S512x2048 .f32) (xs0 : Vec F S512x2048 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz1]
  simp only [View.readAt_eq_ld, harg2.read_unread, harg3.read_unread, harg5.read_unread, View.ld_unit_zero (S := S512x512) hz1, View.ld_unit_zero (S := S512x2048) hz1]

/-- At the reduction's first point the accumulator is zeroed and read back, so it ends at the product of the
    input blocks added to the zero block. -/
theorem sout1_A_0_eq (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S512x2048 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S512x2048) hz1, View.readCov_unit_zero (S := S512x2048) _ hz1]
  simp only [View.readAt_eq_ld, harg2.read_unread, harg3.read_unread, View.ld_unit_zero (S := S512x512) hz1, View.ld_unit_zero (S := S512x2048) hz1]

/-- At the reduction's last point the accumulator ends as at an interior point, -/
theorem sout1_C_0_eq (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.ld_unit_zero (S := S512x512) hz1, View.ld_unit_zero (S := S512x2048) hz1]

/-- and the output block is stored from a read-back of it: the same contents. -/
theorem out1_C_2_eq (c : Dev nD) (i : grid1.Coords) (arg2 : Memref sig .tc .vmem S512x512 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S512x2048 .f32) (xs0 : Vec F S512x2048 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1, View.readCov_unit_zero (S := S512x2048) _ hz1]
  simp only [View.readAt_eq_ld, harg2.read_unread, harg3.read_unread, harg5.read_unread, View.ld_unit_zero (S := S512x512) hz1, View.ld_unit_zero (S := S512x2048) hz1]

section Entry
-- the TensorCore's buffer contents when the region is entered
variable (V : (c : Dev nD) → (b : Ref sig .tc) → Buf (Elt F) ((c : Thread nD τ).loc b))

/-! ## The accumulation, point by point, over the payloads -/

/-- After a point where the reduction coordinate is 0 the accumulator holds the product of that point's input
    blocks added to the zero block. -/
theorem outsAt1_acc_first (c : Dev nD) (t : Fin cfg1.N) (h0 : t.val % 11 = 0) :
    (outsAt1 V c t.val t.isLt).2 = k1_pay2 (iblk1 V c 0 t) (iblk1 V c 1 t) (k1_pay1 (F := F)) := by
  have h1 : ¬t.val % 11 = 10 := by omega
  rw [outsAt1_A V c t h0 h1]
  dsimp only
  exact sout1_A_0_eq c (grid1.coords t) (ms1_0 t) (hs1_0 t) (ms1_1 t) (hs1_1 t) (ms1_2 t) (hs1_2 t) scM1 (Memref.isWhole_whole _) _ _ (iblk1 V c 0 t) (iblk1 V c 1 t)

/-- After any other point it holds the product of that point's input blocks added to what the point before left. -/
theorem outsAt1_acc_next (c : Dev nD) (t : Fin cfg1.N) (h0 : ¬t.val % 11 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 11 = 10
  · rw [outsAt1_C V c t h0 h1]
    dsimp only
    exact sout1_C_0_eq c (grid1.coords t) (ms1_0 t) (hs1_0 t) (ms1_1 t) (hs1_1 t) (ms1_2 t) (hs1_2 t) scM1 (Memref.isWhole_whole _) _ _ (iblk1 V c 0 t) (iblk1 V c 1 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) scM1 (Memref.isWhole_whole _) _ _ (iblk1 V c 0 t) (iblk1 V c 1 t) (outsAt1 V c (t.val - 1) (Nat.lt_of_le_of_lt (Nat.sub_le _ _) t.isLt)).2

/-- After a point where the reduction coordinate is 10 the output block holds the same as the accumulator. -/
theorem outsAt1_out_last (c : Dev nD) (t : Fin cfg1.N) (h1 : t.val % 11 = 10) :
    (outsAt1 V c t.val t.isLt).1 = k1_pay2 (iblk1 V c 0 t) (iblk1 V c 1 t) (outsAt1 V c (t.val - 1) (Nat.lt_of_le_of_lt (Nat.sub_le _ _) t.isLt)).2 := by
  have h0 : ¬t.val % 11 = 0 := by omega
  rw [outsAt1_C V c t h0 h1]
  dsimp only
  exact out1_C_2_eq c (grid1.coords t) (ms1_0 t) (hs1_0 t) (ms1_1 t) (hs1_1 t) (ms1_2 t) (hs1_2 t) scM1 (Memref.isWhole_whole _) _ _ (iblk1 V c 0 t) (iblk1 V c 1 t) (outsAt1 V c (t.val - 1) (Nat.lt_of_le_of_lt (Nat.sub_le _ _) t.isLt)).2

end Entry

end Cert.KernelIdeal.Hand

end
-- ==== Proof.KI.R1Val.lean ====
/- The down projection read as a value over the extended reals: the result array after the second pallas_call
   is the flat contraction of the [8192, 5632] intermediate against the [5632, 2048] down-projection weights.
   The 176 grid points are 16 row blocks of 512 rows times 11 tiles of 512 neurons; along a row block the
   accumulator starts from the zero block and gains one tile's contribution per point, and at the eleventh point
   the sum of the eleven tiles — the whole contraction over the 5632 neurons — is written to the row block. -/
import proofs.«180569_j56959856279853_2_alg».proof.Proof.KI.R1Pieces
import proofs.«180569_j56959856279853_2_alg».proof.Proof.KI.Pay
import proofs.«180569_j56959856279853_2_alg».proof.Proof.Spec
import proofs.«180569_j56959856279853_2_alg».proof.Proof.Pad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! ## Entries and tiles -/

/-- Entry (a, b) of a matrix, zero off it: so that a tile's entries are written with plain natural-number
    coordinates. -/
def entry1 {R C : ℕ} (X : (⟨2, ![R, C]⟩ : Shape).Idx → EReal) (a b : ℕ) : EReal :=
  if h : a < R ∧ b < C then X (ix2 ⟨a, h.1⟩ ⟨b, h.2⟩) else 0

/-- The contribution of the `it`-th tile of 512 neurons to entry (mt·512 + r, h) of the product A·B. -/
def tile1 (A : S8192x5632.Idx → EReal) (B : S5632x2048.Idx → EReal) (mt it : ℕ) (r : Fin 512) (h : Fin 2048) : EReal :=
  ∑ k : Fin 512, entry1 A (mt * 512 + r.val) (it * 512 + k.val) * entry1 B (it * 512 + k.val) h.val

/-- The body's matmul-accumulate payload, on blocks that are the (mt, it) block of A and the it-th row block
    of B, adds that tile's contribution to what the accumulator held. -/
theorem k1pay2_tile (A : S8192x5632.Idx → EReal) (B : S5632x2048.Idx → EReal) (mt it : ℕ)
    (X0 : Vec Ideal S512x512 .bf16) (X1 : Vec Ideal S512x2048 .f32) (C : Vec Ideal S512x2048 .f32)
    (h0 : ∀ r k : Fin 512, X0 (ix2 r k) = entry1 A (mt * 512 + r.val) (it * 512 + k.val))
    (h1 : ∀ (k : Fin 512) (h : Fin 2048), X1 (ix2 k h) = entry1 B (it * 512 + k.val) h.val)
    (r : Fin 512) (h : Fin 2048) :
    k1_pay2 (F := Ideal) X0 X1 C (ix2 r h) = C (ix2 r h) + tile1 A B mt it r h := by
  rw [Pay.k1pay2_apply]
  unfold tile1
  refine congrArg (C (ix2 r h) + ·) (Finset.sum_congr rfl fun k _ => ?_)
  rw [h0, h1]

/-- Eleven tiles make the whole contraction over the 5632 neurons. -/
theorem tiles1_eq_flat (A : S8192x5632.Idx → EReal) (B : S5632x2048.Idx → EReal) (mt : ℕ) (hmt : mt < 16)
    (r : Fin 512) (h : Fin 2048) :
    ∑ i' ∈ Finset.range 11, tile1 A B mt i' r h
      = Cert.Swiglu.flat (n := 5632) A B ⟨mt * 512 + r.val, by have := r.isLt; omega⟩ h := by
  unfold Cert.Swiglu.flat
  rw [Cert.Swiglu.sum_neuron_tiles, Finset.sum_range]
  refine Finset.sum_congr rfl fun i _ => ?_
  unfold tile1
  refine Finset.sum_congr rfl fun k _ => ?_
  have hi := i.isLt; have hk := k.isLt; have hr := r.isLt
  unfold entry1
  rw [dif_pos ⟨by omega, by omega⟩, dif_pos ⟨by omega, h.isLt⟩]

section Entry
variable (V : (c : Dev nD) → (b : Ref sig .tc) → Buf (Elt Ideal) ((c : Thread nD τ).loc b))

/-! ## The blocks of the windows -/

/-- The printed index maps over the grid: point t = 11·mt + it reads block (mt, it) of the intermediate and row
    block it of the weights, and writes row block mt of the result. -/
theorem idx1_facts : ∀ t : Fin cfg1.N, win1_0.index t (0 : Fin 2) = t.val / 11 ∧ win1_0.index t (1 : Fin 2) = t.val % 11
    ∧ win1_1.index t (0 : Fin 2) = t.val % 11 ∧ win1_1.index t (1 : Fin 2) = 0
    ∧ win1_2.index t (0 : Fin 2) = t.val / 11 ∧ win1_2.index t (1 : Fin 2) = 0 :=
  (by decide +kernel : ∀ t : Fin grid1.N, _)

/-- The intermediate's block at point t, entry by entry. -/
theorem iblk1_0_apply (c : Dev nD) (t : Fin cfg1.N) (x : S512x512.Idx) (k : S8192x5632.Idx)
    (hk0 : (k 0).val = t.val / 11 * 512 + (x 0).val) (hk1 : (k 1).val = t.val % 11 * 512 + (x 1).val) :
    (iblk1 V c 0 t : Vec Ideal S512x512 .bf16) x = (V c main_v6 : S8192x5632.Idx → EReal) k := by
  obtain ⟨e0, e1, -⟩ := idx1_facts t
  unfold iblk1
  rw [View.read_apply]
  show V c main_v6 _ = V c main_v6 _
  congr 1
  funext a
  apply Fin.ext
  match a with
  | ⟨0, _⟩ => show win1_0.index t (0 : Fin 2) * 512 + 1 * (x 0).val = (k 0).val; rw [e0, hk0]; omega
  | ⟨1, _⟩ => show win1_0.index t (1 : Fin 2) * 512 + 1 * (x 1).val = (k 1).val; rw [e1, hk1]; omega

/-- The weights' row block at point t, entry by entry. -/
theorem iblk1_1_apply (c : Dev nD) (t : Fin cfg1.N) (x : S512x2048.Idx) (k : S5632x2048.Idx)
    (hk0 : (k 0).val = t.val % 11 * 512 + (x 0).val) (hk1 : (k 1).val = (x 1).val) :
    (iblk1 V c 1 t : Vec Ideal S512x2048 .f32) x = (V c main_v3 : S5632x2048.Idx → EReal) k := by
  obtain ⟨-, -, e0, e1, -⟩ := idx1_facts t
  unfold iblk1
  rw [View.read_apply]
  show V c main_v3 _ = V c main_v3 _
  congr 1
  funext a
  apply Fin.ext
  match a with
  | ⟨0, _⟩ => show win1_1.index t (0 : Fin 2) * 512 + 1 * (x 0).val = (k 0).val; rw [e0, hk0]; omega
  | ⟨1, _⟩ => show win1_1.index t (1 : Fin 2) * 2048 + 1 * (x 1).val = (k 1).val; rw [e1, hk1]; omega

/-- The same with the entries' coordinates as natural numbers. -/
theorem iblk1_0_entry (c : Dev nD) (t : Fin cfg1.N) (r k : Fin 512) :
    (iblk1 V c 0 t : Vec Ideal S512x512 .bf16) (ix2 r k)
      = entry1 (V c main_v6 : S8192x5632.Idx → EReal) (t.val / 11 * 512 + r.val) (t.val % 11 * 512 + k.val) := by
  have hN : t.val < 176 := lt_of_lt_of_eq t.isLt (show cfg1.N = 176 from N_1)
  have hr := r.isLt; have hk := k.isLt
  unfold entry1
  rw [dif_pos ⟨by omega, by omega⟩]
  exact iblk1_0_apply V c t (ix2 r k) _ rfl rfl

theorem iblk1_1_entry (c : Dev nD) (t : Fin cfg1.N) (k : Fin 512) (h : Fin 2048) :
    (iblk1 V c 1 t : Vec Ideal S512x2048 .f32) (ix2 k h)
      = entry1 (V c main_v3 : S5632x2048.Idx → EReal) (t.val % 11 * 512 + k.val) h.val := by
  have hN : t.val < 176 := lt_of_lt_of_eq t.isLt (show cfg1.N = 176 from N_1)
  have hk := k.isLt
  unfold entry1
  rw [dif_pos ⟨by omega, h.isLt⟩]
  exact iblk1_1_apply V c t (ix2 k h) _ rfl rfl

/-! ## The accumulator after each point -/

/-- After point n = 11·mt + it the accumulator holds at (r, h) the contributions of the tiles 0 … it to entry
    (mt·512 + r, h) of the product: the first point of a row block starts from the zero block, each later one adds
    its tile to what the point before left. -/
theorem acc1_inv (c : Dev nD) : ∀ (n : ℕ) (hn : n < cfg1.N) (r : Fin 512) (h : Fin 2048),
    (outsAt1 V c n hn).2 (ix2 r h) = ∑ i' ∈ Finset.range (n % 11 + 1), tile1 (V c main_v6 : S8192x5632.Idx → EReal) (V c main_v3 : S5632x2048.Idx → EReal) (n / 11) i' r h
  | 0, hn, r, h => by
    rw [outsAt1_acc_first V c ⟨0, hn⟩ (Nat.zero_mod _)]
    rw [k1pay2_tile (V c main_v6 : S8192x5632.Idx → EReal) (V c main_v3 : S5632x2048.Idx → EReal) (0 / 11) (0 % 11) (iblk1 V c 0 ⟨0, hn⟩) (iblk1 V c 1 ⟨0, hn⟩) _ (iblk1_0_entry V c ⟨0, hn⟩) (iblk1_1_entry V c ⟨0, hn⟩) r h]
    rw [Pay.k1pay1_apply, zero_add]
    simp only [Nat.zero_mod, Nat.zero_div, Nat.zero_add, Finset.sum_range_one]
  | n + 1, hn, r, h => by
    by_cases h0 : (n + 1) % 11 = 0
    · rw [outsAt1_acc_first V c ⟨n + 1, hn⟩ h0]
      rw [k1pay2_tile (V c main_v6 : S8192x5632.Idx → EReal) (V c main_v3 : S5632x2048.Idx → EReal) ((n + 1) / 11) ((n + 1) % 11) (iblk1 V c 0 ⟨n + 1, hn⟩) (iblk1 V c 1 ⟨n + 1, hn⟩) _ (iblk1_0_entry V c ⟨n + 1, hn⟩) (iblk1_1_entry V c ⟨n + 1, hn⟩) r h]
      rw [Pay.k1pay1_apply, zero_add, h0]
      simp only [Nat.zero_add, Finset.sum_range_one]
    · rw [outsAt1_acc_next V c ⟨n + 1, hn⟩ h0]
      rw [k1pay2_tile (V c main_v6 : S8192x5632.Idx → EReal) (V c main_v3 : S5632x2048.Idx → EReal) ((n + 1) / 11) ((n + 1) % 11) (iblk1 V c 0 ⟨n + 1, hn⟩) (iblk1 V c 1 ⟨n + 1, hn⟩) _ (iblk1_0_entry V c ⟨n + 1, hn⟩) (iblk1_1_entry V c ⟨n + 1, hn⟩) r h]
      have e1 : (n + 1) / 11 = n / 11 := by omega
      have e2 : (n + 1) % 11 = n % 11 + 1 := by omega
      rw [e1, e2, Finset.sum_range_succ]
      show (outsAt1 V c n _).2 (ix2 r h) + _ = _
      rw [acc1_inv c n (Nat.lt_of_succ_lt hn) r h]

/-- At the last point of a row block the output block holds all eleven tiles' contributions. -/
theorem out1_last_val (c : Dev nD) (t : Fin cfg1.N) (h10 : t.val % 11 = 10) (r : Fin 512) (h : Fin 2048) :
    (outsAt1 V c t.val t.isLt).1 (ix2 r h) = ∑ i' ∈ Finset.range 11, tile1 (V c main_v6 : S8192x5632.Idx → EReal) (V c main_v3 : S5632x2048.Idx → EReal) (t.val / 11) i' r h := by
  rw [outsAt1_out_last V c t h10]
  rw [k1pay2_tile (V c main_v6 : S8192x5632.Idx → EReal) (V c main_v3 : S5632x2048.Idx → EReal) (t.val / 11) (t.val % 11) (iblk1 V c 0 t) (iblk1 V c 1 t) _ (iblk1_0_entry V c t) (iblk1_1_entry V c t) r h]
  rw [acc1_inv V c (t.val - 1) (Nat.lt_of_le_of_lt (Nat.sub_le _ _) t.isLt) r h]
  have e1 : (t.val - 1) / 11 = t.val / 11 := by omega
  have e2 : (t.val - 1) % 11 + 1 = 10 := by omega
  rw [e1, e2, h10, ← Finset.sum_range_succ]

/-! ## From the blocks to the array -/

/-- The whole result array: the flat contraction of the intermediate against the down-projection weights. -/
abbrev G1 (c : Dev nD) : S8192x2048.Idx → EReal :=
  fun i => Cert.Swiglu.flat (n := 5632) (V c main_v6) (V c main_v3) (i 0) (i 1)

/-- What a point that writes back writes is its block of the whole result. -/
theorem flushed1_2_eq (c : Dev nD) (t : Fin cfg1.N) (hf : (cfg1.win 2).flush t = true) :
    (dat1 V c).flushed 2 t = ((cfg1.win 2).blk t).view.read (Elt Ideal) (G1 V c) := by
  have h10 : t.val % 11 = 10 := (flush1_2 t).mp hf
  have hN : t.val < 176 := lt_of_lt_of_eq t.isLt (show cfg1.N = 176 from N_1)
  obtain ⟨-, -, -, -, e0, e1⟩ := idx1_facts t
  show (cfg1.win 2).cut (grid1.coords t) ((dat1 V c).after 2 t) = _
  rw [after1_2]
  funext j
  show (outsAt1 V c t.val t.isLt).1 j = G1 V c (((cfg1.win 2).blk t).view.emb j)
  refine (congrArg (outsAt1 V c t.val t.isLt).1 (eq_ix2 (n0 := 512) (n1 := 2048) j)).trans ?_
  refine (out1_last_val V c t h10 (j 0) (j 1)).trans ?_
  refine (tiles1_eq_flat _ _ _ (by omega) (j 0) (j 1)).trans ?_
  have hj0 : (j 0).val < 512 := (j 0).isLt
  have f0 : (⟨t.val / 11 * 512 + (j 0).val, by omega⟩ : Fin 8192) = (((cfg1.win 2).blk t).view.emb j) 0 :=
    Fin.ext (by show t.val / 11 * 512 + (j 0).val = win1_2.index t (0 : Fin 2) * 512 + 1 * (j 0).val; rw [e0]; omega)
  have f1 : (j 1 : Fin 2048) = (((cfg1.win 2).blk t).view.emb j) 1 :=
    Fin.ext (by show (j 1).val = win1_2.index t (1 : Fin 2) * 2048 + 1 * (j 1).val; rw [e1]; omega)
  show Cert.Swiglu.flat (n := 5632) _ _ _ _ = Cert.Swiglu.flat (n := 5632) _ _ ((((cfg1.win 2).blk t).view.emb j) 0) ((((cfg1.win 2).blk t).view.emb j) 1)
  rw [← f0, ← f1]

/-- An index of the result array is in point t's block iff each coordinate is in the block's range. -/
theorem mem_blk1_2 (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v7).slice (win1_2.rect t)).set ↔ _
  rw [View.set_slice_whole, Rect.mem_set_unit]
  exact Iff.rfl

/-- THE RESULT ARRAY after the run: every row lies in the block written back at the last point of its row block,
    so the array is the flat contraction throughout. -/
theorem arrAt1_2 (c : Dev nD) :
    ((dat1 (F := Ideal) V c).arrAt 2 cfg1.N : S8192x2048.Idx → EReal)
      = fun i => Cert.Swiglu.flat (n := 5632) (V c main_v6) (V c main_v3) (i 0) (i 1) :=
  (dat1 V c).arrAt_eq_of_cover 2 (G1 V c) (flushed1_2_eq V c) fun i => by
    have hi0 : (i 0).val < 8192 := (i 0).isLt
    have hi1 : (i 1).val < 2048 := (i 1).isLt
    have hN : cfg1.N = 176 := N_1
    have ht : (i 0).val / 512 * 11 + 10 < cfg1.N := by omega
    obtain ⟨-, -, -, -, e0, e1⟩ := idx1_facts ⟨(i 0).val / 512 * 11 + 10, ht⟩
    refine ⟨⟨(i 0).val / 512 * 11 + 10, ht⟩, (flush1_2 _).mpr (by dsimp only; omega), ?_⟩
    rw [mem_blk1_2]
    intro a
    match a with
    | ⟨0, _⟩ =>
      show win1_2.index ⟨(i 0).val / 512 * 11 + 10, ht⟩ (0 : Fin 2) * 512 ≤ (i 0).val ∧ (i 0).val < win1_2.index ⟨(i 0).val / 512 * 11 + 10, ht⟩ (0 : Fin 2) * 512 + 512
      rw [e0]; dsimp only; omega
    | ⟨1, _⟩ =>
      show win1_2.index ⟨(i 0).val / 512 * 11 + 10, ht⟩ (1 : Fin 2) * 2048 ≤ (i 1).val ∧ (i 1).val < win1_2.index ⟨(i 0).val / 512 * 11 + 10, ht⟩ (1 : Fin 2) * 2048 + 2048
      rw [e1]; omega

end Entry

end Cert.KernelIdeal.Hand

end
-- ==== Proof.KI.HostReads.lean ====
/-
  The tiled program's host operations read at an index.

  Around its two regions the program extends the gate and up weight matrices by 128 zero rows and the down-projection
  matrix by 128 zero columns (the fill value is the integer zero converted to a float, which is the real number zero),
  transposes the extended down-projection matrix, keeps the first 5504 columns of the impacts, and passes between the
  [4, 2048, ·] arrays and their flattened [8192, ·] forms, row (b, s) being row b · 2048 + s.
-/
import proofs.«180569_j56959856279853_2_alg».proof.Proof.Gen.KernelIdeal.Launch
import Idealize.ShloMosaic.Lib.ValueIdx
import Idealize.ShloMosaic.Lib.Pipeline.Value
import Idealize.ShloMosaic.Lib.KernelVsHost

noncomputable section

namespace Cert.KernelIdeal.HostReads

open Cert.KernelIdeal Cert.KernelIdeal.Gen
open Idealize.ShloMosaic Idealize.ShloMosaic.ValueIdx

/-- The fill value of the extensions: the integer zero, converted, is the real number zero. -/
theorem padZero_apply (i : S_.Idx) :
    (sitofp (F := Ideal) .f32 (constantI S_ 32 0#32) : (⟨S_, .f32⟩ : BufTy).Contents (Elt Ideal)) i = 0 := by
  show (((0#32 : BitVec 32).toInt : ℝ) : EReal) = 0
  simp

/-- The weight rows extended from 5504 to 5632: row j is the operand's row j below 5504 and the fill value from there on. -/
theorem pad_rows_apply (x : S5504x2048.Idx → EReal) (v : S_.Idx → EReal) (j : Fin 5632) (h : Fin 2048) :
    pad S5632x2048 ![0, 0] ![128, 0] ![0, 0] x v pads_S5504x2048_S5632x2048_01280_000 h_S_ (ix2 j h)
      = if hj : j.val < 5504 then x (ix2 ⟨j.val, hj⟩ h) else v ix0 := by
  by_cases hj : j.val < 5504
  · rw [dif_pos hj]
    exact pad_apply_of_inside _ _ _ x v _ _ (ix2 j h) (ix2 ⟨j.val, hj⟩ h) fun a => match a with
      | ⟨0, _⟩ => by show j.val = 0 + j.val * (0 + 1); omega
      | ⟨1, _⟩ => by show h.val = 0 + h.val * (0 + 1); omega
  · rw [dif_neg hj]
    refine (pad_apply_of_not_inside _ _ _ x v _ _ (ix2 j h) (0 : Fin 2) fun hc => hj ?_).trans (congrArg v (eq_ix0 _))
    have h2 : (j.val - 0) / (0 + 1) < 5504 := hc.2.2
    omega

/-- The down-projection columns extended from 5504 to 5632. -/
theorem pad_cols_apply (x : S2048x5504.Idx → EReal) (v : S_.Idx → EReal) (h : Fin 2048) (j : Fin 5632) :
    pad S2048x5632 ![0, 0] ![0, 128] ![0, 0] x v pads_S2048x5504_S2048x5632_000_01280 h_S_ (ix2 h j)
      = if hj : j.val < 5504 then x (ix2 h ⟨j.val, hj⟩) else v ix0 := by
  by_cases hj : j.val < 5504
  · rw [dif_pos hj]
    exact pad_apply_of_inside _ _ _ x v _ _ (ix2 h j) (ix2 h ⟨j.val, hj⟩) fun a => match a with
      | ⟨0, _⟩ => by show h.val = 0 + h.val * (0 + 1); omega
      | ⟨1, _⟩ => by show j.val = 0 + j.val * (0 + 1); omega
  · rw [dif_neg hj]
    refine (pad_apply_of_not_inside _ _ _ x v _ _ (ix2 h j) (1 : Fin 2) fun hc => hj ?_).trans (congrArg v (eq_ix0 _))
    have h2 : (j.val - 0) / (0 + 1) < 5504 := hc.2.2
    omega

/-- The transposed extended down-projection matrix: entry (j, h) is the operand's entry (h, j). -/
theorem transpose_wd_apply (x : S2048x5632.Idx → EReal) (j : Fin 5632) (h : Fin 2048) :
    transpose S5632x2048 [1, 0] x transposes_S2048x5632_S5632x2048_1_0 (ix2 j h) = x (ix2 h j) :=
  transpose_apply [1, 0] x _ (ix2 j h) (ix2 h j) fun b => match b with
    | ⟨0, _⟩ => rfl
    | ⟨1, _⟩ => rfl

/-- The impacts cut back to the first 5504 neurons. -/
theorem slice_imp_apply (x : S4x5632.Idx → EReal) (b : Fin 4) (j : Fin 5504) :
    extractStridedSlice S4x5504 ![0, 0] x slices_S4x5632_S4x5504_0_0 (ix2 b j)
      = x (ix2 b ⟨j.val, by have := j.isLt; omega⟩) :=
  extractStridedSlice_apply ![0, 0] x _ (ix2 b j) (ix2 b ⟨j.val, by have := j.isLt; omega⟩) fun a => match a with
    | ⟨0, _⟩ => by show b.val = 0 + b.val; omega
    | ⟨1, _⟩ => by show j.val = 0 + j.val; omega

/-- The intermediate flattened to [8192, 5632]: row b · 2048 + s is row (b, s). -/
theorem flatten_apply (x : S4x2048x5632.Idx → EReal) (b : Fin 4) (s : Fin 2048) (j : Fin 5632) :
    shapeCast S8192x5632 x shapeCasts_S4x2048x5632_S8192x5632
        (ix2 ⟨b.val * 2048 + s.val, by have := b.isLt; have := s.isLt; omega⟩ j)
      = x (ix3 b s j) := by
  refine shapeCast_apply x _ _ (ix3 b s j) ?_
  rw [Shape.rowMajor_val_three, Shape.rowMajor_val_two]
  rfl

/-- The flat [8192, 2048] result reshaped to [4, 2048, 2048]: row (b, s) is row b · 2048 + s. -/
theorem unflatten_apply (y : S8192x2048.Idx → EReal) (b : Fin 4) (s h : Fin 2048) :
    shapeCast S4x2048x2048 y shapeCasts_S8192x2048_S4x2048x2048 (ix3 b s h)
      = y (ix2 ⟨b.val * 2048 + s.val, by have := b.isLt; have := s.isLt; omega⟩ h) := by
  refine shapeCast_apply y _ _ (ix2 ⟨b.val * 2048 + s.val, by have := b.isLt; have := s.isLt; omega⟩ h) ?_
  rw [Shape.rowMajor_val_three, Shape.rowMajor_val_two]
  rfl

end Cert.KernelIdeal.HostReads

end
-- ==== Proof.KI.HostAlgebra.lean ====
/-
  The host operations around the two regions, composed with the regions' whole-array values.

  With the weights extended by a fill value that is zero, the second region's flat product of the flattened
  intermediate with the transposed extended down-projection matrix, reshaped to [4, 2048, 2048], is the down projection
  over the original 5504 neurons; and the first region's impacts over 5632 neurons, cut back to the first 5504, are the
  impacts over the original weights.
-/
import proofs.«180569_j56959856279853_2_alg».proof.Proof.KI.HostReads
import proofs.«180569_j56959856279853_2_alg».proof.Proof.Pad
import proofs.«180569_j56959856279853_2_alg».proof.Proof.Spec

noncomputable section

namespace Cert.KernelIdeal.HostReads

open Cert.KernelIdeal Cert.KernelIdeal.Gen
open Idealize.ShloMosaic Idealize.ShloMosaic.ValueIdx Cert.Swiglu
open scoped BigOperators

section
variable (x0 : S4x2048x2048.Idx → EReal) (x1 x2 : S5504x2048.Idx → EReal) (x3 : S2048x5504.Idx → EReal)
  (v : S_.Idx → EReal) (hv : ∀ i, v i = 0)

/-- A weight matrix extended by rows agrees with the original below row 5504. -/
theorem rows_inside (x : S5504x2048.Idx → EReal) (j : Fin 5632) (hj : j.val < 5504) (h : Fin 2048) :
    pad S5632x2048 ![0, 0] ![128, 0] ![0, 0] x v pads_S5504x2048_S5632x2048_01280_000 h_S_ (ix2 j h)
      = x (ix2 ⟨j.val, hj⟩ h) := by
  rw [pad_rows_apply, dif_pos hj]

/-- The down-projection matrix extended by columns agrees with the original below column 5504 … -/
theorem cols_inside (h : Fin 2048) (j : Fin 5632) (hj : j.val < 5504) :
    pad S2048x5632 ![0, 0] ![0, 128] ![0, 0] x3 v pads_S2048x5504_S2048x5632_000_01280 h_S_ (ix2 h j)
      = x3 (ix2 h ⟨j.val, hj⟩) := by
  rw [pad_cols_apply, dif_pos hj]

include hv in
/-- … and is zero from there on. -/
theorem cols_outside (h : Fin 2048) (j : Fin 5632) (hj : 5504 ≤ j.val) :
    pad S2048x5632 ![0, 0] ![0, 128] ![0, 0] x3 v pads_S2048x5504_S2048x5632_000_01280 h_S_ (ix2 h j) = 0 := by
  rw [pad_cols_apply, dif_neg (Nat.not_lt.2 hj), hv]

include hv in
/-- The first result. -/
theorem out_host :
    shapeCast S4x2048x2048
        (fun i : S8192x2048.Idx => flat (n := 5632)
          (shapeCast S8192x5632
            (fun i : S4x2048x5632.Idx => act (n := 5632) x0
              (pad S5632x2048 ![0, 0] ![128, 0] ![0, 0] x1 v pads_S5504x2048_S5632x2048_01280_000 h_S_)
              (pad S5632x2048 ![0, 0] ![128, 0] ![0, 0] x2 v pads_S5504x2048_S5632x2048_01280_000 h_S_) (i 0) (i 1) (i 2))
            shapeCasts_S4x2048x5632_S8192x5632)
          (transpose S5632x2048 [1, 0]
            (pad S2048x5632 ![0, 0] ![0, 128] ![0, 0] x3 v pads_S2048x5504_S2048x5632_000_01280 h_S_)
            transposes_S2048x5632_S5632x2048_1_0) (i 0) (i 1))
        shapeCasts_S8192x2048_S4x2048x2048
      = fun i => down (n := 5504) x0 x1 x2 x3 (i 0) (i 1) (i 2) := by
  funext i
  obtain ⟨b, s, h, rfl⟩ : ∃ (b : Fin 4) (s h : Fin 2048), i = ix3 b s h := ⟨i 0, i 1, i 2, eq_ix3 i⟩
  rw [unflatten_apply]
  show flat (n := 5632) _ _ ⟨b.val * 2048 + s.val, _⟩ h = down (n := 5504) x0 x1 x2 x3 b s h
  rw [← down_pad x0 x1 x2 x3 _ _ _ (rows_inside v x1) (rows_inside v x2) (cols_inside x3 v) (cols_outside x3 v hv) b s h]
  unfold flat down
  refine Finset.sum_congr rfl fun j _ => ?_
  exact (congrArg₂ (· * ·) (flatten_apply _ b s j) (transpose_wd_apply _ j h)).trans rfl

/-- The second result. -/
theorem imp_host :
    extractStridedSlice S4x5504 ![0, 0]
        (fun i : S4x5632.Idx => impact (n := 5632) x0
          (pad S5632x2048 ![0, 0] ![128, 0] ![0, 0] x1 v pads_S5504x2048_S5632x2048_01280_000 h_S_)
          (pad S5632x2048 ![0, 0] ![128, 0] ![0, 0] x2 v pads_S5504x2048_S5632x2048_01280_000 h_S_) (i 0) (i 1))
        slices_S4x5632_S4x5504_0_0
      = fun i => impact (n := 5504) x0 x1 x2 (i 0) (i 1) := by
  funext i
  obtain ⟨b, j, rfl⟩ : ∃ (b : Fin 4) (j : Fin 5504), i = ix2 b j := ⟨i 0, i 1, eq_ix2 i⟩
  rw [slice_imp_apply]
  exact impact_pad x0 x1 x2 _ _ (rows_inside v x1) (rows_inside v x2) b ⟨j.val, _⟩ j.isLt

end

end Cert.KernelIdeal.HostReads

end
-- ==== Proof.KI.Result.lean ====
/-
  The tiled program's two results as the whole-array functions of Spec.lean over the ORIGINAL weights.

  The first result is the second region's flat [8192, 2048] product, reshaped; the second region multiplies the first
  region's intermediate, flattened, with the transposed zero-extended down-projection matrix; the first region's
  intermediate and impacts are those of the zero-extended gate and up weights. The zero extension changes neither.
-/
import proofs.«180569_j56959856279853_2_alg».proof.Proof.KI.Values
import proofs.«180569_j56959856279853_2_alg».proof.Proof.KI.R0Val3
import proofs.«180569_j56959856279853_2_alg».proof.Proof.KI.R0Val4
import proofs.«180569_j56959856279853_2_alg».proof.Proof.KI.R1Val
import proofs.«180569_j56959856279853_2_alg».proof.Proof.KI.HostAlgebra

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

variable (m : (ℓ : Loc nD τ sig) → Buf (Elt Ideal) ℓ) (ρ : Dev nD → PrngReg)

/-- The first result is the down projection over the original 5504 neurons. -/
theorem out_eq (c : Dev nD) :
    (W11 m ρ c (Proc.devRef .tc main_v8) : S4x2048x2048.Idx → EReal)
      = fun i => Cert.Swiglu.down (n := 5504) (m ((c : Thread nD τ).loc main_arg0)) (m ((c : Thread nD τ).loc main_arg1))
          (m ((c : Thread nD τ).loc main_arg2)) (m ((c : Thread nD τ).loc main_arg3)) (i 0) (i 1) (i 2) := by
  rw [W11_v8 m ρ c, arrAt1_2 (V9 m ρ) c, V9_v6 m ρ c, V9_v3 m ρ c, arrAt0_3 (V7 m ρ) c, V7_arg0 m ρ c, V7_v0 m ρ c,
    V7_v1 m ρ c]
  exact HostReads.out_host _ _ _ _ _ HostReads.padZero_apply

/-- The second result is the impacts over the original 5504 neurons. -/
theorem imp_eq (c : Dev nD) :
    (W11 m ρ c (Proc.devRef .tc main_v5) : S4x5504.Idx → EReal)
      = fun i => Cert.Swiglu.impact (n := 5504) (m ((c : Thread nD τ).loc main_arg0)) (m ((c : Thread nD τ).loc main_arg1))
          (m ((c : Thread nD τ).loc main_arg2)) (i 0) (i 1) := by
  rw [W11_v5 m ρ c, arrAt0_4 (V7 m ρ) c, V7_arg0 m ρ c, V7_v0 m ρ c, V7_v1 m ρ c]
  exact HostReads.imp_host _ _ _ _

end Cert.KernelIdeal.Hand

end
-- ==== Proof.RefValue.lean ====
/-
  The plain program's two results as the whole-array functions of Spec.lean.

  The program computes the gate and up projections as two contractions over the hidden axis, the gate's silu as
  g · (1 / (1 + e^(−g))), their product (the intermediate), and contracts the intermediate over the neurons against the
  down-projection rows; the impacts are the square root of the intermediate's energy over the sequence times the squared
  norm of the up-projection row. Read stage by stage at an index these are `lin`, `act`, `down`, `energy`, `rowSq`
  and `impact` at n = 5504.
-/
import proofs.«180569_j56959856279853_2_alg».proof.Proof.Gen.ReferenceIdeal.Read
import proofs.«180569_j56959856279853_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Swiglu
open scoped BigOperators

/-! ## The stages' operand indices, by coordinates -/

theorem lidx_v0 (b : Fin 4) (s : Fin 2048) (j : Fin 5504) (k : Fin 2048) :
    Read.lidx_main_v0 (ix3 b s j) k = ix3 b s k :=
  funext fun a => Fin.ext (by match a with | ⟨0, _⟩ => rfl | ⟨1, _⟩ => rfl | ⟨2, _⟩ => rfl)

theorem ridx_v0 (b : Fin 4) (s : Fin 2048) (j : Fin 5504) (k : Fin 2048) :
    Read.ridx_main_v0 (ix3 b s j) k = ix2 j k :=
  funext fun a => Fin.ext (by match a with | ⟨0, _⟩ => rfl | ⟨1, _⟩ => rfl)

theorem lidx_v2 (b : Fin 4) (s : Fin 2048) (j : Fin 5504) (k : Fin 2048) :
    Read.lidx_main_v2 (ix3 b s j) k = ix3 b s k :=
  funext fun a => Fin.ext (by match a with | ⟨0, _⟩ => rfl | ⟨1, _⟩ => rfl | ⟨2, _⟩ => rfl)

theorem ridx_v2 (b : Fin 4) (s : Fin 2048) (j : Fin 5504) (k : Fin 2048) :
    Read.ridx_main_v2 (ix3 b s j) k = ix2 j k :=
  funext fun a => Fin.ext (by match a with | ⟨0, _⟩ => rfl | ⟨1, _⟩ => rfl)

theorem lidx_v12 (b : Fin 4) (s h : Fin 2048) (k : Fin 5504) :
    Read.lidx_main_v12 (ix3 b s h) k = ix3 b s k :=
  funext fun a => Fin.ext (by match a with | ⟨0, _⟩ => rfl | ⟨1, _⟩ => rfl | ⟨2, _⟩ => rfl)

theorem ridx_v12 (b : Fin 4) (s h : Fin 2048) (k : Fin 5504) :
    Read.ridx_main_v12 (ix3 b s h) k = ix2 h k :=
  funext fun a => Fin.ext (by match a with | ⟨0, _⟩ => rfl | ⟨1, _⟩ => rfl)

/-! ## The projections and the intermediate -/

/-- The gate projection at (b, s, j). -/
theorem gate_apply (x0 : (⟨S4x2048x2048, .f32⟩ : BufTy).Contents (Elt Ideal)) (x1 : (⟨S5504x2048, .f32⟩ : BufTy).Contents (Elt Ideal))
    (b : Fin 4) (s : Fin 2048) (j : Fin 5504) :
    Read.val_main_v0 (F := Ideal) x0 x1 (ix3 b s j) = lin (n := 5504) x0 x1 b s j := by
  rw [Read.val_main_v0_apply]
  unfold lin
  refine Finset.sum_congr rfl fun k _ => ?_
  rw [lidx_v0, ridx_v0]

/-- The up projection at (b, s, j). -/
theorem up_apply (x0 : (⟨S4x2048x2048, .f32⟩ : BufTy).Contents (Elt Ideal)) (x2 : (⟨S5504x2048, .f32⟩ : BufTy).Contents (Elt Ideal))
    (b : Fin 4) (s : Fin 2048) (j : Fin 5504) :
    Read.val_main_v2 (F := Ideal) x0 x2 (ix3 b s j) = lin (n := 5504) x0 x2 b s j := by
  rw [Read.val_main_v2_apply]
  unfold lin
  refine Finset.sum_congr rfl fun k _ => ?_
  rw [lidx_v2, ridx_v2]

/-- The silu of the gate projection at (b, s, j): g · logistic g, the logistic function being 1 / (1 + e^(−g)). -/
theorem silu_apply (x0 : (⟨S4x2048x2048, .f32⟩ : BufTy).Contents (Elt Ideal)) (x1 : (⟨S5504x2048, .f32⟩ : BufTy).Contents (Elt Ideal))
    (b : Fin 4) (s : Fin 2048) (j : Fin 5504) :
    Read.val_main_v1 (F := Ideal) x0 x1 (ix3 b s j)
      = lin (n := 5504) x0 x1 b s j * Ideal.logistic (lin (n := 5504) x0 x1 b s j) := by
  rw [Read.val_main_v1_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, gate_apply]
  simp only [Ideal.mulf_def, Ideal.hostDivf_def, Ideal.addf_def, Ideal.hostUnary_exp_def, Ideal.hostNegf_def, Ideal.negf_def,
    Ideal.ofBits_def, Ideal.ofBits_one_f32]
  rfl

/-- The intermediate at (b, s, j). -/
theorem inter_apply (x0 : (⟨S4x2048x2048, .f32⟩ : BufTy).Contents (Elt Ideal)) (x1 x2 : (⟨S5504x2048, .f32⟩ : BufTy).Contents (Elt Ideal))
    (b : Fin 4) (s : Fin 2048) (j : Fin 5504) :
    Read.val_main_v3 (F := Ideal) x0 x1 x2 (ix3 b s j) = act (n := 5504) x0 x1 x2 b s j := by
  rw [Read.val_main_v3_apply, silu_apply, up_apply]
  rfl

/-! ## The down projection -/

theorem ref_out (x0 : (⟨S4x2048x2048, .f32⟩ : BufTy).Contents (Elt Ideal)) (x1 x2 : (⟨S5504x2048, .f32⟩ : BufTy).Contents (Elt Ideal))
    (x3 : (⟨S2048x5504, .f32⟩ : BufTy).Contents (Elt Ideal)) :
    Read.val_main_v12 (F := Ideal) x0 x1 x2 x3 = fun i => down (n := 5504) x0 x1 x2 x3 (i 0) (i 1) (i 2) := by
  funext i
  obtain ⟨b, s, h, rfl⟩ : ∃ (b : Fin 4) (s h : Fin 2048), i = ix3 b s h := ⟨i 0, i 1, i 2, eq_ix3 i⟩
  rw [Read.val_main_v12_apply]
  show _ = down (n := 5504) x0 x1 x2 x3 b s h
  unfold down
  refine Finset.sum_congr rfl fun k _ => ?_
  rw [lidx_v12, ridx_v12, inter_apply]

/-! ## The impacts -/

theorem idx_v5 (b : Fin 4) (j : Fin 5504) (k : Fin 2048) : Read.idx_main_v5 (ix2 b j) k = ix3 b k j :=
  funext fun a => Fin.ext (by match a with | ⟨0, _⟩ => rfl | ⟨1, _⟩ => rfl | ⟨2, _⟩ => rfl)

theorem idx_v7 (j : Fin 5504) (k : Fin 2048) : Read.idx_main_v7 (ix1 j) k = ix2 j k :=
  funext fun a => Fin.ext (by match a with | ⟨0, _⟩ => rfl | ⟨1, _⟩ => rfl)

theorem idx_v8_v9 (b : Fin 4) (j : Fin 5504) : Read.idx_main_v8 (Read.idx_main_v9 (ix2 b j)) = ix1 j :=
  funext fun a => Fin.ext (by match a with | ⟨0, _⟩ => rfl)

/-- The sum over the sequence of the squared intermediate at (b, j): the float sum starts from the zero word. -/
theorem energy_apply (x0 : (⟨S4x2048x2048, .f32⟩ : BufTy).Contents (Elt Ideal)) (x1 x2 : (⟨S5504x2048, .f32⟩ : BufTy).Contents (Elt Ideal))
    (b : Fin 4) (j : Fin 5504) :
    Read.val_main_v5 (F := Ideal) x0 x1 x2 (ix2 b j) = energy (n := 5504) x0 x1 x2 b j := by
  rw [Read.val_main_v5_apply, Read.val_main_cst_apply, Ideal.ofBits_def, Ideal.ofBits_zero_f32]
  unfold energy
  refine (zero_add _).trans (Finset.sum_congr rfl fun k _ => ?_)
  rw [idx_v5, Read.val_main_v4_apply, inter_apply]
  rfl

/-- The squared norm of row j of the up-projection weights. -/
theorem rowSq_apply (x2 : (⟨S5504x2048, .f32⟩ : BufTy).Contents (Elt Ideal)) (j : Fin 5504) :
    Read.val_main_v7 (F := Ideal) x2 (ix1 j) = rowSq (n := 5504) x2 j := by
  rw [Read.val_main_v7_apply, Read.val_main_cst_0_apply, Ideal.ofBits_def, Ideal.ofBits_zero_f32]
  unfold rowSq
  refine (zero_add _).trans (Finset.sum_congr rfl fun k _ => ?_)
  rw [idx_v7, Read.val_main_v6_apply]
  rfl

theorem ref_imp (x0 : (⟨S4x2048x2048, .f32⟩ : BufTy).Contents (Elt Ideal)) (x1 x2 : (⟨S5504x2048, .f32⟩ : BufTy).Contents (Elt Ideal)) :
    Read.val_main_v11 (F := Ideal) x0 x1 x2 = fun i => impact (n := 5504) x0 x1 x2 (i 0) (i 1) := by
  funext i
  obtain ⟨b, j, rfl⟩ : ∃ (b : Fin 4) (j : Fin 5504), i = ix2 b j := ⟨i 0, i 1, eq_ix2 i⟩
  rw [Read.val_main_v11_apply, Read.val_main_v10_apply, Read.val_main_v9_apply, Read.val_main_v8_apply, idx_v8_v9,
    energy_apply, rowSq_apply]
  rfl

end Cert.ReferenceIdeal.RefValue

end
-- ==== Proof.lean ====
/-
  A SwiGLU block — gate and up projections, silu(gate)·up, the per-neuron impact sqrt(Σ_s act² · ‖w_up row‖²), and the
  down projection — computed two ways. The tiled program zero-extends the 5504 neurons to 5632 and runs two grid
  regions: the first accumulates, over four sequence tiles, the energy of each neuron in a scratch row and writes the
  intermediate and the impacts; the second accumulates the down projection over eleven neuron tiles. The plain program
  is three contractions over whole arrays.

  On the extended reals both are the functions of Spec.lean: a tile-by-tile sum is the whole sum (addition is
  commutative and associative on the extended reals), a change of float format is the identity, the logistic function is
  1 / (1 + exp (−x)) on both sides, and the zero rows contribute a · 0 = 0 to the down projection and are sliced off
  the impacts (Pad.lean). The three programs run to the end and leave their arguments unchanged: for the two tiled
  ones this is read off the chain of segments (KI/Regions.lean, K/Regions.lean), for the plain one off its run.
-/
import proofs.«180569_j56959856279853_2_alg».proof.Defs
import proofs.«180569_j56959856279853_2_alg».proof.Proof.Gen.Kernel
import proofs.«180569_j56959856279853_2_alg».proof.Proof.Gen.KernelIdeal
import proofs.«180569_j56959856279853_2_alg».proof.Proof.Gen.ReferenceIdeal
import proofs.«180569_j56959856279853_2_alg».proof.Proof.Gen.Pre_finite_inputs
import proofs.«180569_j56959856279853_2_alg».proof.Proof.K.Frame
import proofs.«180569_j56959856279853_2_alg».proof.Proof.KI.Frame
import proofs.«180569_j56959856279853_2_alg».proof.Proof.KI.Result
import proofs.«180569_j56959856279853_2_alg».proof.Proof.RefValue

noncomputable section

namespace Cert.Proof

open Idealize.ShloMosaic Idealize.ShloMosaic.TcCoe Idealize.SL.Sem

/-- The tiled program as printed runs and leaves its arguments unchanged. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The plain program's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten for the reading on the extended reals. -/
theorem preserves : Cert.preserves_Kernel_KernelIdeal := trivial

open Cert.KernelIdeal.Hand in
/-- From memories that agree on the four arguments, the tiled program ends with the down projection and the impacts of
    Spec.lean at 5504 neurons, and so does the plain program. -/
theorem algebraic : Cert.algebraic_KernelIdeal_ReferenceIdeal := by
  intro m ρ m' ρ' _ hagree
  refine ⟨fun c => (fun i => Cert.Swiglu.down (n := 5504)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2)),
    fun c => (fun i => Cert.Swiglu.impact (n := 5504)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1)), ?_, ?_⟩
  · refine (θ_run Cert.KernelIdeal.defs _ _).mono (fun _ h c => ?_) (run_all (F := Ideal) m ρ)
    exact ⟨(h c _ (mem_uc Cert.KernelIdeal.main_v8 (by decide))).trans (out_eq m ρ c),
      (h c _ (mem_uc Cert.KernelIdeal.main_v5 (by decide))).trans (imp_eq m ρ c),
      (h c _ (mem_uc Cert.KernelIdeal.main_arg0 (by decide))).trans (W11_main_arg0 m ρ c),
      (h c _ (mem_uc Cert.KernelIdeal.main_arg1 (by decide))).trans (W11_main_arg1 m ρ c),
      (h c _ (mem_uc Cert.KernelIdeal.main_arg2 (by decide))).trans (W11_main_arg2 m ρ c),
      (h c _ (mem_uc Cert.KernelIdeal.main_arg3 (by decide))).trans (W11_main_arg3 m ρ c)⟩
  · refine (θ_run Cert.ReferenceIdeal.defs _ _).mono (fun _ h c => ⟨?_, ?_, (h c).2.2⟩)
      (Cert.ReferenceIdeal.Value.run (F := Ideal) m' ρ')
    · have e := ((h c).1.trans (Cert.ReferenceIdeal.Read.val_main_v12_eq _ _ _ _)).trans
        (Cert.ReferenceIdeal.RefValue.ref_out _ _ _ _)
      rw [(hagree c).1, (hagree c).2.1, (hagree c).2.2.1, (hagree c).2.2.2] at e
      exact e
    · have e := ((h c).2.1.trans (Cert.ReferenceIdeal.Read.val_main_v11_eq _ _ _)).trans
        (Cert.ReferenceIdeal.RefValue.ref_imp _ _ _)
      rw [(hagree c).1, (hagree c).2.1, (hagree c).2.2.1] at e
      exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
